-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x16x16 : Shape := ⟨4, ![64, 16, 16, 16]⟩
abbrev S_ : Shape := ⟨0, ![]⟩

class Facts : Prop where
  bcast_S_S64x16x16x16 : S_.BroadcastsInDim S64x16x16x16 (![] : Fin 0 → Fin S64x16x16x16.rank)
  reducesTo_S64x16x16x16_S_d0_1_2_3 : S64x16x16x16.ReducesTo [0, 1, 2, 3] S_
  h_S_ : 0 < S_.numel

variable [Facts]

def fn {F : FTy → Type} [FloatOps F] (main_arg0 : FVec F S64x16x16x16 .f32) : IVec S_ 1 :=
  let main_v0 : FVec F S64x16x16x16 .f32 := Host.absf main_arg0
  let main_cst : FVec F S_ .f32 := constant S_ .f32 0x7F800000#32
  let main_v1 : FVec F S64x16x16x16 .f32 := broadcastInDim S64x16x16x16 ![] bcast_S_S64x16x16x16 main_cst
  let main_v2 : IVec S64x16x16x16 1 := cmpf .olt main_v0 main_v1
  let main_c : IVec S_ 1 := constantI S_ 1 1#1
  let main_v3 : IVec S_ 1 := (fun x v => Host.reduce IntOp.andi x v reducesTo_S64x16x16x16_S_d0_1_2_3 h_S_) main_v2 main_c
  main_v3
-- ==== Kernel.lean ====
abbrev S64x16x16x16 : Shape := ⟨4, ![64, 16, 16, 16]⟩
abbrev S1024x256 : Shape := ⟨2, ![1024, 256]⟩
abbrev S1024x256x256 : Shape := ⟨3, ![1024, 256, 256]⟩
abbrev S16x256 : Shape := ⟨2, ![16, 256]⟩
abbrev S16x256x256 : Shape := ⟨3, ![16, 256, 256]⟩
abbrev S16x1x256 : Shape := ⟨3, ![16, 1, 256]⟩
abbrev S16x2x256 : Shape := ⟨3, ![16, 2, 256]⟩
abbrev S64x16x256x256 : Shape := ⟨4, ![64, 16, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S64x16x16x16, .f32⟩
  | .hbm, ⟨1, _⟩ => ⟨S1024x256, .f32⟩
  | .hbm, ⟨2, _⟩ => ⟨S1024x256x256, .f32⟩
  | .hbm, ⟨3, _⟩ => ⟨S64x16x256x256, .f32⟩
  | .local _ .vmem, ⟨0, _⟩ => ⟨S16x256, .f32⟩
  | .local _ .vmem, ⟨1, _⟩ => ⟨S16x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .bf16⟩
  | .local _ .vmem, ⟨5, _⟩ => ⟨S16x256x256, .bf16⟩
  | _, _ => ⟨S64x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x16x16x16_S1024x256 : S64x16x16x16.ShapeCasts S1024x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  rotates_S16x256_d1 : S16x256.Rotates 1 none
  shapeCasts_S16x256_S16x1x256 : S16x256.ShapeCasts S16x1x256
  bitsLt_bf16_f32 : FTy.bits .bf16 < FTy.bits .f32
  inb_S16x256x256_S16x1x256_0_0_0 : ∀ a, (![0, 0, 0] : Fin 3 → Nat) a + S16x1x256.size a ≤ S16x256x256.size a
  h_S16x1x256 : 0 < S16x1x256.numel
  shapeCasts_S16x1x256_S16x1x256 : S16x1x256.ShapeCasts S16x1x256
  inb_S16x256x256_S16x2x256_0_0_0 : ∀ a, (![0, 0, 0] : Fin 3 → Nat) a + S16x2x256.size a ≤ S16x256x256.size a
  h_S16x2x256 : 0 < S16x2x256.numel
  slices_S16x2x256_S16x1x256_0_0_0 : S16x2x256.Slices ![0, 0, 0] S16x1x256
  packedbf16_S16x256x256_S16x2x256_0_0_0 : (Rect.unit (s := S16x256x256) ![0, 0, 0] S16x2x256.size inb_S16x256x256_S16x2x256_0_0_0).PackedRows (EltTy.packing .bf16)
  inb_S16x256x256_S16x1x256_0_1_0 : ∀ a, (![0, 1, 0] : Fin 3 → Nat) a + S16x1x256.size a ≤ S16x256x256.size a
  slices_S16x2x256_S16x1x256_0_1_0 : S16x2x256.Slices ![0, 1, 0] S16x1x256
  inb_S16x256x256_S16x1x256_0_2_0 : ∀ a, (![0, 2, 0] : Fin 3 → Nat) a + S16x1x256.size a ≤ S16x256x256.size a
  inb_S16x256x256_S16x2x256_0_2_0 : ∀ a, (![0, 2, 0] : Fin 3 → Nat) a + S16x2x256.size a ≤ S16x256x256.size a
  packedbf16_S16x256x256_S16x2x256_0_2_0 : (Rect.unit (s := S16x256x256) ![0, 2, 0] S16x2x256.size inb_S16x256x256_S16x2x256_0_2_0).PackedRows (EltTy.packing .bf16)
  inb_S16x256x256_S16x1x256_0_3_0 : ∀ a, (![0, 3, 0] : Fin 3 → Nat) a + S16x1x256.size a ≤ S16x256x256.size a
  inb_S16x256x256_S16x1x256_0_4_0 : ∀ a, (![0, 4, 0] : Fin 3 → Nat) a + S16x1x256.size a ≤ S16x256x256.size a
  inb_S16x256x256_S16x2x256_0_4_0 : ∀ a, (![0, 4, 0] : Fin 3 → Nat) a + S16x2x256.size a ≤ S16x256x256.size a
  packedbf16_S16x256x256_S16x2x256_0_4_0 : (Rect.unit (s := S16x256x256) ![0, 4, 0] S16x2x256.size inb_S16x256x256_S16x2x256_0_4_0).PackedRows (EltTy.packing .bf16)
  inb_S16x256x256_S16x1x256_0_5_0 : ∀ a, (![0, 5, 0] : Fin 3 → Nat) a + S16x1x256.size a ≤ S16x256x256.size a
  inb_S16x256x256_S16x1x256_0_6_0 : ∀ a, (![0, 6, 0] : Fin 3 → Nat) a + S16x1x256.size a ≤ S16x256x256.size a
  inb_S16x256x256_S16x2x256_0_6_0 : ∀ a, (![0, 6, 0] : Fin 3 → Nat) a + S16x2x256.size a ≤ S16x256x256.size a
  packedbf16_S16x256x256_S16x2x256_0_6_0 : (Rect.unit (s := S16x256x256) ![0, 6, 0] S16x2x256.size inb_S16x256x256_S16x2x256_0_6_0).PackedRows (EltTy.packing .bf16)
  inb_S16x256x256_S16x1x256_0_7_0 : ∀ a, (![0, 7, 0] : Fin 3 → Nat) a + S16x1x256.size a ≤ S16x256x256.size a
  inb_S16x256x256_S16x1x256_0_8_0 : ∀ a, (![0, 8, 0] : Fin 3 → Nat) a + S16x1x256.size a ≤ S16x256x256.size a
  inb_S16x256x256_S16x2x256_0_8_0 : ∀ a, (![0, 8, 0] : Fin 3 → Nat) a + S16x2x256.size a ≤ S16x256x256.size a
  packedbf16_S16x256x256_S16x2x256_0_8_0 : (Rect.unit (s := S16x256x256) ![0, 8, 0] S16x2x256.size inb_S16x256x256_S16x2x256_0_8_0).PackedRows (EltTy.packing .bf16)
  inb_S16x256x256_S16x1x256_0_9_0 : ∀ a, (![0, 9, 0] : Fin 3 → Nat) a + S16x1x256.size a ≤ S16x256x256.size a
  inb_S16x256x256_S16x1x256_0_10_0 : ∀ a, (![0, 10, 0] : Fin 3 → Nat) a + S16x1x256.size a ≤ S16x256x256.size a
  inb_S16x256x256_S16x2x256_0_10_0 : ∀ a, (![0, 10, 0] : Fin 3 → Nat) a + S16x2x256.size a ≤ S16x256x256.size a
  packedbf16_S16x256x256_S16x2x256_0_10_0 : (Rect.unit (s := S16x256x256) ![0, 10, 0] S16x2x256.size inb_S16x256x256_S16x2x256_0_10_0).PackedRows (EltTy.packing .bf16)
  inb_S16x256x256_S16x1x256_0_11_0 : ∀ a, (![0, 11, 0] : Fin 3 → Nat) a + S16x1x256.size a ≤ S16x256x256.size a
  inb_S16x256x256_S16x1x256_0_12_0 : ∀ a, (![0, 12, 0] : Fin 3 → Nat) a + S16x1x256.size a ≤ S16x256x256.size a
  inb_S16x256x256_S16x2x256_0_12_0 : ∀ a, (![0, 12, 0] : Fin 3 → Nat) a + S16x2x256.size a ≤ S16x256x256.size a
  packedbf16_S16x256x256_S16x2x256_0_12_0 : (Rect.unit (s := S16x256x256) ![0, 12, 0] S16x2x256.size inb_S16x256x256_S16x2x256_0_12_0).PackedRows (EltTy.packing .bf16)
  inb_S16x256x256_S16x1x256_0_13_0 : ∀ a, (![0, 13, 0] : Fin 3 → Nat) a + S16x1x256.size a ≤ S16x256x256.size a
  inb_S16x256x256_S16x1x256_0_14_0 : ∀ a, (![0, 14, 0] : Fin 3 → Nat) a + S16x1x256.size a ≤ S16x256x256.size a
  inb_S16x256x256_S16x2x256_0_14_0 : ∀ a, (![0, 14, 0] : Fin 3 → Nat) a + S16x2x256.size a ≤ S16x256x256.size a
  packedbf16_S16x256x256_S16x2x256_0_14_0 : (Rect.unit (s := S16x256x256) ![0, 14, 0] S16x2x256.size inb_S16x256x256_S16x2x256_0_14_0).PackedRows (EltTy.packing .bf16)
  inb_S16x256x256_S16x1x256_0_15_0 : ∀ a, (![0, 15, 0] : Fin 3 → Nat) a + S16x1x256.size a ≤ S16x256x256.size a
  inb_S16x256x256_S16x1x256_0_16_0 : ∀ a, (![0, 16, 0] : Fin 3 → Nat) a + S16x1x256.size a ≤ S16x256x256.size a
  inb_S16x256x256_S16x2x256_0_16_0 : ∀ a, (![0, 16, 0] : Fin 3 → Nat) a + S16x2x256.size a ≤ S16x256x256.size a
  packedbf16_S16x256x256_S16x2x256_0_16_0 : (Rect.unit (s := S16x256x256) ![0, 16, 0] S16x2x256.size inb_S16x256x256_S16x2x256_0_16_0).PackedRows (EltTy.packing .bf16)
  inb_S16x256x256_S16x1x256_0_17_0 : ∀ a, (![0, 17, 0] : Fin 3 → Nat) a + S16x1x256.size a ≤ S16x256x256.size a
  inb_S16x256x256_S16x1x256_0_18_0 : ∀ a, (![0, 18, 0] : Fin 3 → Nat) a + S16x1x256.size a ≤ S16x256x256.size a
  inb_S16x256x256_S16x2x256_0_18_0 : ∀ a, (![0, 18, 0] : Fin 3 → Nat) a + S16x2x256.size a ≤ S16x256x256.size a
  packedbf16_S16x256x256_S16x2x256_0_18_0 : (Rect.unit (s := S16x256x256) ![0, 18, 0] S16x2x256.size inb_S16x256x256_S16x2x256_0_18_0).PackedRows (EltTy.packing .bf16)
  inb_S16x256x256_S16x1x256_0_19_0 : ∀ a, (![0, 19, 0] : Fin 3 → Nat) a + S16x1x256.size a ≤ S16x256x256.size a
  inb_S16x256x256_S16x1x256_0_20_0 : ∀ a, (![0, 20, 0] : Fin 3 → Nat) a + S16x1x256.size a ≤ S16x256x256.size a
  inb_S16x256x256_S16x2x256_0_20_0 : ∀ a, (![0, 20, 0] : Fin 3 → Nat) a + S16x2x256.size a ≤ S16x256x256.size a
  packedbf16_S16x256x256_S16x2x256_0_20_0 : (Rect.unit (s := S16x256x256) ![0, 20, 0] S16x2x256.size inb_S16x256x256_S16x2x256_0_20_0).PackedRows (EltTy.packing .bf16)
  inb_S16x256x256_S16x1x256_0_21_0 : ∀ a, (![0, 21, 0] : Fin 3 → Nat) a + S16x1x256.size a ≤ S16x256x256.size a
  inb_S16x256x256_S16x1x256_0_22_0 : ∀ a, (![0, 22, 0] : Fin 3 → Nat) a + S16x1x256.size a ≤ S16x256x256.size a
  inb_S16x256x256_S16x2x256_0_22_0 : ∀ a, (![0, 22, 0] : Fin 3 → Nat) a + S16x2x256.size a ≤ S16x256x256.size a
  packedbf16_S16x256x256_S16x2x256_0_22_0 : (Rect.unit (s := S16x256x256) ![0, 22, 0] S16x2x256.size inb_S16x256x256_S16x2x256_0_22_0).PackedRows (EltTy.packing .bf16)
  inb_S16x256x256_S16x1x256_0_23_0 : ∀ a, (![0, 23, 0] : Fin 3 → Nat) a + S16x1x256.size a ≤ S16x256x256.size a
  inb_S16x256x256_S16x1x256_0_24_0 : ∀ a, (![0, 24, 0] : Fin 3 → Nat) a + S16x1x256.size a ≤ S16x256x256.size a
  inb_S16x256x256_S16x2x256_0_24_0 : ∀ a, (![0, 24, 0] : Fin 3 → Nat) a + S16x2x256.size a ≤ S16x256x256.size a
  packedbf16_S16x256x256_S16x2x256_0_24_0 : (Rect.unit (s := S16x256x256) ![0, 24, 0] S16x2x256.size inb_S16x256x256_S16x2x256_0_24_0).PackedRows (EltTy.packing .bf16)
  inb_S16x256x256_S16x1x256_0_25_0 : ∀ a, (![0, 25, 0] : Fin 3 → Nat) a + S16x1x256.size a ≤ S16x256x256.size a
  inb_S16x256x256_S16x1x256_0_26_0 : ∀ a, (![0, 26, 0] : Fin 3 → Nat) a + S16x1x256.size a ≤ S16x256x256.size a
  inb_S16x256x256_S16x2x256_0_26_0 : ∀ a, (![0, 26, 0] : Fin 3 → Nat) a + S16x2x256.size a ≤ S16x256x256.size a
  packedbf16_S16x256x256_S16x2x256_0_26_0 : (Rect.unit (s := S16x256x256) ![0, 26, 0] S16x2x256.size inb_S16x256x256_S16x2x256_0_26_0).PackedRows (EltTy.packing .bf16)
  inb_S16x256x256_S16x1x256_0_27_0 : ∀ a, (![0, 27, 0] : Fin 3 → Nat) a + S16x1x256.size a ≤ S16x256x256.size a
  inb_S16x256x256_S16x1x256_0_28_0 : ∀ a, (![0, 28, 0] : Fin 3 → Nat) a + S16x1x256.size a ≤ S16x256x256.size a
  inb_S16x256x256_S16x2x256_0_28_0 : ∀ a, (![0, 28, 0] : Fin 3 → Nat) a + S16x2x256.size a ≤ S16x256x256.size a
  packedbf16_S16x256x256_S16x2x256_0_28_0 : (Rect.unit (s := S16x256x256) ![0, 28, 0] S16x2x256.size inb_S16x256x256_S16x2x256_0_28_0).PackedRows (EltTy.packing .bf16)
  inb_S16x256x256_S16x1x256_0_29_0 : ∀ a, (![0, 29, 0] : Fin 3 → Nat) a + S16x1x256.size a ≤ S16x256x256.size a
  inb_S16x256x256_S16x1x256_0_30_0 : ∀ a, (![0, 30, 0] : Fin 3 → Nat) a + S16x1x256.size a ≤ S16x256x256.size a
  inb_S16x256x256_S16x2x256_0_30_0 : ∀ a, (![0, 30, 0] : Fin 3 → Nat) a + S16x2x256.size a ≤ S16x256x256.size a
  packedbf16_S16x256x256_S16x2x256_0_30_0 : (Rect.unit (s := S16x256x256) ![0, 30, 0] S16x2x256.size inb_S16x256x256_S16x2x256_0_30_0).PackedRows (EltTy.packing .bf16)
  inb_S16x256x256_S16x1x256_0_31_0 : ∀ a, (![0, 31, 0] : Fin 3 → Nat) a + S16x1x256.size a ≤ S16x256x256.size a
  inb_S16x256x256_S16x1x256_0_32_0 : ∀ a, (![0, 32, 0] : Fin 3 → Nat) a + S16x1x256.size a ≤ S16x256x256.size a
  inb_S16x256x256_S16x2x256_0_32_0 : ∀ a, (![0, 32, 0] : Fin 3 → Nat) a + S16x2x256.size a ≤ S16x256x256.size a
  packedbf16_S16x256x256_S16x2x256_0_32_0 : (Rect.unit (s := S16x256x256) ![0, 32, 0] S16x2x256.size inb_S16x256x256_S16x2x256_0_32_0).PackedRows (EltTy.packing .bf16)
  inb_S16x256x256_S16x1x256_0_33_0 : ∀ a, (![0, 33, 0] : Fin 3 → Nat) a + S16x1x256.size a ≤ S16x256x256.size a
  inb_S16x256x256_S16x1x256_0_34_0 : ∀ a, (![0, 34, 0] : Fin 3 → Nat) a + S16x1x256.size a ≤ S16x256x256.size a
  inb_S16x256x256_S16x2x256_0_34_0 : ∀ a, (![0, 34, 0] : Fin 3 → Nat) a + S16x2x256.size a ≤ S16x256x256.size a
  packedbf16_S16x256x256_S16x2x256_0_34_0 : (Rect.unit (s := S16x256x256) ![0, 34, 0] S16x2x256.size inb_S16x256x256_S16x2x256_0_34_0).PackedRows (EltTy.packing .bf16)
  inb_S16x256x256_S16x1x256_0_35_0 : ∀ a, (![0, 35, 0] : Fin 3 → Nat) a + S16x1x256.size a ≤ S16x256x256.size a
  inb_S16x256x256_S16x1x256_0_36_0 : ∀ a, (![0, 36, 0] : Fin 3 → Nat) a + S16x1x256.size a ≤ S16x256x256.size a
  inb_S16x256x256_S16x2x256_0_36_0 : ∀ a, (![0, 36, 0] : Fin 3 → Nat) a + S16x2x256.size a ≤ S16x256x256.size a
  packedbf16_S16x256x256_S16x2x256_0_36_0 : (Rect.unit (s := S16x256x256) ![0, 36, 0] S16x2x256.size inb_S16x256x256_S16x2x256_0_36_0).PackedRows (EltTy.packing .bf16)
  inb_S16x256x256_S16x1x256_0_37_0 : ∀ a, (![0, 37, 0] : Fin 3 → Nat) a + S16x1x256.size a ≤ S16x256x256.size a
  inb_S16x256x256_S16x1x256_0_38_0 : ∀ a, (![0, 38, 0] : Fin 3 → Nat) a + S16x1x256.size a ≤ S16x256x256.size a
  inb_S16x256x256_S16x2x256_0_38_0 : ∀ a, (![0, 38, 0] : Fin 3 → Nat) a + S16x2x256.size a ≤ S16x256x256.size a
  packedbf16_S16x256x256_S16x2x256_0_38_0 : (Rect.unit (s := S16x256x256) ![0, 38, 0] S16x2x256.size inb_S16x256x256_S16x2x256_0_38_0).PackedRows (EltTy.packing .bf16)
  inb_S16x256x256_S16x1x256_0_39_0 : ∀ a, (![0, 39, 0] : Fin 3 → Nat) a + S16x1x256.size a ≤ S16x256x256.size a
  inb_S16x256x256_S16x1x256_0_40_0 : ∀ a, (![0, 40, 0] : Fin 3 → Nat) a + S16x1x256.size a ≤ S16x256x256.size a
  inb_S16x256x256_S16x2x256_0_40_0 : ∀ a, (![0, 40, 0] : Fin 3 → Nat) a + S16x2x256.size a ≤ S16x256x256.size a
  packedbf16_S16x256x256_S16x2x256_0_40_0 : (Rect.unit (s := S16x256x256) ![0, 40, 0] S16x2x256.size inb_S16x256x256_S16x2x256_0_40_0).PackedRows (EltTy.packing .bf16)
  inb_S16x256x256_S16x1x256_0_41_0 : ∀ a, (![0, 41, 0] : Fin 3 → Nat) a + S16x1x256.size a ≤ S16x256x256.size a
  inb_S16x256x256_S16x1x256_0_42_0 : ∀ a, (![0, 42, 0] : Fin 3 → Nat) a + S16x1x256.size a ≤ S16x256x256.size a
  inb_S16x256x256_S16x2x256_0_42_0 : ∀ a, (![0, 42, 0] : Fin 3 → Nat) a + S16x2x256.size a ≤ S16x256x256.size a
  packedbf16_S16x256x256_S16x2x256_0_42_0 : (Rect.unit (s := S16x256x256) ![0, 42, 0] S16x2x256.size inb_S16x256x256_S16x2x256_0_42_0).PackedRows (EltTy.packing .bf16)
  inb_S16x256x256_S16x1x256_0_43_0 : ∀ a, (![0, 43, 0] : Fin 3 → Nat) a + S16x1x256.size a ≤ S16x256x256.size a
  inb_S16x256x256_S16x1x256_0_44_0 : ∀ a, (![0, 44, 0] : Fin 3 → Nat) a + S16x1x256.size a ≤ S16x256x256.size a
  inb_S16x256x256_S16x2x256_0_44_0 : ∀ a, (![0, 44, 0] : Fin 3 → Nat) a + S16x2x256.size a ≤ S16x256x256.size a
  packedbf16_S16x256x256_S16x2x256_0_44_0 : (Rect.unit (s := S16x256x256) ![0, 44, 0] S16x2x256.size inb_S16x256x256_S16x2x256_0_44_0).PackedRows (EltTy.packing .bf16)
  inb_S16x256x256_S16x1x256_0_45_0 : ∀ a, (![0, 45, 0] : Fin 3 → Nat) a + S16x1x256.size a ≤ S16x256x256.size a
  inb_S16x256x256_S16x1x256_0_46_0 : ∀ a, (![0, 46, 0] : Fin 3 → Nat) a + S16x1x256.size a ≤ S16x256x256.size a
  inb_S16x256x256_S16x2x256_0_46_0 : ∀ a, (![0, 46, 0] : Fin 3 → Nat) a + S16x2x256.size a ≤ S16x256x256.size a
  packedbf16_S16x256x256_S16x2x256_0_46_0 : (Rect.unit (s := S16x256x256) ![0, 46, 0] S16x2x256.size inb_S16x256x256_S16x2x256_0_46_0).PackedRows (EltTy.packing .bf16)
  inb_S16x256x256_S16x1x256_0_47_0 : ∀ a, (![0, 47, 0] : Fin 3 → Nat) a + S16x1x256.size a ≤ S16x256x256.size a
  inb_S16x256x256_S16x1x256_0_48_0 : ∀ a, (![0, 48, 0] : Fin 3 → Nat) a + S16x1x256.size a ≤ S16x256x256.size a
  inb_S16x256x256_S16x2x256_0_48_0 : ∀ a, (![0, 48, 0] : Fin 3 → Nat) a + S16x2x256.size a ≤ S16x256x256.size a
  packedbf16_S16x256x256_S16x2x256_0_48_0 : (Rect.unit (s := S16x256x256) ![0, 48, 0] S16x2x256.size inb_S16x256x256_S16x2x256_0_48_0).PackedRows (EltTy.packing .bf16)
  inb_S16x256x256_S16x1x256_0_49_0 : ∀ a, (![0, 49, 0] : Fin 3 → Nat) a + S16x1x256.size a ≤ S16x256x256.size a
  inb_S16x256x256_S16x1x256_0_50_0 : ∀ a, (![0, 50, 0] : Fin 3 → Nat) a + S16x1x256.size a ≤ S16x256x256.size a
  inb_S16x256x256_S16x2x256_0_50_0 : ∀ a, (![0, 50, 0] : Fin 3 → Nat) a + S16x2x256.size a ≤ S16x256x256.size a
  packedbf16_S16x256x256_S16x2x256_0_50_0 : (Rect.unit (s := S16x256x256) ![0, 50, 0] S16x2x256.size inb_S16x256x256_S16x2x256_0_50_0).PackedRows (EltTy.packing .bf16)
  inb_S16x256x256_S16x1x256_0_51_0 : ∀ a, (![0, 51, 0] : Fin 3 → Nat) a + S16x1x256.size a ≤ S16x256x256.size a
  inb_S16x256x256_S16x1x256_0_52_0 : ∀ a, (![0, 52, 0] : Fin 3 → Nat) a + S16x1x256.size a ≤ S16x256x256.size a
  inb_S16x256x256_S16x2x256_0_52_0 : ∀ a, (![0, 52, 0] : Fin 3 → Nat) a + S16x2x256.size a ≤ S16x256x256.size a
  packedbf16_S16x256x256_S16x2x256_0_52_0 : (Rect.unit (s := S16x256x256) ![0, 52, 0] S16x2x256.size inb_S16x256x256_S16x2x256_0_52_0).PackedRows (EltTy.packing .bf16)
  inb_S16x256x256_S16x1x256_0_53_0 : ∀ a, (![0, 53, 0] : Fin 3 → Nat) a + S16x1x256.size a ≤ S16x256x256.size a
  inb_S16x256x256_S16x1x256_0_54_0 : ∀ a, (![0, 54, 0] : Fin 3 → Nat) a + S16x1x256.size a ≤ S16x256x256.size a
  inb_S16x256x256_S16x2x256_0_54_0 : ∀ a, (![0, 54, 0] : Fin 3 → Nat) a + S16x2x256.size a ≤ S16x256x256.size a
  packedbf16_S16x256x256_S16x2x256_0_54_0 : (Rect.unit (s := S16x256x256) ![0, 54, 0] S16x2x256.size inb_S16x256x256_S16x2x256_0_54_0).PackedRows (EltTy.packing .bf16)
  inb_S16x256x256_S16x1x256_0_55_0 : ∀ a, (![0, 55, 0] : Fin 3 → Nat) a + S16x1x256.size a ≤ S16x256x256.size a
  inb_S16x256x256_S16x1x256_0_56_0 : ∀ a, (![0, 56, 0] : Fin 3 → Nat) a + S16x1x256.size a ≤ S16x256x256.size a
  inb_S16x256x256_S16x2x256_0_56_0 : ∀ a, (![0, 56, 0] : Fin 3 → Nat) a + S16x2x256.size a ≤ S16x256x256.size a
  packedbf16_S16x256x256_S16x2x256_0_56_0 : (Rect.unit (s := S16x256x256) ![0, 56, 0] S16x2x256.size inb_S16x256x256_S16x2x256_0_56_0).PackedRows (EltTy.packing .bf16)
  inb_S16x256x256_S16x1x256_0_57_0 : ∀ a, (![0, 57, 0] : Fin 3 → Nat) a + S16x1x256.size a ≤ S16x256x256.size a
  inb_S16x256x256_S16x1x256_0_58_0 : ∀ a, (![0, 58, 0] : Fin 3 → Nat) a + S16x1x256.size a ≤ S16x256x256.size a
  inb_S16x256x256_S16x2x256_0_58_0 : ∀ a, (![0, 58, 0] : Fin 3 → Nat) a + S16x2x256.size a ≤ S16x256x256.size a
  packedbf16_S16x256x256_S16x2x256_0_58_0 : (Rect.unit (s := S16x256x256) ![0, 58, 0] S16x2x256.size inb_S16x256x256_S16x2x256_0_58_0).PackedRows (EltTy.packing .bf16)
  inb_S16x256x256_S16x1x256_0_59_0 : ∀ a, (![0, 59, 0] : Fin 3 → Nat) a + S16x1x256.size a ≤ S16x256x256.size a
  inb_S16x256x256_S16x1x256_0_60_0 : ∀ a, (![0, 60, 0] : Fin 3 → Nat) a + S16x1x256.size a ≤ S16x256x256.size a
  inb_S16x256x256_S16x2x256_0_60_0 : ∀ a, (![0, 60, 0] : Fin 3 → Nat) a + S16x2x256.size a ≤ S16x256x256.size a
  packedbf16_S16x256x256_S16x2x256_0_60_0 : (Rect.unit (s := S16x256x256) ![0, 60, 0] S16x2x256.size inb_S16x256x256_S16x2x256_0_60_0).PackedRows (EltTy.packing .bf16)
  inb_S16x256x256_S16x1x256_0_61_0 : ∀ a, (![0, 61, 0] : Fin 3 → Nat) a + S16x1x256.size a ≤ S16x256x256.size a
  inb_S16x256x256_S16x1x256_0_62_0 : ∀ a, (![0, 62, 0] : Fin 3 → Nat) a + S16x1x256.size a ≤ S16x256x256.size a
  inb_S16x256x256_S16x2x256_0_62_0 : ∀ a, (![0, 62, 0] : Fin 3 → Nat) a + S16x2x256.size a ≤ S16x256x256.size a
  packedbf16_S16x256x256_S16x2x256_0_62_0 : (Rect.unit (s := S16x256x256) ![0, 62, 0] S16x2x256.size inb_S16x256x256_S16x2x256_0_62_0).PackedRows (EltTy.packing .bf16)
  inb_S16x256x256_S16x1x256_0_63_0 : ∀ a, (![0, 63, 0] : Fin 3 → Nat) a + S16x1x256.size a ≤ S16x256x256.size a
  inb_S16x256x256_S16x1x256_0_64_0 : ∀ a, (![0, 64, 0] : Fin 3 → Nat) a + S16x1x256.size a ≤ S16x256x256.size a
  inb_S16x256x256_S16x2x256_0_64_0 : ∀ a, (![0, 64, 0] : Fin 3 → Nat) a + S16x2x256.size a ≤ S16x256x256.size a
  packedbf16_S16x256x256_S16x2x256_0_64_0 : (Rect.unit (s := S16x256x256) ![0, 64, 0] S16x2x256.size inb_S16x256x256_S16x2x256_0_64_0).PackedRows (EltTy.packing .bf16)
  inb_S16x256x256_S16x1x256_0_65_0 : ∀ a, (![0, 65, 0] : Fin 3 → Nat) a + S16x1x256.size a ≤ S16x256x256.size a
  inb_S16x256x256_S16x1x256_0_66_0 : ∀ a, (![0, 66, 0] : Fin 3 → Nat) a + S16x1x256.size a ≤ S16x256x256.size a
  inb_S16x256x256_S16x2x256_0_66_0 : ∀ a, (![0, 66, 0] : Fin 3 → Nat) a + S16x2x256.size a ≤ S16x256x256.size a
  packedbf16_S16x256x256_S16x2x256_0_66_0 : (Rect.unit (s := S16x256x256) ![0, 66, 0] S16x2x256.size inb_S16x256x256_S16x2x256_0_66_0).PackedRows (EltTy.packing .bf16)
  inb_S16x256x256_S16x1x256_0_67_0 : ∀ a, (![0, 67, 0] : Fin 3 → Nat) a + S16x1x256.size a ≤ S16x256x256.size a
  inb_S16x256x256_S16x1x256_0_68_0 : ∀ a, (![0, 68, 0] : Fin 3 → Nat) a + S16x1x256.size a ≤ S16x256x256.size a
  inb_S16x256x256_S16x2x256_0_68_0 : ∀ a, (![0, 68, 0] : Fin 3 → Nat) a + S16x2x256.size a ≤ S16x256x256.size a
  packedbf16_S16x256x256_S16x2x256_0_68_0 : (Rect.unit (s := S16x256x256) ![0, 68, 0] S16x2x256.size inb_S16x256x256_S16x2x256_0_68_0).PackedRows (EltTy.packing .bf16)
  inb_S16x256x256_S16x1x256_0_69_0 : ∀ a, (![0, 69, 0] : Fin 3 → Nat) a + S16x1x256.size a ≤ S16x256x256.size a
  inb_S16x256x256_S16x1x256_0_70_0 : ∀ a, (![0, 70, 0] : Fin 3 → Nat) a + S16x1x256.size a ≤ S16x256x256.size a
  inb_S16x256x256_S16x2x256_0_70_0 : ∀ a, (![0, 70, 0] : Fin 3 → Nat) a + S16x2x256.size a ≤ S16x256x256.size a
  packedbf16_S16x256x256_S16x2x256_0_70_0 : (Rect.unit (s := S16x256x256) ![0, 70, 0] S16x2x256.size inb_S16x256x256_S16x2x256_0_70_0).PackedRows (EltTy.packing .bf16)
  inb_S16x256x256_S16x1x256_0_71_0 : ∀ a, (![0, 71, 0] : Fin 3 → Nat) a + S16x1x256.size a ≤ S16x256x256.size a
  inb_S16x256x256_S16x1x256_0_72_0 : ∀ a, (![0, 72, 0] : Fin 3 → Nat) a + S16x1x256.size a ≤ S16x256x256.size a
  inb_S16x256x256_S16x2x256_0_72_0 : ∀ a, (![0, 72, 0] : Fin 3 → Nat) a + S16x2x256.size a ≤ S16x256x256.size a
  packedbf16_S16x256x256_S16x2x256_0_72_0 : (Rect.unit (s := S16x256x256) ![0, 72, 0] S16x2x256.size inb_S16x256x256_S16x2x256_0_72_0).PackedRows (EltTy.packing .bf16)
  inb_S16x256x256_S16x1x256_0_73_0 : ∀ a, (![0, 73, 0] : Fin 3 → Nat) a + S16x1x256.size a ≤ S16x256x256.size a
  inb_S16x256x256_S16x1x256_0_74_0 : ∀ a, (![0, 74, 0] : Fin 3 → Nat) a + S16x1x256.size a ≤ S16x256x256.size a
  inb_S16x256x256_S16x2x256_0_74_0 : ∀ a, (![0, 74, 0] : Fin 3 → Nat) a + S16x2x256.size a ≤ S16x256x256.size a
  packedbf16_S16x256x256_S16x2x256_0_74_0 : (Rect.unit (s := S16x256x256) ![0, 74, 0] S16x2x256.size inb_S16x256x256_S16x2x256_0_74_0).PackedRows (EltTy.packing .bf16)
  inb_S16x256x256_S16x1x256_0_75_0 : ∀ a, (![0, 75, 0] : Fin 3 → Nat) a + S16x1x256.size a ≤ S16x256x256.size a
  inb_S16x256x256_S16x1x256_0_76_0 : ∀ a, (![0, 76, 0] : Fin 3 → Nat) a + S16x1x256.size a ≤ S16x256x256.size a
  inb_S16x256x256_S16x2x256_0_76_0 : ∀ a, (![0, 76, 0] : Fin 3 → Nat) a + S16x2x256.size a ≤ S16x256x256.size a
  packedbf16_S16x256x256_S16x2x256_0_76_0 : (Rect.unit (s := S16x256x256) ![0, 76, 0] S16x2x256.size inb_S16x256x256_S16x2x256_0_76_0).PackedRows (EltTy.packing .bf16)
  inb_S16x256x256_S16x1x256_0_77_0 : ∀ a, (![0, 77, 0] : Fin 3 → Nat) a + S16x1x256.size a ≤ S16x256x256.size a
  inb_S16x256x256_S16x1x256_0_78_0 : ∀ a, (![0, 78, 0] : Fin 3 → Nat) a + S16x1x256.size a ≤ S16x256x256.size a
  inb_S16x256x256_S16x2x256_0_78_0 : ∀ a, (![0, 78, 0] : Fin 3 → Nat) a + S16x2x256.size a ≤ S16x256x256.size a
  packedbf16_S16x256x256_S16x2x256_0_78_0 : (Rect.unit (s := S16x256x256) ![0, 78, 0] S16x2x256.size inb_S16x256x256_S16x2x256_0_78_0).PackedRows (EltTy.packing .bf16)
  inb_S16x256x256_S16x1x256_0_79_0 : ∀ a, (![0, 79, 0] : Fin 3 → Nat) a + S16x1x256.size a ≤ S16x256x256.size a
  inb_S16x256x256_S16x1x256_0_80_0 : ∀ a, (![0, 80, 0] : Fin 3 → Nat) a + S16x1x256.size a ≤ S16x256x256.size a
  inb_S16x256x256_S16x2x256_0_80_0 : ∀ a, (![0, 80, 0] : Fin 3 → Nat) a + S16x2x256.size a ≤ S16x256x256.size a
  packedbf16_S16x256x256_S16x2x256_0_80_0 : (Rect.unit (s := S16x256x256) ![0, 80, 0] S16x2x256.size inb_S16x256x256_S16x2x256_0_80_0).PackedRows (EltTy.packing .bf16)
  inb_S16x256x256_S16x1x256_0_81_0 : ∀ a, (![0, 81, 0] : Fin 3 → Nat) a + S16x1x256.size a ≤ S16x256x256.size a
  inb_S16x256x256_S16x1x256_0_82_0 : ∀ a, (![0, 82, 0] : Fin 3 → Nat) a + S16x1x256.size a ≤ S16x256x256.size a
  inb_S16x256x256_S16x2x256_0_82_0 : ∀ a, (![0, 82, 0] : Fin 3 → Nat) a + S16x2x256.size a ≤ S16x256x256.size a
  packedbf16_S16x256x256_S16x2x256_0_82_0 : (Rect.unit (s := S16x256x256) ![0, 82, 0] S16x2x256.size inb_S16x256x256_S16x2x256_0_82_0).PackedRows (EltTy.packing .bf16)
  inb_S16x256x256_S16x1x256_0_83_0 : ∀ a, (![0, 83, 0] : Fin 3 → Nat) a + S16x1x256.size a ≤ S16x256x256.size a
  inb_S16x256x256_S16x1x256_0_84_0 : ∀ a, (![0, 84, 0] : Fin 3 → Nat) a + S16x1x256.size a ≤ S16x256x256.size a
  inb_S16x256x256_S16x2x256_0_84_0 : ∀ a, (![0, 84, 0] : Fin 3 → Nat) a + S16x2x256.size a ≤ S16x256x256.size a
  packedbf16_S16x256x256_S16x2x256_0_84_0 : (Rect.unit (s := S16x256x256) ![0, 84, 0] S16x2x256.size inb_S16x256x256_S16x2x256_0_84_0).PackedRows (EltTy.packing .bf16)
  inb_S16x256x256_S16x1x256_0_85_0 : ∀ a, (![0, 85, 0] : Fin 3 → Nat) a + S16x1x256.size a ≤ S16x256x256.size a
  inb_S16x256x256_S16x1x256_0_86_0 : ∀ a, (![0, 86, 0] : Fin 3 → Nat) a + S16x1x256.size a ≤ S16x256x256.size a
  inb_S16x256x256_S16x2x256_0_86_0 : ∀ a, (![0, 86, 0] : Fin 3 → Nat) a + S16x2x256.size a ≤ S16x256x256.size a
  packedbf16_S16x256x256_S16x2x256_0_86_0 : (Rect.unit (s := S16x256x256) ![0, 86, 0] S16x2x256.size inb_S16x256x256_S16x2x256_0_86_0).PackedRows (EltTy.packing .bf16)
  inb_S16x256x256_S16x1x256_0_87_0 : ∀ a, (![0, 87, 0] : Fin 3 → Nat) a + S16x1x256.size a ≤ S16x256x256.size a
  inb_S16x256x256_S16x1x256_0_88_0 : ∀ a, (![0, 88, 0] : Fin 3 → Nat) a + S16x1x256.size a ≤ S16x256x256.size a
  inb_S16x256x256_S16x2x256_0_88_0 : ∀ a, (![0, 88, 0] : Fin 3 → Nat) a + S16x2x256.size a ≤ S16x256x256.size a
  packedbf16_S16x256x256_S16x2x256_0_88_0 : (Rect.unit (s := S16x256x256) ![0, 88, 0] S16x2x256.size inb_S16x256x256_S16x2x256_0_88_0).PackedRows (EltTy.packing .bf16)
  inb_S16x256x256_S16x1x256_0_89_0 : ∀ a, (![0, 89, 0] : Fin 3 → Nat) a + S16x1x256.size a ≤ S16x256x256.size a
  inb_S16x256x256_S16x1x256_0_90_0 : ∀ a, (![0, 90, 0] : Fin 3 → Nat) a + S16x1x256.size a ≤ S16x256x256.size a
  inb_S16x256x256_S16x2x256_0_90_0 : ∀ a, (![0, 90, 0] : Fin 3 → Nat) a + S16x2x256.size a ≤ S16x256x256.size a
  packedbf16_S16x256x256_S16x2x256_0_90_0 : (Rect.unit (s := S16x256x256) ![0, 90, 0] S16x2x256.size inb_S16x256x256_S16x2x256_0_90_0).PackedRows (EltTy.packing .bf16)
  inb_S16x256x256_S16x1x256_0_91_0 : ∀ a, (![0, 91, 0] : Fin 3 → Nat) a + S16x1x256.size a ≤ S16x256x256.size a
  inb_S16x256x256_S16x1x256_0_92_0 : ∀ a, (![0, 92, 0] : Fin 3 → Nat) a + S16x1x256.size a ≤ S16x256x256.size a
  inb_S16x256x256_S16x2x256_0_92_0 : ∀ a, (![0, 92, 0] : Fin 3 → Nat) a + S16x2x256.size a ≤ S16x256x256.size a
  packedbf16_S16x256x256_S16x2x256_0_92_0 : (Rect.unit (s := S16x256x256) ![0, 92, 0] S16x2x256.size inb_S16x256x256_S16x2x256_0_92_0).PackedRows (EltTy.packing .bf16)
  inb_S16x256x256_S16x1x256_0_93_0 : ∀ a, (![0, 93, 0] : Fin 3 → Nat) a + S16x1x256.size a ≤ S16x256x256.size a
  inb_S16x256x256_S16x1x256_0_94_0 : ∀ a, (![0, 94, 0] : Fin 3 → Nat) a + S16x1x256.size a ≤ S16x256x256.size a
  inb_S16x256x256_S16x2x256_0_94_0 : ∀ a, (![0, 94, 0] : Fin 3 → Nat) a + S16x2x256.size a ≤ S16x256x256.size a
  packedbf16_S16x256x256_S16x2x256_0_94_0 : (Rect.unit (s := S16x256x256) ![0, 94, 0] S16x2x256.size inb_S16x256x256_S16x2x256_0_94_0).PackedRows (EltTy.packing .bf16)
  inb_S16x256x256_S16x1x256_0_95_0 : ∀ a, (![0, 95, 0] : Fin 3 → Nat) a + S16x1x256.size a ≤ S16x256x256.size a
  inb_S16x256x256_S16x1x256_0_96_0 : ∀ a, (![0, 96, 0] : Fin 3 → Nat) a + S16x1x256.size a ≤ S16x256x256.size a
  inb_S16x256x256_S16x2x256_0_96_0 : ∀ a, (![0, 96, 0] : Fin 3 → Nat) a + S16x2x256.size a ≤ S16x256x256.size a
  packedbf16_S16x256x256_S16x2x256_0_96_0 : (Rect.unit (s := S16x256x256) ![0, 96, 0] S16x2x256.size inb_S16x256x256_S16x2x256_0_96_0).PackedRows (EltTy.packing .bf16)
  inb_S16x256x256_S16x1x256_0_97_0 : ∀ a, (![0, 97, 0] : Fin 3 → Nat) a + S16x1x256.size a ≤ S16x256x256.size a
  inb_S16x256x256_S16x1x256_0_98_0 : ∀ a, (![0, 98, 0] : Fin 3 → Nat) a + S16x1x256.size a ≤ S16x256x256.size a
  inb_S16x256x256_S16x2x256_0_98_0 : ∀ a, (![0, 98, 0] : Fin 3 → Nat) a + S16x2x256.size a ≤ S16x256x256.size a
  packedbf16_S16x256x256_S16x2x256_0_98_0 : (Rect.unit (s := S16x256x256) ![0, 98, 0] S16x2x256.size inb_S16x256x256_S16x2x256_0_98_0).PackedRows (EltTy.packing .bf16)
  inb_S16x256x256_S16x1x256_0_99_0 : ∀ a, (![0, 99, 0] : Fin 3 → Nat) a + S16x1x256.size a ≤ S16x256x256.size a
  inb_S16x256x256_S16x1x256_0_100_0 : ∀ a, (![0, 100, 0] : Fin 3 → Nat) a + S16x1x256.size a ≤ S16x256x256.size a
  inb_S16x256x256_S16x2x256_0_100_0 : ∀ a, (![0, 100, 0] : Fin 3 → Nat) a + S16x2x256.size a ≤ S16x256x256.size a
  packedbf16_S16x256x256_S16x2x256_0_100_0 : (Rect.unit (s := S16x256x256) ![0, 100, 0] S16x2x256.size inb_S16x256x256_S16x2x256_0_100_0).PackedRows (EltTy.packing .bf16)
  inb_S16x256x256_S16x1x256_0_101_0 : ∀ a, (![0, 101, 0] : Fin 3 → Nat) a + S16x1x256.size a ≤ S16x256x256.size a
  inb_S16x256x256_S16x1x256_0_102_0 : ∀ a, (![0, 102, 0] : Fin 3 → Nat) a + S16x1x256.size a ≤ S16x256x256.size a
  inb_S16x256x256_S16x2x256_0_102_0 : ∀ a, (![0, 102, 0] : Fin 3 → Nat) a + S16x2x256.size a ≤ S16x256x256.size a
  packedbf16_S16x256x256_S16x2x256_0_102_0 : (Rect.unit (s := S16x256x256) ![0, 102, 0] S16x2x256.size inb_S16x256x256_S16x2x256_0_102_0).PackedRows (EltTy.packing .bf16)
  inb_S16x256x256_S16x1x256_0_103_0 : ∀ a, (![0, 103, 0] : Fin 3 → Nat) a + S16x1x256.size a ≤ S16x256x256.size a
  inb_S16x256x256_S16x1x256_0_104_0 : ∀ a, (![0, 104, 0] : Fin 3 → Nat) a + S16x1x256.size a ≤ S16x256x256.size a
  inb_S16x256x256_S16x2x256_0_104_0 : ∀ a, (![0, 104, 0] : Fin 3 → Nat) a + S16x2x256.size a ≤ S16x256x256.size a
  packedbf16_S16x256x256_S16x2x256_0_104_0 : (Rect.unit (s := S16x256x256) ![0, 104, 0] S16x2x256.size inb_S16x256x256_S16x2x256_0_104_0).PackedRows (EltTy.packing .bf16)
  inb_S16x256x256_S16x1x256_0_105_0 : ∀ a, (![0, 105, 0] : Fin 3 → Nat) a + S16x1x256.size a ≤ S16x256x256.size a
  inb_S16x256x256_S16x1x256_0_106_0 : ∀ a, (![0, 106, 0] : Fin 3 → Nat) a + S16x1x256.size a ≤ S16x256x256.size a
  inb_S16x256x256_S16x2x256_0_106_0 : ∀ a, (![0, 106, 0] : Fin 3 → Nat) a + S16x2x256.size a ≤ S16x256x256.size a
  packedbf16_S16x256x256_S16x2x256_0_106_0 : (Rect.unit (s := S16x256x256) ![0, 106, 0] S16x2x256.size inb_S16x256x256_S16x2x256_0_106_0).PackedRows (EltTy.packing .bf16)
  inb_S16x256x256_S16x1x256_0_107_0 : ∀ a, (![0, 107, 0] : Fin 3 → Nat) a + S16x1x256.size a ≤ S16x256x256.size a
  inb_S16x256x256_S16x1x256_0_108_0 : ∀ a, (![0, 108, 0] : Fin 3 → Nat) a + S16x1x256.size a ≤ S16x256x256.size a
  inb_S16x256x256_S16x2x256_0_108_0 : ∀ a, (![0, 108, 0] : Fin 3 → Nat) a + S16x2x256.size a ≤ S16x256x256.size a
  packedbf16_S16x256x256_S16x2x256_0_108_0 : (Rect.unit (s := S16x256x256) ![0, 108, 0] S16x2x256.size inb_S16x256x256_S16x2x256_0_108_0).PackedRows (EltTy.packing .bf16)
  inb_S16x256x256_S16x1x256_0_109_0 : ∀ a, (![0, 109, 0] : Fin 3 → Nat) a + S16x1x256.size a ≤ S16x256x256.size a
  inb_S16x256x256_S16x1x256_0_110_0 : ∀ a, (![0, 110, 0] : Fin 3 → Nat) a + S16x1x256.size a ≤ S16x256x256.size a
  inb_S16x256x256_S16x2x256_0_110_0 : ∀ a, (![0, 110, 0] : Fin 3 → Nat) a + S16x2x256.size a ≤ S16x256x256.size a
  packedbf16_S16x256x256_S16x2x256_0_110_0 : (Rect.unit (s := S16x256x256) ![0, 110, 0] S16x2x256.size inb_S16x256x256_S16x2x256_0_110_0).PackedRows (EltTy.packing .bf16)
  inb_S16x256x256_S16x1x256_0_111_0 : ∀ a, (![0, 111, 0] : Fin 3 → Nat) a + S16x1x256.size a ≤ S16x256x256.size a
  inb_S16x256x256_S16x1x256_0_112_0 : ∀ a, (![0, 112, 0] : Fin 3 → Nat) a + S16x1x256.size a ≤ S16x256x256.size a
  inb_S16x256x256_S16x2x256_0_112_0 : ∀ a, (![0, 112, 0] : Fin 3 → Nat) a + S16x2x256.size a ≤ S16x256x256.size a
  packedbf16_S16x256x256_S16x2x256_0_112_0 : (Rect.unit (s := S16x256x256) ![0, 112, 0] S16x2x256.size inb_S16x256x256_S16x2x256_0_112_0).PackedRows (EltTy.packing .bf16)
  inb_S16x256x256_S16x1x256_0_113_0 : ∀ a, (![0, 113, 0] : Fin 3 → Nat) a + S16x1x256.size a ≤ S16x256x256.size a
  inb_S16x256x256_S16x1x256_0_114_0 : ∀ a, (![0, 114, 0] : Fin 3 → Nat) a + S16x1x256.size a ≤ S16x256x256.size a
  inb_S16x256x256_S16x2x256_0_114_0 : ∀ a, (![0, 114, 0] : Fin 3 → Nat) a + S16x2x256.size a ≤ S16x256x256.size a
  packedbf16_S16x256x256_S16x2x256_0_114_0 : (Rect.unit (s := S16x256x256) ![0, 114, 0] S16x2x256.size inb_S16x256x256_S16x2x256_0_114_0).PackedRows (EltTy.packing .bf16)
  inb_S16x256x256_S16x1x256_0_115_0 : ∀ a, (![0, 115, 0] : Fin 3 → Nat) a + S16x1x256.size a ≤ S16x256x256.size a
  inb_S16x256x256_S16x1x256_0_116_0 : ∀ a, (![0, 116, 0] : Fin 3 → Nat) a + S16x1x256.size a ≤ S16x256x256.size a
  inb_S16x256x256_S16x2x256_0_116_0 : ∀ a, (![0, 116, 0] : Fin 3 → Nat) a + S16x2x256.size a ≤ S16x256x256.size a
  packedbf16_S16x256x256_S16x2x256_0_116_0 : (Rect.unit (s := S16x256x256) ![0, 116, 0] S16x2x256.size inb_S16x256x256_S16x2x256_0_116_0).PackedRows (EltTy.packing .bf16)
  inb_S16x256x256_S16x1x256_0_117_0 : ∀ a, (![0, 117, 0] : Fin 3 → Nat) a + S16x1x256.size a ≤ S16x256x256.size a
  inb_S16x256x256_S16x1x256_0_118_0 : ∀ a, (![0, 118, 0] : Fin 3 → Nat) a + S16x1x256.size a ≤ S16x256x256.size a
  inb_S16x256x256_S16x2x256_0_118_0 : ∀ a, (![0, 118, 0] : Fin 3 → Nat) a + S16x2x256.size a ≤ S16x256x256.size a
  packedbf16_S16x256x256_S16x2x256_0_118_0 : (Rect.unit (s := S16x256x256) ![0, 118, 0] S16x2x256.size inb_S16x256x256_S16x2x256_0_118_0).PackedRows (EltTy.packing .bf16)
  inb_S16x256x256_S16x1x256_0_119_0 : ∀ a, (![0, 119, 0] : Fin 3 → Nat) a + S16x1x256.size a ≤ S16x256x256.size a
  inb_S16x256x256_S16x1x256_0_120_0 : ∀ a, (![0, 120, 0] : Fin 3 → Nat) a + S16x1x256.size a ≤ S16x256x256.size a
  inb_S16x256x256_S16x2x256_0_120_0 : ∀ a, (![0, 120, 0] : Fin 3 → Nat) a + S16x2x256.size a ≤ S16x256x256.size a
  packedbf16_S16x256x256_S16x2x256_0_120_0 : (Rect.unit (s := S16x256x256) ![0, 120, 0] S16x2x256.size inb_S16x256x256_S16x2x256_0_120_0).PackedRows (EltTy.packing .bf16)
  inb_S16x256x256_S16x1x256_0_121_0 : ∀ a, (![0, 121, 0] : Fin 3 → Nat) a + S16x1x256.size a ≤ S16x256x256.size a
  inb_S16x256x256_S16x1x256_0_122_0 : ∀ a, (![0, 122, 0] : Fin 3 → Nat) a + S16x1x256.size a ≤ S16x256x256.size a
  inb_S16x256x256_S16x2x256_0_122_0 : ∀ a, (![0, 122, 0] : Fin 3 → Nat) a + S16x2x256.size a ≤ S16x256x256.size a
  packedbf16_S16x256x256_S16x2x256_0_122_0 : (Rect.unit (s := S16x256x256) ![0, 122, 0] S16x2x256.size inb_S16x256x256_S16x2x256_0_122_0).PackedRows (EltTy.packing .bf16)
  inb_S16x256x256_S16x1x256_0_123_0 : ∀ a, (![0, 123, 0] : Fin 3 → Nat) a + S16x1x256.size a ≤ S16x256x256.size a
  inb_S16x256x256_S16x1x256_0_124_0 : ∀ a, (![0, 124, 0] : Fin 3 → Nat) a + S16x1x256.size a ≤ S16x256x256.size a
  inb_S16x256x256_S16x2x256_0_124_0 : ∀ a, (![0, 124, 0] : Fin 3 → Nat) a + S16x2x256.size a ≤ S16x256x256.size a
  packedbf16_S16x256x256_S16x2x256_0_124_0 : (Rect.unit (s := S16x256x256) ![0, 124, 0] S16x2x256.size inb_S16x256x256_S16x2x256_0_124_0).PackedRows (EltTy.packing .bf16)
  inb_S16x256x256_S16x1x256_0_125_0 : ∀ a, (![0, 125, 0] : Fin 3 → Nat) a + S16x1x256.size a ≤ S16x256x256.size a
  inb_S16x256x256_S16x1x256_0_126_0 : ∀ a, (![0, 126, 0] : Fin 3 → Nat) a + S16x1x256.size a ≤ S16x256x256.size a
  inb_S16x256x256_S16x2x256_0_126_0 : ∀ a, (![0, 126, 0] : Fin 3 → Nat) a + S16x2x256.size a ≤ S16x256x256.size a
  packedbf16_S16x256x256_S16x2x256_0_126_0 : (Rect.unit (s := S16x256x256) ![0, 126, 0] S16x2x256.size inb_S16x256x256_S16x2x256_0_126_0).PackedRows (EltTy.packing .bf16)
  inb_S16x256x256_S16x1x256_0_127_0 : ∀ a, (![0, 127, 0] : Fin 3 → Nat) a + S16x1x256.size a ≤ S16x256x256.size a
  inb_S16x256x256_S16x1x256_0_128_0 : ∀ a, (![0, 128, 0] : Fin 3 → Nat) a + S16x1x256.size a ≤ S16x256x256.size a
  inb_S16x256x256_S16x2x256_0_128_0 : ∀ a, (![0, 128, 0] : Fin 3 → Nat) a + S16x2x256.size a ≤ S16x256x256.size a
  packedbf16_S16x256x256_S16x2x256_0_128_0 : (Rect.unit (s := S16x256x256) ![0, 128, 0] S16x2x256.size inb_S16x256x256_S16x2x256_0_128_0).PackedRows (EltTy.packing .bf16)
  inb_S16x256x256_S16x1x256_0_129_0 : ∀ a, (![0, 129, 0] : Fin 3 → Nat) a + S16x1x256.size a ≤ S16x256x256.size a
  inb_S16x256x256_S16x1x256_0_130_0 : ∀ a, (![0, 130, 0] : Fin 3 → Nat) a + S16x1x256.size a ≤ S16x256x256.size a
  inb_S16x256x256_S16x2x256_0_130_0 : ∀ a, (![0, 130, 0] : Fin 3 → Nat) a + S16x2x256.size a ≤ S16x256x256.size a
  packedbf16_S16x256x256_S16x2x256_0_130_0 : (Rect.unit (s := S16x256x256) ![0, 130, 0] S16x2x256.size inb_S16x256x256_S16x2x256_0_130_0).PackedRows (EltTy.packing .bf16)
  inb_S16x256x256_S16x1x256_0_131_0 : ∀ a, (![0, 131, 0] : Fin 3 → Nat) a + S16x1x256.size a ≤ S16x256x256.size a
  inb_S16x256x256_S16x1x256_0_132_0 : ∀ a, (![0, 132, 0] : Fin 3 → Nat) a + S16x1x256.size a ≤ S16x256x256.size a
  inb_S16x256x256_S16x2x256_0_132_0 : ∀ a, (![0, 132, 0] : Fin 3 → Nat) a + S16x2x256.size a ≤ S16x256x256.size a
  packedbf16_S16x256x256_S16x2x256_0_132_0 : (Rect.unit (s := S16x256x256) ![0, 132, 0] S16x2x256.size inb_S16x256x256_S16x2x256_0_132_0).PackedRows (EltTy.packing .bf16)
  inb_S16x256x256_S16x1x256_0_133_0 : ∀ a, (![0, 133, 0] : Fin 3 → Nat) a + S16x1x256.size a ≤ S16x256x256.size a
  inb_S16x256x256_S16x1x256_0_134_0 : ∀ a, (![0, 134, 0] : Fin 3 → Nat) a + S16x1x256.size a ≤ S16x256x256.size a
  inb_S16x256x256_S16x2x256_0_134_0 : ∀ a, (![0, 134, 0] : Fin 3 → Nat) a + S16x2x256.size a ≤ S16x256x256.size a
  packedbf16_S16x256x256_S16x2x256_0_134_0 : (Rect.unit (s := S16x256x256) ![0, 134, 0] S16x2x256.size inb_S16x256x256_S16x2x256_0_134_0).PackedRows (EltTy.packing .bf16)
  inb_S16x256x256_S16x1x256_0_135_0 : ∀ a, (![0, 135, 0] : Fin 3 → Nat) a + S16x1x256.size a ≤ S16x256x256.size a
  inb_S16x256x256_S16x1x256_0_136_0 : ∀ a, (![0, 136, 0] : Fin 3 → Nat) a + S16x1x256.size a ≤ S16x256x256.size a
  inb_S16x256x256_S16x2x256_0_136_0 : ∀ a, (![0, 136, 0] : Fin 3 → Nat) a + S16x2x256.size a ≤ S16x256x256.size a
  packedbf16_S16x256x256_S16x2x256_0_136_0 : (Rect.unit (s := S16x256x256) ![0, 136, 0] S16x2x256.size inb_S16x256x256_S16x2x256_0_136_0).PackedRows (EltTy.packing .bf16)
  inb_S16x256x256_S16x1x256_0_137_0 : ∀ a, (![0, 137, 0] : Fin 3 → Nat) a + S16x1x256.size a ≤ S16x256x256.size a
  inb_S16x256x256_S16x1x256_0_138_0 : ∀ a, (![0, 138, 0] : Fin 3 → Nat) a + S16x1x256.size a ≤ S16x256x256.size a
  inb_S16x256x256_S16x2x256_0_138_0 : ∀ a, (![0, 138, 0] : Fin 3 → Nat) a + S16x2x256.size a ≤ S16x256x256.size a
  packedbf16_S16x256x256_S16x2x256_0_138_0 : (Rect.unit (s := S16x256x256) ![0, 138, 0] S16x2x256.size inb_S16x256x256_S16x2x256_0_138_0).PackedRows (EltTy.packing .bf16)
  inb_S16x256x256_S16x1x256_0_139_0 : ∀ a, (![0, 139, 0] : Fin 3 → Nat) a + S16x1x256.size a ≤ S16x256x256.size a
  inb_S16x256x256_S16x1x256_0_140_0 : ∀ a, (![0, 140, 0] : Fin 3 → Nat) a + S16x1x256.size a ≤ S16x256x256.size a
  inb_S16x256x256_S16x2x256_0_140_0 : ∀ a, (![0, 140, 0] : Fin 3 → Nat) a + S16x2x256.size a ≤ S16x256x256.size a
  packedbf16_S16x256x256_S16x2x256_0_140_0 : (Rect.unit (s := S16x256x256) ![0, 140, 0] S16x2x256.size inb_S16x256x256_S16x2x256_0_140_0).PackedRows (EltTy.packing .bf16)
  inb_S16x256x256_S16x1x256_0_141_0 : ∀ a, (![0, 141, 0] : Fin 3 → Nat) a + S16x1x256.size a ≤ S16x256x256.size a
  inb_S16x256x256_S16x1x256_0_142_0 : ∀ a, (![0, 142, 0] : Fin 3 → Nat) a + S16x1x256.size a ≤ S16x256x256.size a
  inb_S16x256x256_S16x2x256_0_142_0 : ∀ a, (![0, 142, 0] : Fin 3 → Nat) a + S16x2x256.size a ≤ S16x256x256.size a
  packedbf16_S16x256x256_S16x2x256_0_142_0 : (Rect.unit (s := S16x256x256) ![0, 142, 0] S16x2x256.size inb_S16x256x256_S16x2x256_0_142_0).PackedRows (EltTy.packing .bf16)
  inb_S16x256x256_S16x1x256_0_143_0 : ∀ a, (![0, 143, 0] : Fin 3 → Nat) a + S16x1x256.size a ≤ S16x256x256.size a
  inb_S16x256x256_S16x1x256_0_144_0 : ∀ a, (![0, 144, 0] : Fin 3 → Nat) a + S16x1x256.size a ≤ S16x256x256.size a
  inb_S16x256x256_S16x2x256_0_144_0 : ∀ a, (![0, 144, 0] : Fin 3 → Nat) a + S16x2x256.size a ≤ S16x256x256.size a
  packedbf16_S16x256x256_S16x2x256_0_144_0 : (Rect.unit (s := S16x256x256) ![0, 144, 0] S16x2x256.size inb_S16x256x256_S16x2x256_0_144_0).PackedRows (EltTy.packing .bf16)
  inb_S16x256x256_S16x1x256_0_145_0 : ∀ a, (![0, 145, 0] : Fin 3 → Nat) a + S16x1x256.size a ≤ S16x256x256.size a
  inb_S16x256x256_S16x1x256_0_146_0 : ∀ a, (![0, 146, 0] : Fin 3 → Nat) a + S16x1x256.size a ≤ S16x256x256.size a
  inb_S16x256x256_S16x2x256_0_146_0 : ∀ a, (![0, 146, 0] : Fin 3 → Nat) a + S16x2x256.size a ≤ S16x256x256.size a
  packedbf16_S16x256x256_S16x2x256_0_146_0 : (Rect.unit (s := S16x256x256) ![0, 146, 0] S16x2x256.size inb_S16x256x256_S16x2x256_0_146_0).PackedRows (EltTy.packing .bf16)
  inb_S16x256x256_S16x1x256_0_147_0 : ∀ a, (![0, 147, 0] : Fin 3 → Nat) a + S16x1x256.size a ≤ S16x256x256.size a
  inb_S16x256x256_S16x1x256_0_148_0 : ∀ a, (![0, 148, 0] : Fin 3 → Nat) a + S16x1x256.size a ≤ S16x256x256.size a
  inb_S16x256x256_S16x2x256_0_148_0 : ∀ a, (![0, 148, 0] : Fin 3 → Nat) a + S16x2x256.size a ≤ S16x256x256.size a
  packedbf16_S16x256x256_S16x2x256_0_148_0 : (Rect.unit (s := S16x256x256) ![0, 148, 0] S16x2x256.size inb_S16x256x256_S16x2x256_0_148_0).PackedRows (EltTy.packing .bf16)
  inb_S16x256x256_S16x1x256_0_149_0 : ∀ a, (![0, 149, 0] : Fin 3 → Nat) a + S16x1x256.size a ≤ S16x256x256.size a
  inb_S16x256x256_S16x1x256_0_150_0 : ∀ a, (![0, 150, 0] : Fin 3 → Nat) a + S16x1x256.size a ≤ S16x256x256.size a
  inb_S16x256x256_S16x2x256_0_150_0 : ∀ a, (![0, 150, 0] : Fin 3 → Nat) a + S16x2x256.size a ≤ S16x256x256.size a
  packedbf16_S16x256x256_S16x2x256_0_150_0 : (Rect.unit (s := S16x256x256) ![0, 150, 0] S16x2x256.size inb_S16x256x256_S16x2x256_0_150_0).PackedRows (EltTy.packing .bf16)
  inb_S16x256x256_S16x1x256_0_151_0 : ∀ a, (![0, 151, 0] : Fin 3 → Nat) a + S16x1x256.size a ≤ S16x256x256.size a
  inb_S16x256x256_S16x1x256_0_152_0 : ∀ a, (![0, 152, 0] : Fin 3 → Nat) a + S16x1x256.size a ≤ S16x256x256.size a
  inb_S16x256x256_S16x2x256_0_152_0 : ∀ a, (![0, 152, 0] : Fin 3 → Nat) a + S16x2x256.size a ≤ S16x256x256.size a
  packedbf16_S16x256x256_S16x2x256_0_152_0 : (Rect.unit (s := S16x256x256) ![0, 152, 0] S16x2x256.size inb_S16x256x256_S16x2x256_0_152_0).PackedRows (EltTy.packing .bf16)
  inb_S16x256x256_S16x1x256_0_153_0 : ∀ a, (![0, 153, 0] : Fin 3 → Nat) a + S16x1x256.size a ≤ S16x256x256.size a
  inb_S16x256x256_S16x1x256_0_154_0 : ∀ a, (![0, 154, 0] : Fin 3 → Nat) a + S16x1x256.size a ≤ S16x256x256.size a
  inb_S16x256x256_S16x2x256_0_154_0 : ∀ a, (![0, 154, 0] : Fin 3 → Nat) a + S16x2x256.size a ≤ S16x256x256.size a
  packedbf16_S16x256x256_S16x2x256_0_154_0 : (Rect.unit (s := S16x256x256) ![0, 154, 0] S16x2x256.size inb_S16x256x256_S16x2x256_0_154_0).PackedRows (EltTy.packing .bf16)
  inb_S16x256x256_S16x1x256_0_155_0 : ∀ a, (![0, 155, 0] : Fin 3 → Nat) a + S16x1x256.size a ≤ S16x256x256.size a
  inb_S16x256x256_S16x1x256_0_156_0 : ∀ a, (![0, 156, 0] : Fin 3 → Nat) a + S16x1x256.size a ≤ S16x256x256.size a
  inb_S16x256x256_S16x2x256_0_156_0 : ∀ a, (![0, 156, 0] : Fin 3 → Nat) a + S16x2x256.size a ≤ S16x256x256.size a
  packedbf16_S16x256x256_S16x2x256_0_156_0 : (Rect.unit (s := S16x256x256) ![0, 156, 0] S16x2x256.size inb_S16x256x256_S16x2x256_0_156_0).PackedRows (EltTy.packing .bf16)
  inb_S16x256x256_S16x1x256_0_157_0 : ∀ a, (![0, 157, 0] : Fin 3 → Nat) a + S16x1x256.size a ≤ S16x256x256.size a
  inb_S16x256x256_S16x1x256_0_158_0 : ∀ a, (![0, 158, 0] : Fin 3 → Nat) a + S16x1x256.size a ≤ S16x256x256.size a
  inb_S16x256x256_S16x2x256_0_158_0 : ∀ a, (![0, 158, 0] : Fin 3 → Nat) a + S16x2x256.size a ≤ S16x256x256.size a
  packedbf16_S16x256x256_S16x2x256_0_158_0 : (Rect.unit (s := S16x256x256) ![0, 158, 0] S16x2x256.size inb_S16x256x256_S16x2x256_0_158_0).PackedRows (EltTy.packing .bf16)
  inb_S16x256x256_S16x1x256_0_159_0 : ∀ a, (![0, 159, 0] : Fin 3 → Nat) a + S16x1x256.size a ≤ S16x256x256.size a
  inb_S16x256x256_S16x1x256_0_160_0 : ∀ a, (![0, 160, 0] : Fin 3 → Nat) a + S16x1x256.size a ≤ S16x256x256.size a
  inb_S16x256x256_S16x2x256_0_160_0 : ∀ a, (![0, 160, 0] : Fin 3 → Nat) a + S16x2x256.size a ≤ S16x256x256.size a
  packedbf16_S16x256x256_S16x2x256_0_160_0 : (Rect.unit (s := S16x256x256) ![0, 160, 0] S16x2x256.size inb_S16x256x256_S16x2x256_0_160_0).PackedRows (EltTy.packing .bf16)
  inb_S16x256x256_S16x1x256_0_161_0 : ∀ a, (![0, 161, 0] : Fin 3 → Nat) a + S16x1x256.size a ≤ S16x256x256.size a
  inb_S16x256x256_S16x1x256_0_162_0 : ∀ a, (![0, 162, 0] : Fin 3 → Nat) a + S16x1x256.size a ≤ S16x256x256.size a
  inb_S16x256x256_S16x2x256_0_162_0 : ∀ a, (![0, 162, 0] : Fin 3 → Nat) a + S16x2x256.size a ≤ S16x256x256.size a
  packedbf16_S16x256x256_S16x2x256_0_162_0 : (Rect.unit (s := S16x256x256) ![0, 162, 0] S16x2x256.size inb_S16x256x256_S16x2x256_0_162_0).PackedRows (EltTy.packing .bf16)
  inb_S16x256x256_S16x1x256_0_163_0 : ∀ a, (![0, 163, 0] : Fin 3 → Nat) a + S16x1x256.size a ≤ S16x256x256.size a
  inb_S16x256x256_S16x1x256_0_164_0 : ∀ a, (![0, 164, 0] : Fin 3 → Nat) a + S16x1x256.size a ≤ S16x256x256.size a
  inb_S16x256x256_S16x2x256_0_164_0 : ∀ a, (![0, 164, 0] : Fin 3 → Nat) a + S16x2x256.size a ≤ S16x256x256.size a
  packedbf16_S16x256x256_S16x2x256_0_164_0 : (Rect.unit (s := S16x256x256) ![0, 164, 0] S16x2x256.size inb_S16x256x256_S16x2x256_0_164_0).PackedRows (EltTy.packing .bf16)
  inb_S16x256x256_S16x1x256_0_165_0 : ∀ a, (![0, 165, 0] : Fin 3 → Nat) a + S16x1x256.size a ≤ S16x256x256.size a
  inb_S16x256x256_S16x1x256_0_166_0 : ∀ a, (![0, 166, 0] : Fin 3 → Nat) a + S16x1x256.size a ≤ S16x256x256.size a
  inb_S16x256x256_S16x2x256_0_166_0 : ∀ a, (![0, 166, 0] : Fin 3 → Nat) a + S16x2x256.size a ≤ S16x256x256.size a
  packedbf16_S16x256x256_S16x2x256_0_166_0 : (Rect.unit (s := S16x256x256) ![0, 166, 0] S16x2x256.size inb_S16x256x256_S16x2x256_0_166_0).PackedRows (EltTy.packing .bf16)
  inb_S16x256x256_S16x1x256_0_167_0 : ∀ a, (![0, 167, 0] : Fin 3 → Nat) a + S16x1x256.size a ≤ S16x256x256.size a
  inb_S16x256x256_S16x1x256_0_168_0 : ∀ a, (![0, 168, 0] : Fin 3 → Nat) a + S16x1x256.size a ≤ S16x256x256.size a
  inb_S16x256x256_S16x2x256_0_168_0 : ∀ a, (![0, 168, 0] : Fin 3 → Nat) a + S16x2x256.size a ≤ S16x256x256.size a
  packedbf16_S16x256x256_S16x2x256_0_168_0 : (Rect.unit (s := S16x256x256) ![0, 168, 0] S16x2x256.size inb_S16x256x256_S16x2x256_0_168_0).PackedRows (EltTy.packing .bf16)
  inb_S16x256x256_S16x1x256_0_169_0 : ∀ a, (![0, 169, 0] : Fin 3 → Nat) a + S16x1x256.size a ≤ S16x256x256.size a
  inb_S16x256x256_S16x1x256_0_170_0 : ∀ a, (![0, 170, 0] : Fin 3 → Nat) a + S16x1x256.size a ≤ S16x256x256.size a
  inb_S16x256x256_S16x2x256_0_170_0 : ∀ a, (![0, 170, 0] : Fin 3 → Nat) a + S16x2x256.size a ≤ S16x256x256.size a
  packedbf16_S16x256x256_S16x2x256_0_170_0 : (Rect.unit (s := S16x256x256) ![0, 170, 0] S16x2x256.size inb_S16x256x256_S16x2x256_0_170_0).PackedRows (EltTy.packing .bf16)
  inb_S16x256x256_S16x1x256_0_171_0 : ∀ a, (![0, 171, 0] : Fin 3 → Nat) a + S16x1x256.size a ≤ S16x256x256.size a
  inb_S16x256x256_S16x1x256_0_172_0 : ∀ a, (![0, 172, 0] : Fin 3 → Nat) a + S16x1x256.size a ≤ S16x256x256.size a
  inb_S16x256x256_S16x2x256_0_172_0 : ∀ a, (![0, 172, 0] : Fin 3 → Nat) a + S16x2x256.size a ≤ S16x256x256.size a
  packedbf16_S16x256x256_S16x2x256_0_172_0 : (Rect.unit (s := S16x256x256) ![0, 172, 0] S16x2x256.size inb_S16x256x256_S16x2x256_0_172_0).PackedRows (EltTy.packing .bf16)
  inb_S16x256x256_S16x1x256_0_173_0 : ∀ a, (![0, 173, 0] : Fin 3 → Nat) a + S16x1x256.size a ≤ S16x256x256.size a
  inb_S16x256x256_S16x1x256_0_174_0 : ∀ a, (![0, 174, 0] : Fin 3 → Nat) a + S16x1x256.size a ≤ S16x256x256.size a
  inb_S16x256x256_S16x2x256_0_174_0 : ∀ a, (![0, 174, 0] : Fin 3 → Nat) a + S16x2x256.size a ≤ S16x256x256.size a
  packedbf16_S16x256x256_S16x2x256_0_174_0 : (Rect.unit (s := S16x256x256) ![0, 174, 0] S16x2x256.size inb_S16x256x256_S16x2x256_0_174_0).PackedRows (EltTy.packing .bf16)
  inb_S16x256x256_S16x1x256_0_175_0 : ∀ a, (![0, 175, 0] : Fin 3 → Nat) a + S16x1x256.size a ≤ S16x256x256.size a
  inb_S16x256x256_S16x1x256_0_176_0 : ∀ a, (![0, 176, 0] : Fin 3 → Nat) a + S16x1x256.size a ≤ S16x256x256.size a
  inb_S16x256x256_S16x2x256_0_176_0 : ∀ a, (![0, 176, 0] : Fin 3 → Nat) a + S16x2x256.size a ≤ S16x256x256.size a
  packedbf16_S16x256x256_S16x2x256_0_176_0 : (Rect.unit (s := S16x256x256) ![0, 176, 0] S16x2x256.size inb_S16x256x256_S16x2x256_0_176_0).PackedRows (EltTy.packing .bf16)
  inb_S16x256x256_S16x1x256_0_177_0 : ∀ a, (![0, 177, 0] : Fin 3 → Nat) a + S16x1x256.size a ≤ S16x256x256.size a
  inb_S16x256x256_S16x1x256_0_178_0 : ∀ a, (![0, 178, 0] : Fin 3 → Nat) a + S16x1x256.size a ≤ S16x256x256.size a
  inb_S16x256x256_S16x2x256_0_178_0 : ∀ a, (![0, 178, 0] : Fin 3 → Nat) a + S16x2x256.size a ≤ S16x256x256.size a
  packedbf16_S16x256x256_S16x2x256_0_178_0 : (Rect.unit (s := S16x256x256) ![0, 178, 0] S16x2x256.size inb_S16x256x256_S16x2x256_0_178_0).PackedRows (EltTy.packing .bf16)
  inb_S16x256x256_S16x1x256_0_179_0 : ∀ a, (![0, 179, 0] : Fin 3 → Nat) a + S16x1x256.size a ≤ S16x256x256.size a
  inb_S16x256x256_S16x1x256_0_180_0 : ∀ a, (![0, 180, 0] : Fin 3 → Nat) a + S16x1x256.size a ≤ S16x256x256.size a
  inb_S16x256x256_S16x2x256_0_180_0 : ∀ a, (![0, 180, 0] : Fin 3 → Nat) a + S16x2x256.size a ≤ S16x256x256.size a
  packedbf16_S16x256x256_S16x2x256_0_180_0 : (Rect.unit (s := S16x256x256) ![0, 180, 0] S16x2x256.size inb_S16x256x256_S16x2x256_0_180_0).PackedRows (EltTy.packing .bf16)
  inb_S16x256x256_S16x1x256_0_181_0 : ∀ a, (![0, 181, 0] : Fin 3 → Nat) a + S16x1x256.size a ≤ S16x256x256.size a
  inb_S16x256x256_S16x1x256_0_182_0 : ∀ a, (![0, 182, 0] : Fin 3 → Nat) a + S16x1x256.size a ≤ S16x256x256.size a
  inb_S16x256x256_S16x2x256_0_182_0 : ∀ a, (![0, 182, 0] : Fin 3 → Nat) a + S16x2x256.size a ≤ S16x256x256.size a
  packedbf16_S16x256x256_S16x2x256_0_182_0 : (Rect.unit (s := S16x256x256) ![0, 182, 0] S16x2x256.size inb_S16x256x256_S16x2x256_0_182_0).PackedRows (EltTy.packing .bf16)
  inb_S16x256x256_S16x1x256_0_183_0 : ∀ a, (![0, 183, 0] : Fin 3 → Nat) a + S16x1x256.size a ≤ S16x256x256.size a
  inb_S16x256x256_S16x1x256_0_184_0 : ∀ a, (![0, 184, 0] : Fin 3 → Nat) a + S16x1x256.size a ≤ S16x256x256.size a
  inb_S16x256x256_S16x2x256_0_184_0 : ∀ a, (![0, 184, 0] : Fin 3 → Nat) a + S16x2x256.size a ≤ S16x256x256.size a
  packedbf16_S16x256x256_S16x2x256_0_184_0 : (Rect.unit (s := S16x256x256) ![0, 184, 0] S16x2x256.size inb_S16x256x256_S16x2x256_0_184_0).PackedRows (EltTy.packing .bf16)
  inb_S16x256x256_S16x1x256_0_185_0 : ∀ a, (![0, 185, 0] : Fin 3 → Nat) a + S16x1x256.size a ≤ S16x256x256.size a
  inb_S16x256x256_S16x1x256_0_186_0 : ∀ a, (![0, 186, 0] : Fin 3 → Nat) a + S16x1x256.size a ≤ S16x256x256.size a
  inb_S16x256x256_S16x2x256_0_186_0 : ∀ a, (![0, 186, 0] : Fin 3 → Nat) a + S16x2x256.size a ≤ S16x256x256.size a
  packedbf16_S16x256x256_S16x2x256_0_186_0 : (Rect.unit (s := S16x256x256) ![0, 186, 0] S16x2x256.size inb_S16x256x256_S16x2x256_0_186_0).PackedRows (EltTy.packing .bf16)
  inb_S16x256x256_S16x1x256_0_187_0 : ∀ a, (![0, 187, 0] : Fin 3 → Nat) a + S16x1x256.size a ≤ S16x256x256.size a
  inb_S16x256x256_S16x1x256_0_188_0 : ∀ a, (![0, 188, 0] : Fin 3 → Nat) a + S16x1x256.size a ≤ S16x256x256.size a
  inb_S16x256x256_S16x2x256_0_188_0 : ∀ a, (![0, 188, 0] : Fin 3 → Nat) a + S16x2x256.size a ≤ S16x256x256.size a
  packedbf16_S16x256x256_S16x2x256_0_188_0 : (Rect.unit (s := S16x256x256) ![0, 188, 0] S16x2x256.size inb_S16x256x256_S16x2x256_0_188_0).PackedRows (EltTy.packing .bf16)
  inb_S16x256x256_S16x1x256_0_189_0 : ∀ a, (![0, 189, 0] : Fin 3 → Nat) a + S16x1x256.size a ≤ S16x256x256.size a
  inb_S16x256x256_S16x1x256_0_190_0 : ∀ a, (![0, 190, 0] : Fin 3 → Nat) a + S16x1x256.size a ≤ S16x256x256.size a
  inb_S16x256x256_S16x2x256_0_190_0 : ∀ a, (![0, 190, 0] : Fin 3 → Nat) a + S16x2x256.size a ≤ S16x256x256.size a
  packedbf16_S16x256x256_S16x2x256_0_190_0 : (Rect.unit (s := S16x256x256) ![0, 190, 0] S16x2x256.size inb_S16x256x256_S16x2x256_0_190_0).PackedRows (EltTy.packing .bf16)
  inb_S16x256x256_S16x1x256_0_191_0 : ∀ a, (![0, 191, 0] : Fin 3 → Nat) a + S16x1x256.size a ≤ S16x256x256.size a
  inb_S16x256x256_S16x1x256_0_192_0 : ∀ a, (![0, 192, 0] : Fin 3 → Nat) a + S16x1x256.size a ≤ S16x256x256.size a
  inb_S16x256x256_S16x2x256_0_192_0 : ∀ a, (![0, 192, 0] : Fin 3 → Nat) a + S16x2x256.size a ≤ S16x256x256.size a
  packedbf16_S16x256x256_S16x2x256_0_192_0 : (Rect.unit (s := S16x256x256) ![0, 192, 0] S16x2x256.size inb_S16x256x256_S16x2x256_0_192_0).PackedRows (EltTy.packing .bf16)
  inb_S16x256x256_S16x1x256_0_193_0 : ∀ a, (![0, 193, 0] : Fin 3 → Nat) a + S16x1x256.size a ≤ S16x256x256.size a
  inb_S16x256x256_S16x1x256_0_194_0 : ∀ a, (![0, 194, 0] : Fin 3 → Nat) a + S16x1x256.size a ≤ S16x256x256.size a
  inb_S16x256x256_S16x2x256_0_194_0 : ∀ a, (![0, 194, 0] : Fin 3 → Nat) a + S16x2x256.size a ≤ S16x256x256.size a
  packedbf16_S16x256x256_S16x2x256_0_194_0 : (Rect.unit (s := S16x256x256) ![0, 194, 0] S16x2x256.size inb_S16x256x256_S16x2x256_0_194_0).PackedRows (EltTy.packing .bf16)
  inb_S16x256x256_S16x1x256_0_195_0 : ∀ a, (![0, 195, 0] : Fin 3 → Nat) a + S16x1x256.size a ≤ S16x256x256.size a
  inb_S16x256x256_S16x1x256_0_196_0 : ∀ a, (![0, 196, 0] : Fin 3 → Nat) a + S16x1x256.size a ≤ S16x256x256.size a
  inb_S16x256x256_S16x2x256_0_196_0 : ∀ a, (![0, 196, 0] : Fin 3 → Nat) a + S16x2x256.size a ≤ S16x256x256.size a
  packedbf16_S16x256x256_S16x2x256_0_196_0 : (Rect.unit (s := S16x256x256) ![0, 196, 0] S16x2x256.size inb_S16x256x256_S16x2x256_0_196_0).PackedRows (EltTy.packing .bf16)
  inb_S16x256x256_S16x1x256_0_197_0 : ∀ a, (![0, 197, 0] : Fin 3 → Nat) a + S16x1x256.size a ≤ S16x256x256.size a
  inb_S16x256x256_S16x1x256_0_198_0 : ∀ a, (![0, 198, 0] : Fin 3 → Nat) a + S16x1x256.size a ≤ S16x256x256.size a
  inb_S16x256x256_S16x2x256_0_198_0 : ∀ a, (![0, 198, 0] : Fin 3 → Nat) a + S16x2x256.size a ≤ S16x256x256.size a
  packedbf16_S16x256x256_S16x2x256_0_198_0 : (Rect.unit (s := S16x256x256) ![0, 198, 0] S16x2x256.size inb_S16x256x256_S16x2x256_0_198_0).PackedRows (EltTy.packing .bf16)
  inb_S16x256x256_S16x1x256_0_199_0 : ∀ a, (![0, 199, 0] : Fin 3 → Nat) a + S16x1x256.size a ≤ S16x256x256.size a
  inb_S16x256x256_S16x1x256_0_200_0 : ∀ a, (![0, 200, 0] : Fin 3 → Nat) a + S16x1x256.size a ≤ S16x256x256.size a
  inb_S16x256x256_S16x2x256_0_200_0 : ∀ a, (![0, 200, 0] : Fin 3 → Nat) a + S16x2x256.size a ≤ S16x256x256.size a
  packedbf16_S16x256x256_S16x2x256_0_200_0 : (Rect.unit (s := S16x256x256) ![0, 200, 0] S16x2x256.size inb_S16x256x256_S16x2x256_0_200_0).PackedRows (EltTy.packing .bf16)
  inb_S16x256x256_S16x1x256_0_201_0 : ∀ a, (![0, 201, 0] : Fin 3 → Nat) a + S16x1x256.size a ≤ S16x256x256.size a
  inb_S16x256x256_S16x1x256_0_202_0 : ∀ a, (![0, 202, 0] : Fin 3 → Nat) a + S16x1x256.size a ≤ S16x256x256.size a
  inb_S16x256x256_S16x2x256_0_202_0 : ∀ a, (![0, 202, 0] : Fin 3 → Nat) a + S16x2x256.size a ≤ S16x256x256.size a
  packedbf16_S16x256x256_S16x2x256_0_202_0 : (Rect.unit (s := S16x256x256) ![0, 202, 0] S16x2x256.size inb_S16x256x256_S16x2x256_0_202_0).PackedRows (EltTy.packing .bf16)
  inb_S16x256x256_S16x1x256_0_203_0 : ∀ a, (![0, 203, 0] : Fin 3 → Nat) a + S16x1x256.size a ≤ S16x256x256.size a
  inb_S16x256x256_S16x1x256_0_204_0 : ∀ a, (![0, 204, 0] : Fin 3 → Nat) a + S16x1x256.size a ≤ S16x256x256.size a
  inb_S16x256x256_S16x2x256_0_204_0 : ∀ a, (![0, 204, 0] : Fin 3 → Nat) a + S16x2x256.size a ≤ S16x256x256.size a
  packedbf16_S16x256x256_S16x2x256_0_204_0 : (Rect.unit (s := S16x256x256) ![0, 204, 0] S16x2x256.size inb_S16x256x256_S16x2x256_0_204_0).PackedRows (EltTy.packing .bf16)
  inb_S16x256x256_S16x1x256_0_205_0 : ∀ a, (![0, 205, 0] : Fin 3 → Nat) a + S16x1x256.size a ≤ S16x256x256.size a
  inb_S16x256x256_S16x1x256_0_206_0 : ∀ a, (![0, 206, 0] : Fin 3 → Nat) a + S16x1x256.size a ≤ S16x256x256.size a
  inb_S16x256x256_S16x2x256_0_206_0 : ∀ a, (![0, 206, 0] : Fin 3 → Nat) a + S16x2x256.size a ≤ S16x256x256.size a
  packedbf16_S16x256x256_S16x2x256_0_206_0 : (Rect.unit (s := S16x256x256) ![0, 206, 0] S16x2x256.size inb_S16x256x256_S16x2x256_0_206_0).PackedRows (EltTy.packing .bf16)
  inb_S16x256x256_S16x1x256_0_207_0 : ∀ a, (![0, 207, 0] : Fin 3 → Nat) a + S16x1x256.size a ≤ S16x256x256.size a
  inb_S16x256x256_S16x1x256_0_208_0 : ∀ a, (![0, 208, 0] : Fin 3 → Nat) a + S16x1x256.size a ≤ S16x256x256.size a
  inb_S16x256x256_S16x2x256_0_208_0 : ∀ a, (![0, 208, 0] : Fin 3 → Nat) a + S16x2x256.size a ≤ S16x256x256.size a
  packedbf16_S16x256x256_S16x2x256_0_208_0 : (Rect.unit (s := S16x256x256) ![0, 208, 0] S16x2x256.size inb_S16x256x256_S16x2x256_0_208_0).PackedRows (EltTy.packing .bf16)
  inb_S16x256x256_S16x1x256_0_209_0 : ∀ a, (![0, 209, 0] : Fin 3 → Nat) a + S16x1x256.size a ≤ S16x256x256.size a
  inb_S16x256x256_S16x1x256_0_210_0 : ∀ a, (![0, 210, 0] : Fin 3 → Nat) a + S16x1x256.size a ≤ S16x256x256.size a
  inb_S16x256x256_S16x2x256_0_210_0 : ∀ a, (![0, 210, 0] : Fin 3 → Nat) a + S16x2x256.size a ≤ S16x256x256.size a
  packedbf16_S16x256x256_S16x2x256_0_210_0 : (Rect.unit (s := S16x256x256) ![0, 210, 0] S16x2x256.size inb_S16x256x256_S16x2x256_0_210_0).PackedRows (EltTy.packing .bf16)
  inb_S16x256x256_S16x1x256_0_211_0 : ∀ a, (![0, 211, 0] : Fin 3 → Nat) a + S16x1x256.size a ≤ S16x256x256.size a
  inb_S16x256x256_S16x1x256_0_212_0 : ∀ a, (![0, 212, 0] : Fin 3 → Nat) a + S16x1x256.size a ≤ S16x256x256.size a
  inb_S16x256x256_S16x2x256_0_212_0 : ∀ a, (![0, 212, 0] : Fin 3 → Nat) a + S16x2x256.size a ≤ S16x256x256.size a
  packedbf16_S16x256x256_S16x2x256_0_212_0 : (Rect.unit (s := S16x256x256) ![0, 212, 0] S16x2x256.size inb_S16x256x256_S16x2x256_0_212_0).PackedRows (EltTy.packing .bf16)
  inb_S16x256x256_S16x1x256_0_213_0 : ∀ a, (![0, 213, 0] : Fin 3 → Nat) a + S16x1x256.size a ≤ S16x256x256.size a
  inb_S16x256x256_S16x1x256_0_214_0 : ∀ a, (![0, 214, 0] : Fin 3 → Nat) a + S16x1x256.size a ≤ S16x256x256.size a
  inb_S16x256x256_S16x2x256_0_214_0 : ∀ a, (![0, 214, 0] : Fin 3 → Nat) a + S16x2x256.size a ≤ S16x256x256.size a
  packedbf16_S16x256x256_S16x2x256_0_214_0 : (Rect.unit (s := S16x256x256) ![0, 214, 0] S16x2x256.size inb_S16x256x256_S16x2x256_0_214_0).PackedRows (EltTy.packing .bf16)
  inb_S16x256x256_S16x1x256_0_215_0 : ∀ a, (![0, 215, 0] : Fin 3 → Nat) a + S16x1x256.size a ≤ S16x256x256.size a
  inb_S16x256x256_S16x1x256_0_216_0 : ∀ a, (![0, 216, 0] : Fin 3 → Nat) a + S16x1x256.size a ≤ S16x256x256.size a
  inb_S16x256x256_S16x2x256_0_216_0 : ∀ a, (![0, 216, 0] : Fin 3 → Nat) a + S16x2x256.size a ≤ S16x256x256.size a
  packedbf16_S16x256x256_S16x2x256_0_216_0 : (Rect.unit (s := S16x256x256) ![0, 216, 0] S16x2x256.size inb_S16x256x256_S16x2x256_0_216_0).PackedRows (EltTy.packing .bf16)
  inb_S16x256x256_S16x1x256_0_217_0 : ∀ a, (![0, 217, 0] : Fin 3 → Nat) a + S16x1x256.size a ≤ S16x256x256.size a
  inb_S16x256x256_S16x1x256_0_218_0 : ∀ a, (![0, 218, 0] : Fin 3 → Nat) a + S16x1x256.size a ≤ S16x256x256.size a
  inb_S16x256x256_S16x2x256_0_218_0 : ∀ a, (![0, 218, 0] : Fin 3 → Nat) a + S16x2x256.size a ≤ S16x256x256.size a
  packedbf16_S16x256x256_S16x2x256_0_218_0 : (Rect.unit (s := S16x256x256) ![0, 218, 0] S16x2x256.size inb_S16x256x256_S16x2x256_0_218_0).PackedRows (EltTy.packing .bf16)
  inb_S16x256x256_S16x1x256_0_219_0 : ∀ a, (![0, 219, 0] : Fin 3 → Nat) a + S16x1x256.size a ≤ S16x256x256.size a
  inb_S16x256x256_S16x1x256_0_220_0 : ∀ a, (![0, 220, 0] : Fin 3 → Nat) a + S16x1x256.size a ≤ S16x256x256.size a
  inb_S16x256x256_S16x2x256_0_220_0 : ∀ a, (![0, 220, 0] : Fin 3 → Nat) a + S16x2x256.size a ≤ S16x256x256.size a
  packedbf16_S16x256x256_S16x2x256_0_220_0 : (Rect.unit (s := S16x256x256) ![0, 220, 0] S16x2x256.size inb_S16x256x256_S16x2x256_0_220_0).PackedRows (EltTy.packing .bf16)
  inb_S16x256x256_S16x1x256_0_221_0 : ∀ a, (![0, 221, 0] : Fin 3 → Nat) a + S16x1x256.size a ≤ S16x256x256.size a
  inb_S16x256x256_S16x1x256_0_222_0 : ∀ a, (![0, 222, 0] : Fin 3 → Nat) a + S16x1x256.size a ≤ S16x256x256.size a
  inb_S16x256x256_S16x2x256_0_222_0 : ∀ a, (![0, 222, 0] : Fin 3 → Nat) a + S16x2x256.size a ≤ S16x256x256.size a
  packedbf16_S16x256x256_S16x2x256_0_222_0 : (Rect.unit (s := S16x256x256) ![0, 222, 0] S16x2x256.size inb_S16x256x256_S16x2x256_0_222_0).PackedRows (EltTy.packing .bf16)
  inb_S16x256x256_S16x1x256_0_223_0 : ∀ a, (![0, 223, 0] : Fin 3 → Nat) a + S16x1x256.size a ≤ S16x256x256.size a
  inb_S16x256x256_S16x1x256_0_224_0 : ∀ a, (![0, 224, 0] : Fin 3 → Nat) a + S16x1x256.size a ≤ S16x256x256.size a
  inb_S16x256x256_S16x2x256_0_224_0 : ∀ a, (![0, 224, 0] : Fin 3 → Nat) a + S16x2x256.size a ≤ S16x256x256.size a
  packedbf16_S16x256x256_S16x2x256_0_224_0 : (Rect.unit (s := S16x256x256) ![0, 224, 0] S16x2x256.size inb_S16x256x256_S16x2x256_0_224_0).PackedRows (EltTy.packing .bf16)
  inb_S16x256x256_S16x1x256_0_225_0 : ∀ a, (![0, 225, 0] : Fin 3 → Nat) a + S16x1x256.size a ≤ S16x256x256.size a
  inb_S16x256x256_S16x1x256_0_226_0 : ∀ a, (![0, 226, 0] : Fin 3 → Nat) a + S16x1x256.size a ≤ S16x256x256.size a
  inb_S16x256x256_S16x2x256_0_226_0 : ∀ a, (![0, 226, 0] : Fin 3 → Nat) a + S16x2x256.size a ≤ S16x256x256.size a
  packedbf16_S16x256x256_S16x2x256_0_226_0 : (Rect.unit (s := S16x256x256) ![0, 226, 0] S16x2x256.size inb_S16x256x256_S16x2x256_0_226_0).PackedRows (EltTy.packing .bf16)
  inb_S16x256x256_S16x1x256_0_227_0 : ∀ a, (![0, 227, 0] : Fin 3 → Nat) a + S16x1x256.size a ≤ S16x256x256.size a
  inb_S16x256x256_S16x1x256_0_228_0 : ∀ a, (![0, 228, 0] : Fin 3 → Nat) a + S16x1x256.size a ≤ S16x256x256.size a
  inb_S16x256x256_S16x2x256_0_228_0 : ∀ a, (![0, 228, 0] : Fin 3 → Nat) a + S16x2x256.size a ≤ S16x256x256.size a
  packedbf16_S16x256x256_S16x2x256_0_228_0 : (Rect.unit (s := S16x256x256) ![0, 228, 0] S16x2x256.size inb_S16x256x256_S16x2x256_0_228_0).PackedRows (EltTy.packing .bf16)
  inb_S16x256x256_S16x1x256_0_229_0 : ∀ a, (![0, 229, 0] : Fin 3 → Nat) a + S16x1x256.size a ≤ S16x256x256.size a
  inb_S16x256x256_S16x1x256_0_230_0 : ∀ a, (![0, 230, 0] : Fin 3 → Nat) a + S16x1x256.size a ≤ S16x256x256.size a
  inb_S16x256x256_S16x2x256_0_230_0 : ∀ a, (![0, 230, 0] : Fin 3 → Nat) a + S16x2x256.size a ≤ S16x256x256.size a
  packedbf16_S16x256x256_S16x2x256_0_230_0 : (Rect.unit (s := S16x256x256) ![0, 230, 0] S16x2x256.size inb_S16x256x256_S16x2x256_0_230_0).PackedRows (EltTy.packing .bf16)
  inb_S16x256x256_S16x1x256_0_231_0 : ∀ a, (![0, 231, 0] : Fin 3 → Nat) a + S16x1x256.size a ≤ S16x256x256.size a
  inb_S16x256x256_S16x1x256_0_232_0 : ∀ a, (![0, 232, 0] : Fin 3 → Nat) a + S16x1x256.size a ≤ S16x256x256.size a
  inb_S16x256x256_S16x2x256_0_232_0 : ∀ a, (![0, 232, 0] : Fin 3 → Nat) a + S16x2x256.size a ≤ S16x256x256.size a
  packedbf16_S16x256x256_S16x2x256_0_232_0 : (Rect.unit (s := S16x256x256) ![0, 232, 0] S16x2x256.size inb_S16x256x256_S16x2x256_0_232_0).PackedRows (EltTy.packing .bf16)
  inb_S16x256x256_S16x1x256_0_233_0 : ∀ a, (![0, 233, 0] : Fin 3 → Nat) a + S16x1x256.size a ≤ S16x256x256.size a
  inb_S16x256x256_S16x1x256_0_234_0 : ∀ a, (![0, 234, 0] : Fin 3 → Nat) a + S16x1x256.size a ≤ S16x256x256.size a
  inb_S16x256x256_S16x2x256_0_234_0 : ∀ a, (![0, 234, 0] : Fin 3 → Nat) a + S16x2x256.size a ≤ S16x256x256.size a
  packedbf16_S16x256x256_S16x2x256_0_234_0 : (Rect.unit (s := S16x256x256) ![0, 234, 0] S16x2x256.size inb_S16x256x256_S16x2x256_0_234_0).PackedRows (EltTy.packing .bf16)
  inb_S16x256x256_S16x1x256_0_235_0 : ∀ a, (![0, 235, 0] : Fin 3 → Nat) a + S16x1x256.size a ≤ S16x256x256.size a
  inb_S16x256x256_S16x1x256_0_236_0 : ∀ a, (![0, 236, 0] : Fin 3 → Nat) a + S16x1x256.size a ≤ S16x256x256.size a
  inb_S16x256x256_S16x2x256_0_236_0 : ∀ a, (![0, 236, 0] : Fin 3 → Nat) a + S16x2x256.size a ≤ S16x256x256.size a
  packedbf16_S16x256x256_S16x2x256_0_236_0 : (Rect.unit (s := S16x256x256) ![0, 236, 0] S16x2x256.size inb_S16x256x256_S16x2x256_0_236_0).PackedRows (EltTy.packing .bf16)
  inb_S16x256x256_S16x1x256_0_237_0 : ∀ a, (![0, 237, 0] : Fin 3 → Nat) a + S16x1x256.size a ≤ S16x256x256.size a
  inb_S16x256x256_S16x1x256_0_238_0 : ∀ a, (![0, 238, 0] : Fin 3 → Nat) a + S16x1x256.size a ≤ S16x256x256.size a
  inb_S16x256x256_S16x2x256_0_238_0 : ∀ a, (![0, 238, 0] : Fin 3 → Nat) a + S16x2x256.size a ≤ S16x256x256.size a
  packedbf16_S16x256x256_S16x2x256_0_238_0 : (Rect.unit (s := S16x256x256) ![0, 238, 0] S16x2x256.size inb_S16x256x256_S16x2x256_0_238_0).PackedRows (EltTy.packing .bf16)
  inb_S16x256x256_S16x1x256_0_239_0 : ∀ a, (![0, 239, 0] : Fin 3 → Nat) a + S16x1x256.size a ≤ S16x256x256.size a
  inb_S16x256x256_S16x1x256_0_240_0 : ∀ a, (![0, 240, 0] : Fin 3 → Nat) a + S16x1x256.size a ≤ S16x256x256.size a
  inb_S16x256x256_S16x2x256_0_240_0 : ∀ a, (![0, 240, 0] : Fin 3 → Nat) a + S16x2x256.size a ≤ S16x256x256.size a
  packedbf16_S16x256x256_S16x2x256_0_240_0 : (Rect.unit (s := S16x256x256) ![0, 240, 0] S16x2x256.size inb_S16x256x256_S16x2x256_0_240_0).PackedRows (EltTy.packing .bf16)
  inb_S16x256x256_S16x1x256_0_241_0 : ∀ a, (![0, 241, 0] : Fin 3 → Nat) a + S16x1x256.size a ≤ S16x256x256.size a
  inb_S16x256x256_S16x1x256_0_242_0 : ∀ a, (![0, 242, 0] : Fin 3 → Nat) a + S16x1x256.size a ≤ S16x256x256.size a
  inb_S16x256x256_S16x2x256_0_242_0 : ∀ a, (![0, 242, 0] : Fin 3 → Nat) a + S16x2x256.size a ≤ S16x256x256.size a
  packedbf16_S16x256x256_S16x2x256_0_242_0 : (Rect.unit (s := S16x256x256) ![0, 242, 0] S16x2x256.size inb_S16x256x256_S16x2x256_0_242_0).PackedRows (EltTy.packing .bf16)
  inb_S16x256x256_S16x1x256_0_243_0 : ∀ a, (![0, 243, 0] : Fin 3 → Nat) a + S16x1x256.size a ≤ S16x256x256.size a
  inb_S16x256x256_S16x1x256_0_244_0 : ∀ a, (![0, 244, 0] : Fin 3 → Nat) a + S16x1x256.size a ≤ S16x256x256.size a
  inb_S16x256x256_S16x2x256_0_244_0 : ∀ a, (![0, 244, 0] : Fin 3 → Nat) a + S16x2x256.size a ≤ S16x256x256.size a
  packedbf16_S16x256x256_S16x2x256_0_244_0 : (Rect.unit (s := S16x256x256) ![0, 244, 0] S16x2x256.size inb_S16x256x256_S16x2x256_0_244_0).PackedRows (EltTy.packing .bf16)
  inb_S16x256x256_S16x1x256_0_245_0 : ∀ a, (![0, 245, 0] : Fin 3 → Nat) a + S16x1x256.size a ≤ S16x256x256.size a
  inb_S16x256x256_S16x1x256_0_246_0 : ∀ a, (![0, 246, 0] : Fin 3 → Nat) a + S16x1x256.size a ≤ S16x256x256.size a
  inb_S16x256x256_S16x2x256_0_246_0 : ∀ a, (![0, 246, 0] : Fin 3 → Nat) a + S16x2x256.size a ≤ S16x256x256.size a
  packedbf16_S16x256x256_S16x2x256_0_246_0 : (Rect.unit (s := S16x256x256) ![0, 246, 0] S16x2x256.size inb_S16x256x256_S16x2x256_0_246_0).PackedRows (EltTy.packing .bf16)
  inb_S16x256x256_S16x1x256_0_247_0 : ∀ a, (![0, 247, 0] : Fin 3 → Nat) a + S16x1x256.size a ≤ S16x256x256.size a
  inb_S16x256x256_S16x1x256_0_248_0 : ∀ a, (![0, 248, 0] : Fin 3 → Nat) a + S16x1x256.size a ≤ S16x256x256.size a
  inb_S16x256x256_S16x2x256_0_248_0 : ∀ a, (![0, 248, 0] : Fin 3 → Nat) a + S16x2x256.size a ≤ S16x256x256.size a
  packedbf16_S16x256x256_S16x2x256_0_248_0 : (Rect.unit (s := S16x256x256) ![0, 248, 0] S16x2x256.size inb_S16x256x256_S16x2x256_0_248_0).PackedRows (EltTy.packing .bf16)
  inb_S16x256x256_S16x1x256_0_249_0 : ∀ a, (![0, 249, 0] : Fin 3 → Nat) a + S16x1x256.size a ≤ S16x256x256.size a
  inb_S16x256x256_S16x1x256_0_250_0 : ∀ a, (![0, 250, 0] : Fin 3 → Nat) a + S16x1x256.size a ≤ S16x256x256.size a
  inb_S16x256x256_S16x2x256_0_250_0 : ∀ a, (![0, 250, 0] : Fin 3 → Nat) a + S16x2x256.size a ≤ S16x256x256.size a
  packedbf16_S16x256x256_S16x2x256_0_250_0 : (Rect.unit (s := S16x256x256) ![0, 250, 0] S16x2x256.size inb_S16x256x256_S16x2x256_0_250_0).PackedRows (EltTy.packing .bf16)
  inb_S16x256x256_S16x1x256_0_251_0 : ∀ a, (![0, 251, 0] : Fin 3 → Nat) a + S16x1x256.size a ≤ S16x256x256.size a
  inb_S16x256x256_S16x1x256_0_252_0 : ∀ a, (![0, 252, 0] : Fin 3 → Nat) a + S16x1x256.size a ≤ S16x256x256.size a
  inb_S16x256x256_S16x2x256_0_252_0 : ∀ a, (![0, 252, 0] : Fin 3 → Nat) a + S16x2x256.size a ≤ S16x256x256.size a
  packedbf16_S16x256x256_S16x2x256_0_252_0 : (Rect.unit (s := S16x256x256) ![0, 252, 0] S16x2x256.size inb_S16x256x256_S16x2x256_0_252_0).PackedRows (EltTy.packing .bf16)
  inb_S16x256x256_S16x1x256_0_253_0 : ∀ a, (![0, 253, 0] : Fin 3 → Nat) a + S16x1x256.size a ≤ S16x256x256.size a
  inb_S16x256x256_S16x1x256_0_254_0 : ∀ a, (![0, 254, 0] : Fin 3 → Nat) a + S16x1x256.size a ≤ S16x256x256.size a
  inb_S16x256x256_S16x2x256_0_254_0 : ∀ a, (![0, 254, 0] : Fin 3 → Nat) a + S16x2x256.size a ≤ S16x256x256.size a
  packedbf16_S16x256x256_S16x2x256_0_254_0 : (Rect.unit (s := S16x256x256) ![0, 254, 0] S16x2x256.size inb_S16x256x256_S16x2x256_0_254_0).PackedRows (EltTy.packing .bf16)
  inb_S16x256x256_S16x1x256_0_255_0 : ∀ a, (![0, 255, 0] : Fin 3 → Nat) a + S16x1x256.size a ≤ S16x256x256.size a
  inb_S16x256x256_S16x256x256_0_0_0 : ∀ a, (![0, 0, 0] : Fin 3 → Nat) a + S16x256x256.size a ≤ S16x256x256.size a
  h_S16x256x256 : 0 < S16x256x256.numel
  shapeCasts_S1024x256x256_S64x16x256x256 : S1024x256x256.ShapeCasts S64x16x256x256
  dot_S16x256x256_S16x256x256_S16x256x256_2_2_1_1_0_0_wf : DotDims.WF S16x256x256 S16x256x256 S16x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S1024x256.size a
  hwx0_0 : ∀ i : grid0.Coords, EltTy.bits .f32 = 32 ∨ (Rect.block (s := S1024x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S1024x256x256.size a
  hwx0_1 : ∀ i : grid0.Coords, EltTy.bits .f32 = 32 ∨ (Rect.block (s := S1024x256x256) S16x256x256.size (cc0_transform_1 i) (hinb0_1 i)).WholeWords (EltTy.packing .f32)

variable [Facts₀]

def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x16x16x16 : Shape := ⟨4, ![64, 16, 16, 16]⟩
abbrev S1024x256 : Shape := ⟨2, ![1024, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x256x1 : Shape := ⟨3, ![256, 256, 1]⟩
abbrev S1024x256x256 : Shape := ⟨3, ![1024, 256, 256]⟩
abbrev S1024x1x256 : Shape := ⟨3, ![1024, 1, 256]⟩
abbrev S64x16x256x256 : Shape := ⟨4, ![64, 16, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S64x16x16x16, .f32⟩
  | .hbm, ⟨1, _⟩ => ⟨S1024x256, .f32⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S_, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i1⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S256x256, .i32⟩
  | .hbm, ⟨38, _⟩ => ⟨S256x256x1, .i32⟩
  | .hbm, ⟨39, _⟩ => ⟨S1024x256x256, .f32⟩
  | .hbm, ⟨40, _⟩ => ⟨S1024x1x256, .f32⟩
  | .hbm, ⟨41, _⟩ => ⟨S1024x256x256, .f32⟩
  | .hbm, ⟨42, _⟩ => ⟨S1024x256x256, .f32⟩
  | .hbm, ⟨43, _⟩ => ⟨S1024x256x256, .f32⟩
  | .hbm, ⟨44, _⟩ => ⟨S64x16x256x256, .f32⟩
  | _, _ => ⟨S64x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_c_0 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩

abbrev nD : Nat := 1
abbrev τ : Topo := Topo.v7x

variable {F : FTy → Type} [FloatOps F]

class Facts₀ : Prop where
  shapeCasts_S64x16x16x16_S1024x256 : S64x16x16x16.ShapeCasts S1024x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S1024x256_S1024x1x256_0_2 : S1024x256.BroadcastsInDim S1024x1x256 (![0, 2] : Fin 2 → Fin S1024x1x256.rank)
  bcast_S1024x1x256_S1024x256x256_0_1_2 : S1024x1x256.BroadcastsInDim S1024x256x256 (![0, 1, 2] : Fin 3 → Fin S1024x256x256.rank)
  shapeCasts_S1024x256x256_S64x16x256x256 : S1024x256x256.ShapeCasts S64x16x256x256
  gather_S1024x256_S256x256x1_S1024x256x256_0_1_n_n_1_2_10241_wf : GatherDims.WF S1024x256 S256x256x1 S1024x256x256 [0] [1] [] [1] [] 2 ![1024, 1]
  dot_S1024x256x256_S1024x256x256_S1024x256x256_2_1_1_2_0_0_wf : DotDims.WF S1024x256x256 S1024x256x256 S1024x256x256 [2] [1] [1] [2] [0] [0]

variable [Facts₀]

def gather_S1024x256_S256x256x1_S1024x256x256_0_1_n_n_1_2_10241 : GatherDims S1024x256 S256x256x1 S1024x256x256 where
  offsetDims := [0]
  collapsedSliceDims := [1]
  operandBatchingDims := []
  startIndicesBatchingDims := []
  startIndexMap := [1]
  indexVectorDim := 2
  sliceSizes := ![1024, 1]
  wf := gather_S1024x256_S256x256x1_S1024x256x256_0_1_n_n_1_2_10241_wf
def dot_S1024x256x256_S1024x256x256_S1024x256x256_2_1_1_2_0_0 : DotDims S1024x256x256 S1024x256x256 S1024x256x256 where
  lhsContracting := [2]
  rhsContracting := [1]
  lhsNonContracting := [1]
  rhsNonContracting := [2]
  lhsBatch := [0]
  rhsBatch := [0]
  wf := dot_S1024x256x256_S1024x256x256_S1024x256x256_2_1_1_2_0_0_wf

class Facts : Prop extends Facts₀ where

variable [Facts]
-- ==== Proof.KBody.lean ====
/-
  The body of the triple-correlation kernel, run once at symbolic operands.

  One grid point handles 16 rows x of length 256.  The body writes, for every shift s < 256, row s of two
  scratch matrices per x-row: Y[s, i] = x[(i + s) mod 256] (a lane rotation of x by 256 - s) and
  G[s, i] = x[i] * Y[s, i]; each row is stored by reading the two-row slab that holds it and storing the
  slab back with that one row replaced.  It then multiplies, per x-row, G by the transpose of Y and stores
  the 256 x 256 product as its output block.

  What the body leaves in the output buffer and in the two scratch buffers is found by the run itself, as the
  witnesses of a subtype, from the input block and the scratch contents the body started from.
-/
import proofs.«163062_j18614388261224_2_alg».proof.Proof.Gen.Kernel.Frame
import proofs.«163062_j18614388261224_2_alg».proof.Proof.Gen.Kernel.Skeleton
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of memref `M`'s buffer on core `c`, and that buffer held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- From the input block's buffer at `f1` and the two scratch buffers at `f3`, `f4` (the output buffer at anything),
    the body runs to its return, the input as it was and the output and scratch buffers at the witnesses. -/
noncomputable def kernelRun (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    { W : Bf (F := F) c arg2 × Bf (F := F) c arg3 × Bf (F := F) c arg4 //
      ∀ (f2 : Bf (F := F) c arg2) (E : Set ℕ) (Q : PUnit → sProp 𝕄),
        iprop(pt c arg1 f1 ∗ pt c arg2 f2 ∗ pt c arg3 f3 ∗ pt c arg4 f4
          ∗ (iprop(pt c arg1 f1 ∗ pt c arg2 W.1 ∗ pt c arg3 W.2.1 ∗ pt c arg4 W.2.2) -∗ Q ⟨⟩))
        ⊢ wp frame (wpE (defs₀ (F := F)) Variants.none c none) E
            (cc0__tc_kernel i arg1 harg1 arg2 harg2 arg3 harg3 arg4 harg4) Q } := by
  refine ⟨⟨?_, ?_, ?_⟩, fun f2 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

end Cert.Kernel.Hand

end
-- ==== Proof.ChainTactic.lean ====
/-
  A small tactic for lists of stores named in stages.

  A run of a long body names the list of stores it has made into a buffer in stages: each name is a store or two on
  top of the name before it.  To reason about the whole list at once the stages have to be opened, and only they:
  the other names of the run (the values loaded back, the payloads) stay closed, since each of those mentions a
  stage of the list again.
-/
import Lean

open Lean Elab Tactic Meta in
/-- In the goal, replace every name a body's run minted (a constant `….sl.<name>`) whose last component starts with the
    given text by its definition, again and again. -/
elab "unfold_run_chain " p:str : tactic => do
  let pre := p.getString
  let g ← getMainGoal
  g.withContext do
    let tgt ← instantiateMVars (← g.getType)
    let tgt' ← Meta.transform tgt (pre := fun e => do
      match e.getAppFn with
      | .const (.str (.str _ "sl") s) _ =>
        if s.startsWith pre then
          match ← Meta.delta? e with
          | some e' => return .visit e'.headBeta
          | none => return .continue
        else return .continue
      | _ => return .continue)
    let g' ← g.replaceTargetDefEq tgt'
    replaceMainGoal [g']
-- ==== Proof.KClosed.lean ====
/-
  What the body leaves, in closed form.

  For an input block x (16 rows of 256 lanes) and a shift s < 256, the rotation of x along the lanes by
  (256 - s) mod 256 puts lane (i + s) mod 256 of x at lane i.  Row s of the first scratch matrix is x times that
  rotation, row s of the second the rotation itself (both narrowed to the scratch's element type); the output is
  the batched product of the first with the transpose of the second.  None of it depends on what the scratch
  buffers held before: each two-row slab is read, one of its rows replaced and the slab stored back, twice, so
  after the second store both rows are the body's own — the first store's row 2n read back by the second store's
  load, the second store's row 2n + 1 its own payload.
-/
import proofs.«163062_j18614388261224_2_alg».proof.Proof.KBody
import Idealize.ShloMosaic.Lib.Pipeline.Value
import proofs.«163062_j18614388261224_2_alg».proof.Proof.ChainTactic

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-! ## The closed forms -/

/-- The rotation amount the body uses for shift `s`. -/
def rotAmt (s : Nat) : BitVec 32 := BitVec.ofNat 32 ((256 - s) % 256)

/-- The block rotated for shift `s`: lane `i` holds lane `(i + s) mod 256` of the block. -/
def rolled (x0 : Vec F S16x256 .f32) (s : Nat) : FVec F S16x256 .f32 :=
  dynamicRotate 1 (rotAmt s) none (shapeCast S16x256 x0 shapeCasts_S16x256_S16x256) rotates_S16x256_d1

/-- Row `s` of the second scratch matrix: the rotated block, one matrix row per block row. -/
def rowY (x0 : Vec F S16x256 .f32) (s : Nat) : FVec F S16x1x256 .bf16 :=
  shapeCast S16x1x256 (truncf .bf16 (shapeCast S16x1x256 (rolled x0 s) shapeCasts_S16x256_S16x1x256) bitsLt_bf16_f32)
    shapeCasts_S16x1x256_S16x1x256

/-- Row `s` of the first scratch matrix: the block times its rotation. -/
def rowG (x0 : Vec F S16x256 .f32) (s : Nat) : FVec F S16x1x256 .bf16 :=
  shapeCast S16x1x256 (truncf .bf16 (shapeCast S16x1x256
      (mulf (shapeCast S16x256 x0 shapeCasts_S16x256_S16x256) (rolled x0 s)) shapeCasts_S16x256_S16x1x256) bitsLt_bf16_f32)
    shapeCasts_S16x1x256_S16x1x256

/-- The one-row index under a matrix index: same block row, same lane. -/
abbrev rowIdx (j : S16x256x256.Idx) : S16x1x256.Idx :=
  fun a => match a with
    | ⟨0, _⟩ => ⟨(j 0).val, (j 0).isLt⟩
    | ⟨1, _⟩ => ⟨0, Nat.one_pos⟩
    | ⟨2, _⟩ => ⟨(j 2).val, (j 2).isLt⟩

/-- A scratch matrix whose row `s` is `rowF s`. -/
def matOf (rowF : Nat → FVec F S16x1x256 .bf16) : Vec F S16x256x256 .bf16 := fun j => rowF (j 1).val (rowIdx j)

/-- The two scratch matrices after the body, and the output block. -/
def matG (x0 : Vec F S16x256 .f32) : Vec F S16x256x256 .bf16 := matOf (rowG x0)
def matY (x0 : Vec F S16x256 .f32) : Vec F S16x256x256 .bf16 := matOf (rowY x0)
def outC (x0 : Vec F S16x256 .f32) : Vec F S16x256x256 .f32 := k0_pay2 (matG x0) (matY x0)

/-! ## One row replaced in a two-row slab -/

/-- The one-row index under a two-row slab's index: same block row, same lane. -/
abbrev rowOf (x : S16x2x256.Idx) : S16x1x256.Idx :=
  fun a => match a with
    | ⟨0, _⟩ => ⟨(x 0).val, (x 0).isLt⟩
    | ⟨1, _⟩ => ⟨0, Nat.one_pos⟩
    | ⟨2, _⟩ => ⟨(x 2).val, (x 2).isLt⟩

/-- A two-row slab with row `r` replaced: at an index of row `r` the new row, elsewhere the old slab. -/
theorem updateSlice_row {α : Type} (old : S16x2x256.Idx → α) (pay : S16x1x256.Idx → α) (r : Nat)
    (h : S16x2x256.Slices ![0, r, 0] S16x1x256) (x : S16x2x256.Idx) :
    updateSlice old pay ![0, r, 0] h x = if (x 1).val = r then pay (rowOf x) else old x := by
  unfold updateSlice
  have h0 : (x 0).val < 16 := (x 0).isLt
  have h1 : (x 1).val < 2 := (x 1).isLt
  have h2 : (x 2).val < 256 := (x 2).isLt
  by_cases hr : (x 1).val = r
  · rw [if_pos hr, dif_pos]
    · refine congrArg pay (funext fun b => Fin.ext ?_)
      match b with
      | ⟨0, _⟩ => show (x 0).val - 0 = (x 0).val; omega
      | ⟨1, _⟩ => show (x 1).val - r = 0; omega
      | ⟨2, _⟩ => show (x 2).val - 0 = (x 2).val; omega
    · intro a
      match a with
      | ⟨0, _⟩ => exact ⟨Nat.zero_le _, show (x 0).val < 0 + 16 by omega⟩
      | ⟨1, _⟩ => exact ⟨show r ≤ (x 1).val by omega, show (x 1).val < r + 1 by omega⟩
      | ⟨2, _⟩ => exact ⟨Nat.zero_le _, show (x 2).val < 0 + 256 by omega⟩
  · rw [if_neg hr, dif_neg]
    intro hin
    have := hin ⟨1, by decide⟩
    have h' : r ≤ (x 1).val ∧ (x 1).val < r + 1 := this
    omega

/-! ## A matrix stored slab by slab, two stores to a slab -/

section Rows
variable {Val : EltTy → Type} [∀ e, Nonempty (Val e)] {e : EltTy}

/-- Rows `0 … 2n - 1` of what the stores `L` (latest first) leave are those of `G`. -/
def RowsOK (G : S16x256x256.Idx → Val e) (n : Nat) (L : List (View.Piece Val S16x256x256 e)) : Prop :=
  ∀ y : S16x256x256.Idx, (y 1).val < 2 * n → View.canon L y = G y

theorem rows_nil (G : S16x256x256.Idx → Val e) : RowsOK G 0 [] := fun y hy => absurd hy (by omega)

/-- Two stores of slab `n` (rows `2n`, `2n + 1`) on top of stores that settle the rows below: the later one decides
    the slab, so if it holds `G`'s two rows the rows below `2n + 2` are settled. -/
theorem rows_step (G : S16x256x256.Idx → Val e) (n : Nat)
    (inb : ∀ a, (![0, 2 * n, 0] : Fin 3 → Nat) a + S16x2x256.size a ≤ S16x256x256.size a)
    (wB wA : S16x2x256.Idx → Val e) (L : List (View.Piece Val S16x256x256 e))
    (hB : ∀ x, wB x = G ((Rect.unit (s := S16x256x256) ![0, 2 * n, 0] S16x2x256.size inb).emb x))
    (hL : RowsOK G n L) :
    RowsOK G (n + 1) (⟨Rect.unit (s := S16x256x256) ![0, 2 * n, 0] S16x2x256.size inb, wB⟩
      :: ⟨Rect.unit (s := S16x256x256) ![0, 2 * n, 0] S16x2x256.size inb, wA⟩ :: L) := by
  intro y hy
  by_cases hm : y ∈ (Rect.unit (s := S16x256x256) ![0, 2 * n, 0] S16x2x256.size inb).set
  · obtain ⟨x, rfl⟩ := (Rect.unit (s := S16x256x256) ![0, 2 * n, 0] S16x2x256.size inb).exists_idx_of_mem hm
    rw [show (Rect.unit (s := S16x256x256) ![0, 2 * n, 0] S16x2x256.size inb).idx x
      = (Rect.unit (s := S16x256x256) ![0, 2 * n, 0] S16x2x256.size inb).emb x from rfl, View.canon_cons_emb]
    exact hB x
  · rw [View.canon_cons_of_not_mem (⟨Rect.unit (s := S16x256x256) ![0, 2 * n, 0] S16x2x256.size inb, wB⟩ : View.Piece Val S16x256x256 e) _ hm,
      View.canon_cons_of_not_mem (⟨Rect.unit (s := S16x256x256) ![0, 2 * n, 0] S16x2x256.size inb, wA⟩ : View.Piece Val S16x256x256 e) _ hm]
    refine hL y ?_
    have h0 : (y 0).val < 16 := (y 0).isLt
    have h2 : (y 2).val < 256 := (y 2).isLt
    by_contra hlt
    apply hm
    rw [Rect.mem_set_unit]
    intro a
    match a with
    | ⟨0, _⟩ => exact ⟨Nat.zero_le _, show (y 0).val < 0 + 16 by omega⟩
    | ⟨1, _⟩ => exact ⟨show 2 * n ≤ (y 1).val by omega, show (y 1).val < 2 * n + 2 by omega⟩
    | ⟨2, _⟩ => exact ⟨Nat.zero_le _, show (y 2).val < 0 + 256 by omega⟩

end Rows

/-- Slab `n`'s entry `x` sits in matrix row `2n + x₁`, at `x`'s block row and lane. -/
theorem slab_row (n : Nat) (inb : ∀ a, (![0, 2 * n, 0] : Fin 3 → Nat) a + S16x2x256.size a ≤ S16x256x256.size a)
    (x : S16x2x256.Idx) :
    (((Rect.unit (s := S16x256x256) ![0, 2 * n, 0] S16x2x256.size inb).emb x) 1).val = 2 * n + (x 1).val := by
  show 2 * n + 1 * (x 1).val = _; omega

theorem slab_rowIdx (n : Nat) (inb : ∀ a, (![0, 2 * n, 0] : Fin 3 → Nat) a + S16x2x256.size a ≤ S16x256x256.size a)
    (x : S16x2x256.Idx) :
    rowIdx ((Rect.unit (s := S16x256x256) ![0, 2 * n, 0] S16x2x256.size inb).emb x) = rowOf x := by
  funext a
  refine Fin.ext ?_
  match a with
  | ⟨0, _⟩ => show 0 + 1 * (x 0).val = (x 0).val; omega
  | ⟨1, _⟩ => rfl
  | ⟨2, _⟩ => show 0 + 1 * (x 2).val = (x 2).val; omega

/-- THE SECOND STORE OF A SLAB holds both of the matrix's rows there: the slab it read back is the first store's (whose
    row 0 is the matrix's row `2n`) and the row it replaces, row 1, is the matrix's row `2n + 1`. -/
theorem slab_second {sig : RefSig} {κ : Kind} {sp : Space} (v : View sig κ sp S16x256x256 .bf16)
    (rowF : Nat → FVec F S16x1x256 .bf16) (n : Nat)
    (inb : ∀ a, (![0, 2 * n, 0] : Fin 3 → Nat) a + S16x2x256.size a ≤ S16x256x256.size a)
    (LA : List (View.Piece (Elt F) S16x256x256 .bf16))
    (old oldA : S16x2x256.Idx → Elt F .bf16) (payA payB : S16x1x256.Idx → Elt F .bf16)
    (h0 : S16x2x256.Slices ![0, 0, 0] S16x1x256) (h1 : S16x2x256.Slices ![0, 1, 0] S16x1x256)
    (hold : old = v.readCov (⟨Rect.unit (s := S16x256x256) ![0, 2 * n, 0] S16x2x256.size inb,
        updateSlice oldA payA ![0, 0, 0] h0⟩ :: LA) (Rect.unit (s := S16x256x256) ![0, 2 * n, 0] S16x2x256.size inb).toLoadRect)
    (hA : payA = rowF (2 * n)) (hB : payB = rowF (2 * n + 1)) (x : S16x2x256.Idx) :
    updateSlice old payB ![0, 1, 0] h1 x
      = matOf rowF ((Rect.unit (s := S16x256x256) ![0, 2 * n, 0] S16x2x256.size inb).emb x) := by
  subst hold hA hB
  rw [View.readCov_cons_toLoadRect, updateSlice_row, updateSlice_row]
  unfold matOf
  rw [slab_rowIdx, slab_row]
  have h1' : (x 1).val < 2 := (x 1).isLt
  by_cases hx : (x 1).val = 1
  · rw [if_pos hx, hx]
  · have hx0 : (x 1).val = 0 := by omega
    rw [if_neg hx, if_pos hx0, hx0, Nat.add_zero]

/-! ## The run's two scratch matrices -/

/-- The input block as the body loaded it. -/
abbrev loaded (c : Dev nD) (arg1 : Memref sig .tc .vmem S16x256 .f32) (f1 : Bf (F := F) c arg1) : Vec F S16x256 .f32 :=
  View.readAt (Elt F) arg1.view (Rect.unit (s := S16x256) ![0, 0] S16x256.size inb_S16x256_S16x256_0_0).toLoadRect f1

set_option maxHeartbeats 4000000 in
/-- Every row of what the run's stores leave in the first scratch buffer is the first matrix's. -/
theorem scratchG (c : Dev nD) (arg1 : Memref sig .tc .vmem S16x256 .f32)
    (arg3 : Memref sig .tc .vmem S16x256x256 .bf16) (f1 : Bf (F := F) c arg1) (f3 : Bf (F := F) c arg3) :
    RowsOK (matG (loaded c arg1 f1)) 128 (kernelRun.sl.H3_256 c arg1 arg3 f1 f3) := by
  unfold_run_chain "H3_"
  iterate 128 (
    refine rows_step _ _ _ _ _ _ ?_ ?_
    · exact slab_second arg3.view (rowG (loaded c arg1 f1)) _ _ _ _ _ _ _ _ _ (by rfl) (by rfl) (by rfl))
  exact rows_nil _

set_option maxHeartbeats 4000000 in
/-- Every row of what the run's stores leave in the second scratch buffer is the second matrix's. -/
theorem scratchY (c : Dev nD) (arg1 : Memref sig .tc .vmem S16x256 .f32)
    (arg4 : Memref sig .tc .vmem S16x256x256 .bf16) (f1 : Bf (F := F) c arg1) (f4 : Bf (F := F) c arg4) :
    RowsOK (matY (loaded c arg1 f1)) 128 (kernelRun.sl.H4_256 c arg1 arg4 f1 f4) := by
  unfold_run_chain "H4_"
  iterate 128 (
    refine rows_step _ _ _ _ _ _ ?_ ?_
    · exact slab_second arg4.view (rowY (loaded c arg1 f1)) _ _ _ _ _ _ _ _ _ (by rfl) (by rfl) (by rfl))
  exact rows_nil _

/-! ## The output -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole scratch after the run's stores reads the matrix whose rows they settled. -/
theorem whole_read {sig : RefSig} {κ : Kind} {sp : Space} (v : View sig κ sp S16x256x256 .bf16)
    (G : Vec F S16x256x256 .bf16) (L : List (View.Piece (Elt F) S16x256x256 .bf16)) (h : RowsOK G 128 L) :
    v.readCov L (Rect.unit (s := S16x256x256) ![0, 0, 0] S16x256x256.size inb_S16x256x256_S16x256x256_0_0_0).toLoadRect = G := by
  rw [View.readCov_eq_canon']
  funext j
  have hj : (Rect.unit (s := S16x256x256) ![0, 0, 0] S16x256x256.size inb_S16x256x256_S16x256x256_0_0_0).toLoadRect.idx j = j := by
    funext a
    refine Fin.ext ?_
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  rw [hj]
  exact h j (by have : (j 1).val < 256 := (j 1).isLt; omega)

set_option maxHeartbeats 4000000 in
/-- The output buffer's contents the run found: one store of the whole block, the product of the two scratch matrices
    as the body loaded them back. -/
theorem kernelRun_out (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    (kernelRun c i arg1 harg1 arg2 harg2 arg3 harg3 arg4 harg4 f1 f3 f4).1.1
      = arg2.view.writes (Elt F) arg2.view.junk (kernelRun.sl.H2_1 c arg1 arg3 arg4 f1 f3 f4) := by
  delta kernelRun
  rfl

/-- What the run found in the output buffer is `outC` of the input block, whatever the scratch buffers held. -/
theorem out_eq (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    arg2.view.read (Elt F) (kernelRun c i arg1 harg1 arg2 harg2 arg3 harg3 arg4 harg4 f1 f3 f4).1.1
      = outC (arg1.view.read (Elt F) f1) := by
  have hx : loaded c arg1 f1 = arg1.view.read (Elt F) f1 := by
    show View.ld (arg1.view.read (Elt F) f1) _ = _
    exact View.ld_unit_zero hz2 _ _
  rw [kernelRun_out, View.read_writes_junk_eq_canon]
  unfold kernelRun.sl.H2_1
  rw [View.canon_unit_zero hz3]
  unfold kernelRun.sl.v3074 kernelRun.sl.v3075
  rw [whole_read arg3.view _ _ (scratchG c arg1 arg3 f1 f3), whole_read arg4.view _ _ (scratchY c arg1 arg4 f1 f4), hx]
  rfl

end Cert.Kernel.Hand

end
-- ==== Proof.KFrame.lean ====
/-
  The pipeline's proof data for the triple-correlation kernel, the body obligation, the run and the frame.

  At every grid point the input window's buffer holds its block of 16 rows; the body leaves it as it was, leaves
  the output window's buffer at `outC` of that block, and leaves the two scratch matrices at some contents (they are
  part of what the region keeps between points, at contents nobody names).
-/
import proofs.«163062_j18614388261224_2_alg».proof.Proof.KClosed
import Idealize.ShloMosaic.Lib.Pipeline.Frame
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple over the windows' buffers and the region's invariant -/

set_option maxHeartbeats 4000000 in
/-- From the input buffer read at `x0`, the output buffer at anything and the region's invariant (the two scratch
    buffers and the generator register, at something), the body runs to its return with the input as it was, the
    output at `outC x0` and the invariant again. -/
theorem sound_kernel (c : Dev nD) (E : Set ℕ) (i : grid0.Coords)
    (arg1 : Memref sig .tc .vmem S16x256 .f32) (harg1 : arg1.IsWhole)
    (arg2 : Memref sig .tc .vmem S16x256x256 .f32) (harg2 : arg2.IsWhole)
    (x0 : Vec F S16x256 .f32) (K : PUnit → sProp 𝕄) :
    iprop(owns (c : Thread nD τ) arg1 fullShare x0 ∗ (∃ d, owns (c : Thread nD τ) arg2 fullShare d)
        ∗ (Pipeline.ΦA spec0 c : sProp 𝕄)
        ∗ (iprop(owns (c : Thread nD τ) arg1 fullShare x0 ∗ owns (c : Thread nD τ) arg2 fullShare (outC x0)
            ∗ (Pipeline.ΦA spec0 c : sProp 𝕄)) -∗ K ⟨⟩))
      ⊢ wp frame (wpE (defs₀ (F := F)) Variants.none c none) E
          (cc0__tc_kernel i arg1 harg1 arg2 harg2 (Memref.whole cc0_scratch0) (Memref.isWhole_whole _)
            (Memref.whole cc0_scratch1) (Memref.isWhole_whole _)) K := by
  unfold Pipeline.ΦA
  rw [scopedRest0_eq]
  unfold owns
  rw [harg1.set_eq_univ, harg2.set_eq_univ]
  iintro ⟨⟨%f1, %hf1, H1⟩, ⟨%d2, %f2, -, H2⟩, ⟨⟨⟨%f3, H3⟩, ⟨%f4, H4⟩⟩, Hg⟩, Hk⟩
  subst hf1
  have hW := out_eq c i arg1 harg1 arg2 harg2 (Memref.whole cc0_scratch0) (Memref.isWhole_whole _)
    (Memref.whole cc0_scratch1) (Memref.isWhole_whole _) f1 f3 f4
  generalize kernelRun c i arg1 harg1 arg2 harg2 (Memref.whole cc0_scratch0) (Memref.isWhole_whole _)
    (Memref.whole cc0_scratch1) (Memref.isWhole_whole _) f1 f3 f4 = R at hW
  obtain ⟨⟨w1, w2, w3⟩, hrun⟩ := R
  iapply (hrun f2 E K)
  isplitl [H1]; · iexact H1
  isplitl [H2]; · iexact H2
  isplitl [H3]; · iexact H3
  isplitl [H4]; · iexact H4
  iintro ⟨H1, H2, H3, H4⟩
  iapply Hk
  isplitl [H1]
  · iexists f1; isplitr; · ipureintro; rfl
    iexact H1
  isplitl [H2]
  · iexists _; isplitr
    swap; · iexact H2
    ipureintro
    exact hW
  isplitl [H3 H4]
  · isplitl [H3]; · iexists _; iexact H3
    iexists _; iexact H4
  iexact Hg

/-! ## The pipeline's proof data -/

/-- The proof data on core `c`: the arrays as the region finds them; after the body at point `t` the input's buffer at
    its block and the output's at `outC` of it; the region's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outC (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outC (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 2000000 in
/-- The body at any point: the input's buffer holds its block, so `sound_kernel` applies; the core's `owes` passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (Pipeline.ΦA spec0 c : sProp 𝕄) from rfl,
    show (dats m 0 c).Φ t.castSucc = (Pipeline.ΦA spec0 c : sProp 𝕄) from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  isplitl [HΦ]; · iexact HΦ
  iintro ⟨H0, H1, HΦ⟩
  isplitl [HΦ]; · iexact HΦ
  isplitl [Ho]; · iexact Ho
  isplitl [H0]; · iexact H0
  iexact H1

set_option maxRecDepth 200000 in
set_option maxHeartbeats 2000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the host line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and leaves its argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KiBody.lean ====
/-
  The body of the triple-correlation kernel, run once at symbolic operands.

  One grid point handles 16 rows x of length 256.  The body writes, for every shift s < 256, row s of two
  scratch matrices per x-row: Y[s, i] = x[(i + s) mod 256] (a lane rotation of x by 256 - s) and
  G[s, i] = x[i] * Y[s, i]; each row is stored by reading the two-row slab that holds it and storing the
  slab back with that one row replaced.  It then multiplies, per x-row, G by the transpose of Y and stores
  the 256 x 256 product as its output block.

  What the body leaves in the output buffer and in the two scratch buffers is found by the run itself, as the
  witnesses of a subtype, from the input block and the scratch contents the body started from.
-/
import proofs.«163062_j18614388261224_2_alg».proof.Proof.Gen.KernelIdeal.Frame
import proofs.«163062_j18614388261224_2_alg».proof.Proof.Gen.KernelIdeal.Skeleton
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of memref `M`'s buffer on core `c`, and that buffer held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- From the input block's buffer at `f1` and the two scratch buffers at `f3`, `f4` (the output buffer at anything),
    the body runs to its return, the input as it was and the output and scratch buffers at the witnesses. -/
noncomputable def kernelRun (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    { W : Bf (F := F) c arg2 × Bf (F := F) c arg3 × Bf (F := F) c arg4 //
      ∀ (f2 : Bf (F := F) c arg2) (E : Set ℕ) (Q : PUnit → sProp 𝕄),
        iprop(pt c arg1 f1 ∗ pt c arg2 f2 ∗ pt c arg3 f3 ∗ pt c arg4 f4
          ∗ (iprop(pt c arg1 f1 ∗ pt c arg2 W.1 ∗ pt c arg3 W.2.1 ∗ pt c arg4 W.2.2) -∗ Q ⟨⟩))
        ⊢ wp frame (wpE (defs₀ (F := F)) Variants.none c none) E
            (cc0__tc_kernel i arg1 harg1 arg2 harg2 arg3 harg3 arg4 harg4) Q } := by
  refine ⟨⟨?_, ?_, ?_⟩, fun f2 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

end Cert.KernelIdeal.Hand

end
-- ==== Proof.KiClosed.lean ====
/-
  What the body leaves, in closed form.

  For an input block x (16 rows of 256 lanes) and a shift s < 256, the rotation of x along the lanes by
  (256 - s) mod 256 puts lane (i + s) mod 256 of x at lane i.  Row s of the first scratch matrix is x times that
  rotation, row s of the second the rotation itself (both narrowed to the scratch's element type); the output is
  the batched product of the first with the transpose of the second.  None of it depends on what the scratch
  buffers held before: each two-row slab is read, one of its rows replaced and the slab stored back, twice, so
  after the second store both rows are the body's own — the first store's row 2n read back by the second store's
  load, the second store's row 2n + 1 its own payload.
-/
import proofs.«163062_j18614388261224_2_alg».proof.Proof.KiBody
import Idealize.ShloMosaic.Lib.Pipeline.Value
import proofs.«163062_j18614388261224_2_alg».proof.Proof.ChainTactic

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The closed forms -/

/-- The rotation amount the body uses for shift `s`. -/
def rotAmt (s : Nat) : BitVec 32 := BitVec.ofNat 32 ((256 - s) % 256)

/-- The block rotated for shift `s`: lane `i` holds lane `(i + s) mod 256` of the block. -/
def rolled (x0 : Vec F S16x256 .f32) (s : Nat) : FVec F S16x256 .f32 :=
  dynamicRotate 1 (rotAmt s) none (shapeCast S16x256 x0 shapeCasts_S16x256_S16x256) rotates_S16x256_d1

/-- Row `s` of the second scratch matrix: the rotated block, one matrix row per block row. -/
def rowY (x0 : Vec F S16x256 .f32) (s : Nat) : FVec F S16x1x256 .bf16 :=
  shapeCast S16x1x256 (truncf .bf16 (shapeCast S16x1x256 (rolled x0 s) shapeCasts_S16x256_S16x1x256) bitsLt_bf16_f32)
    shapeCasts_S16x1x256_S16x1x256

/-- Row `s` of the first scratch matrix: the block times its rotation. -/
def rowG (x0 : Vec F S16x256 .f32) (s : Nat) : FVec F S16x1x256 .bf16 :=
  shapeCast S16x1x256 (truncf .bf16 (shapeCast S16x1x256
      (mulf (shapeCast S16x256 x0 shapeCasts_S16x256_S16x256) (rolled x0 s)) shapeCasts_S16x256_S16x1x256) bitsLt_bf16_f32)
    shapeCasts_S16x1x256_S16x1x256

/-- The one-row index under a matrix index: same block row, same lane. -/
abbrev rowIdx (j : S16x256x256.Idx) : S16x1x256.Idx :=
  fun a => match a with
    | ⟨0, _⟩ => ⟨(j 0).val, (j 0).isLt⟩
    | ⟨1, _⟩ => ⟨0, Nat.one_pos⟩
    | ⟨2, _⟩ => ⟨(j 2).val, (j 2).isLt⟩

/-- A scratch matrix whose row `s` is `rowF s`. -/
def matOf (rowF : Nat → FVec F S16x1x256 .bf16) : Vec F S16x256x256 .bf16 := fun j => rowF (j 1).val (rowIdx j)

/-- The two scratch matrices after the body, and the output block. -/
def matG (x0 : Vec F S16x256 .f32) : Vec F S16x256x256 .bf16 := matOf (rowG x0)
def matY (x0 : Vec F S16x256 .f32) : Vec F S16x256x256 .bf16 := matOf (rowY x0)
def outC (x0 : Vec F S16x256 .f32) : Vec F S16x256x256 .f32 := k0_pay2 (matG x0) (matY x0)

/-! ## One row replaced in a two-row slab -/

/-- The one-row index under a two-row slab's index: same block row, same lane. -/
abbrev rowOf (x : S16x2x256.Idx) : S16x1x256.Idx :=
  fun a => match a with
    | ⟨0, _⟩ => ⟨(x 0).val, (x 0).isLt⟩
    | ⟨1, _⟩ => ⟨0, Nat.one_pos⟩
    | ⟨2, _⟩ => ⟨(x 2).val, (x 2).isLt⟩

/-- A two-row slab with row `r` replaced: at an index of row `r` the new row, elsewhere the old slab. -/
theorem updateSlice_row {α : Type} (old : S16x2x256.Idx → α) (pay : S16x1x256.Idx → α) (r : Nat)
    (h : S16x2x256.Slices ![0, r, 0] S16x1x256) (x : S16x2x256.Idx) :
    updateSlice old pay ![0, r, 0] h x = if (x 1).val = r then pay (rowOf x) else old x := by
  unfold updateSlice
  have h0 : (x 0).val < 16 := (x 0).isLt
  have h1 : (x 1).val < 2 := (x 1).isLt
  have h2 : (x 2).val < 256 := (x 2).isLt
  by_cases hr : (x 1).val = r
  · rw [if_pos hr, dif_pos]
    · refine congrArg pay (funext fun b => Fin.ext ?_)
      match b with
      | ⟨0, _⟩ => show (x 0).val - 0 = (x 0).val; omega
      | ⟨1, _⟩ => show (x 1).val - r = 0; omega
      | ⟨2, _⟩ => show (x 2).val - 0 = (x 2).val; omega
    · intro a
      match a with
      | ⟨0, _⟩ => exact ⟨Nat.zero_le _, show (x 0).val < 0 + 16 by omega⟩
      | ⟨1, _⟩ => exact ⟨show r ≤ (x 1).val by omega, show (x 1).val < r + 1 by omega⟩
      | ⟨2, _⟩ => exact ⟨Nat.zero_le _, show (x 2).val < 0 + 256 by omega⟩
  · rw [if_neg hr, dif_neg]
    intro hin
    have := hin ⟨1, by decide⟩
    have h' : r ≤ (x 1).val ∧ (x 1).val < r + 1 := this
    omega

/-! ## A matrix stored slab by slab, two stores to a slab -/

section Rows
variable {Val : EltTy → Type} [∀ e, Nonempty (Val e)] {e : EltTy}

/-- Rows `0 … 2n - 1` of what the stores `L` (latest first) leave are those of `G`. -/
def RowsOK (G : S16x256x256.Idx → Val e) (n : Nat) (L : List (View.Piece Val S16x256x256 e)) : Prop :=
  ∀ y : S16x256x256.Idx, (y 1).val < 2 * n → View.canon L y = G y

theorem rows_nil (G : S16x256x256.Idx → Val e) : RowsOK G 0 [] := fun y hy => absurd hy (by omega)

/-- Two stores of slab `n` (rows `2n`, `2n + 1`) on top of stores that settle the rows below: the later one decides
    the slab, so if it holds `G`'s two rows the rows below `2n + 2` are settled. -/
theorem rows_step (G : S16x256x256.Idx → Val e) (n : Nat)
    (inb : ∀ a, (![0, 2 * n, 0] : Fin 3 → Nat) a + S16x2x256.size a ≤ S16x256x256.size a)
    (wB wA : S16x2x256.Idx → Val e) (L : List (View.Piece Val S16x256x256 e))
    (hB : ∀ x, wB x = G ((Rect.unit (s := S16x256x256) ![0, 2 * n, 0] S16x2x256.size inb).emb x))
    (hL : RowsOK G n L) :
    RowsOK G (n + 1) (⟨Rect.unit (s := S16x256x256) ![0, 2 * n, 0] S16x2x256.size inb, wB⟩
      :: ⟨Rect.unit (s := S16x256x256) ![0, 2 * n, 0] S16x2x256.size inb, wA⟩ :: L) := by
  intro y hy
  by_cases hm : y ∈ (Rect.unit (s := S16x256x256) ![0, 2 * n, 0] S16x2x256.size inb).set
  · obtain ⟨x, rfl⟩ := (Rect.unit (s := S16x256x256) ![0, 2 * n, 0] S16x2x256.size inb).exists_idx_of_mem hm
    rw [show (Rect.unit (s := S16x256x256) ![0, 2 * n, 0] S16x2x256.size inb).idx x
      = (Rect.unit (s := S16x256x256) ![0, 2 * n, 0] S16x2x256.size inb).emb x from rfl, View.canon_cons_emb]
    exact hB x
  · rw [View.canon_cons_of_not_mem (⟨Rect.unit (s := S16x256x256) ![0, 2 * n, 0] S16x2x256.size inb, wB⟩ : View.Piece Val S16x256x256 e) _ hm,
      View.canon_cons_of_not_mem (⟨Rect.unit (s := S16x256x256) ![0, 2 * n, 0] S16x2x256.size inb, wA⟩ : View.Piece Val S16x256x256 e) _ hm]
    refine hL y ?_
    have h0 : (y 0).val < 16 := (y 0).isLt
    have h2 : (y 2).val < 256 := (y 2).isLt
    by_contra hlt
    apply hm
    rw [Rect.mem_set_unit]
    intro a
    match a with
    | ⟨0, _⟩ => exact ⟨Nat.zero_le _, show (y 0).val < 0 + 16 by omega⟩
    | ⟨1, _⟩ => exact ⟨show 2 * n ≤ (y 1).val by omega, show (y 1).val < 2 * n + 2 by omega⟩
    | ⟨2, _⟩ => exact ⟨Nat.zero_le _, show (y 2).val < 0 + 256 by omega⟩

end Rows

/-- Slab `n`'s entry `x` sits in matrix row `2n + x₁`, at `x`'s block row and lane. -/
theorem slab_row (n : Nat) (inb : ∀ a, (![0, 2 * n, 0] : Fin 3 → Nat) a + S16x2x256.size a ≤ S16x256x256.size a)
    (x : S16x2x256.Idx) :
    (((Rect.unit (s := S16x256x256) ![0, 2 * n, 0] S16x2x256.size inb).emb x) 1).val = 2 * n + (x 1).val := by
  show 2 * n + 1 * (x 1).val = _; omega

theorem slab_rowIdx (n : Nat) (inb : ∀ a, (![0, 2 * n, 0] : Fin 3 → Nat) a + S16x2x256.size a ≤ S16x256x256.size a)
    (x : S16x2x256.Idx) :
    rowIdx ((Rect.unit (s := S16x256x256) ![0, 2 * n, 0] S16x2x256.size inb).emb x) = rowOf x := by
  funext a
  refine Fin.ext ?_
  match a with
  | ⟨0, _⟩ => show 0 + 1 * (x 0).val = (x 0).val; omega
  | ⟨1, _⟩ => rfl
  | ⟨2, _⟩ => show 0 + 1 * (x 2).val = (x 2).val; omega

/-- THE SECOND STORE OF A SLAB holds both of the matrix's rows there: the slab it read back is the first store's (whose
    row 0 is the matrix's row `2n`) and the row it replaces, row 1, is the matrix's row `2n + 1`. -/
theorem slab_second {sig : RefSig} {κ : Kind} {sp : Space} (v : View sig κ sp S16x256x256 .bf16)
    (rowF : Nat → FVec F S16x1x256 .bf16) (n : Nat)
    (inb : ∀ a, (![0, 2 * n, 0] : Fin 3 → Nat) a + S16x2x256.size a ≤ S16x256x256.size a)
    (LA : List (View.Piece (Elt F) S16x256x256 .bf16))
    (old oldA : S16x2x256.Idx → Elt F .bf16) (payA payB : S16x1x256.Idx → Elt F .bf16)
    (h0 : S16x2x256.Slices ![0, 0, 0] S16x1x256) (h1 : S16x2x256.Slices ![0, 1, 0] S16x1x256)
    (hold : old = v.readCov (⟨Rect.unit (s := S16x256x256) ![0, 2 * n, 0] S16x2x256.size inb,
        updateSlice oldA payA ![0, 0, 0] h0⟩ :: LA) (Rect.unit (s := S16x256x256) ![0, 2 * n, 0] S16x2x256.size inb).toLoadRect)
    (hA : payA = rowF (2 * n)) (hB : payB = rowF (2 * n + 1)) (x : S16x2x256.Idx) :
    updateSlice old payB ![0, 1, 0] h1 x
      = matOf rowF ((Rect.unit (s := S16x256x256) ![0, 2 * n, 0] S16x2x256.size inb).emb x) := by
  subst hold hA hB
  rw [View.readCov_cons_toLoadRect, updateSlice_row, updateSlice_row]
  unfold matOf
  rw [slab_rowIdx, slab_row]
  have h1' : (x 1).val < 2 := (x 1).isLt
  by_cases hx : (x 1).val = 1
  · rw [if_pos hx, hx]
  · have hx0 : (x 1).val = 0 := by omega
    rw [if_neg hx, if_pos hx0, hx0, Nat.add_zero]

/-! ## The run's two scratch matrices -/

/-- The input block as the body loaded it. -/
abbrev loaded (c : Dev nD) (arg1 : Memref sig .tc .vmem S16x256 .f32) (f1 : Bf (F := F) c arg1) : Vec F S16x256 .f32 :=
  View.readAt (Elt F) arg1.view (Rect.unit (s := S16x256) ![0, 0] S16x256.size inb_S16x256_S16x256_0_0).toLoadRect f1

set_option maxHeartbeats 4000000 in
/-- Every row of what the run's stores leave in the first scratch buffer is the first matrix's. -/
theorem scratchG (c : Dev nD) (arg1 : Memref sig .tc .vmem S16x256 .f32)
    (arg3 : Memref sig .tc .vmem S16x256x256 .bf16) (f1 : Bf (F := F) c arg1) (f3 : Bf (F := F) c arg3) :
    RowsOK (matG (loaded c arg1 f1)) 128 (kernelRun.sl.H3_256 c arg1 arg3 f1 f3) := by
  unfold_run_chain "H3_"
  iterate 128 (
    refine rows_step _ _ _ _ _ _ ?_ ?_
    · exact slab_second arg3.view (rowG (loaded c arg1 f1)) _ _ _ _ _ _ _ _ _ (by rfl) (by rfl) (by rfl))
  exact rows_nil _

set_option maxHeartbeats 4000000 in
/-- Every row of what the run's stores leave in the second scratch buffer is the second matrix's. -/
theorem scratchY (c : Dev nD) (arg1 : Memref sig .tc .vmem S16x256 .f32)
    (arg4 : Memref sig .tc .vmem S16x256x256 .bf16) (f1 : Bf (F := F) c arg1) (f4 : Bf (F := F) c arg4) :
    RowsOK (matY (loaded c arg1 f1)) 128 (kernelRun.sl.H4_256 c arg1 arg4 f1 f4) := by
  unfold_run_chain "H4_"
  iterate 128 (
    refine rows_step _ _ _ _ _ _ ?_ ?_
    · exact slab_second arg4.view (rowY (loaded c arg1 f1)) _ _ _ _ _ _ _ _ _ (by rfl) (by rfl) (by rfl))
  exact rows_nil _

/-! ## The output -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole scratch after the run's stores reads the matrix whose rows they settled. -/
theorem whole_read {sig : RefSig} {κ : Kind} {sp : Space} (v : View sig κ sp S16x256x256 .bf16)
    (G : Vec F S16x256x256 .bf16) (L : List (View.Piece (Elt F) S16x256x256 .bf16)) (h : RowsOK G 128 L) :
    v.readCov L (Rect.unit (s := S16x256x256) ![0, 0, 0] S16x256x256.size inb_S16x256x256_S16x256x256_0_0_0).toLoadRect = G := by
  rw [View.readCov_eq_canon']
  funext j
  have hj : (Rect.unit (s := S16x256x256) ![0, 0, 0] S16x256x256.size inb_S16x256x256_S16x256x256_0_0_0).toLoadRect.idx j = j := by
    funext a
    refine Fin.ext ?_
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  rw [hj]
  exact h j (by have : (j 1).val < 256 := (j 1).isLt; omega)

set_option maxHeartbeats 4000000 in
/-- The output buffer's contents the run found: one store of the whole block, the product of the two scratch matrices
    as the body loaded them back. -/
theorem kernelRun_out (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    (kernelRun c i arg1 harg1 arg2 harg2 arg3 harg3 arg4 harg4 f1 f3 f4).1.1
      = arg2.view.writes (Elt F) arg2.view.junk (kernelRun.sl.H2_1 c arg1 arg3 arg4 f1 f3 f4) := by
  delta kernelRun
  rfl

/-- What the run found in the output buffer is `outC` of the input block, whatever the scratch buffers held. -/
theorem out_eq (c : Dev nD) (i : grid0.Coords)
    (arg1 : Memref sig .tc .vmem S16x256 .f32) (harg1 : arg1.IsWhole)
    (arg2 : Memref sig .tc .vmem S16x256x256 .f32) (harg2 : arg2.IsWhole)
    (arg3 : Memref sig .tc .vmem S16x256x256 .bf16) (harg3 : arg3.IsWhole)
    (arg4 : Memref sig .tc .vmem S16x256x256 .bf16) (harg4 : arg4.IsWhole)
    (f1 : Bf (F := F) c arg1) (f3 : Bf (F := F) c arg3) (f4 : Bf (F := F) c arg4) :
    arg2.view.read (Elt F) (kernelRun c i arg1 harg1 arg2 harg2 arg3 harg3 arg4 harg4 f1 f3 f4).1.1
      = outC (arg1.view.read (Elt F) f1) := by
  have hx : loaded c arg1 f1 = arg1.view.read (Elt F) f1 := by
    show View.ld (arg1.view.read (Elt F) f1) _ = _
    exact View.ld_unit_zero hz2 _ _
  rw [kernelRun_out, View.read_writes_junk_eq_canon]
  unfold kernelRun.sl.H2_1
  rw [View.canon_unit_zero hz3]
  unfold kernelRun.sl.v3074 kernelRun.sl.v3075
  rw [whole_read arg3.view _ _ (scratchG c arg1 arg3 f1 f3), whole_read arg4.view _ _ (scratchY c arg1 arg4 f1 f4), hx]
  rfl

end Cert.KernelIdeal.Hand

end
-- ==== Proof.KiFrame.lean ====
/-
  The pipeline's proof data for the triple-correlation kernel, the body obligation, the run and the frame.

  At every grid point the input window's buffer holds its block of 16 rows; the body leaves it as it was, leaves
  the output window's buffer at `outC` of that block, and leaves the two scratch matrices at some contents (they are
  part of what the region keeps between points, at contents nobody names).
-/
import proofs.«163062_j18614388261224_2_alg».proof.Proof.KiClosed
import Idealize.ShloMosaic.Lib.Pipeline.Frame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple over the windows' buffers and the region's invariant -/

set_option maxHeartbeats 4000000 in
/-- From the input buffer read at `x0`, the output buffer at anything and the region's invariant (the two scratch
    buffers and the generator register, at something), the body runs to its return with the input as it was, the
    output at `outC x0` and the invariant again. -/
theorem sound_kernel (c : Dev nD) (E : Set ℕ) (i : grid0.Coords)
    (arg1 : Memref sig .tc .vmem S16x256 .f32) (harg1 : arg1.IsWhole)
    (arg2 : Memref sig .tc .vmem S16x256x256 .f32) (harg2 : arg2.IsWhole)
    (x0 : Vec F S16x256 .f32) (K : PUnit → sProp 𝕄) :
    iprop(owns (c : Thread nD τ) arg1 fullShare x0 ∗ (∃ d, owns (c : Thread nD τ) arg2 fullShare d)
        ∗ (Pipeline.ΦA spec0 c : sProp 𝕄)
        ∗ (iprop(owns (c : Thread nD τ) arg1 fullShare x0 ∗ owns (c : Thread nD τ) arg2 fullShare (outC x0)
            ∗ (Pipeline.ΦA spec0 c : sProp 𝕄)) -∗ K ⟨⟩))
      ⊢ wp frame (wpE (defs₀ (F := F)) Variants.none c none) E
          (cc0__tc_kernel i arg1 harg1 arg2 harg2 (Memref.whole cc0_scratch0) (Memref.isWhole_whole _)
            (Memref.whole cc0_scratch1) (Memref.isWhole_whole _)) K := by
  unfold Pipeline.ΦA
  rw [scopedRest0_eq]
  unfold owns
  rw [harg1.set_eq_univ, harg2.set_eq_univ]
  iintro ⟨⟨%f1, %hf1, H1⟩, ⟨%d2, %f2, -, H2⟩, ⟨⟨⟨%f3, H3⟩, ⟨%f4, H4⟩⟩, Hg⟩, Hk⟩
  subst hf1
  have hW := out_eq c i arg1 harg1 arg2 harg2 (Memref.whole cc0_scratch0) (Memref.isWhole_whole _)
    (Memref.whole cc0_scratch1) (Memref.isWhole_whole _) f1 f3 f4
  generalize kernelRun c i arg1 harg1 arg2 harg2 (Memref.whole cc0_scratch0) (Memref.isWhole_whole _)
    (Memref.whole cc0_scratch1) (Memref.isWhole_whole _) f1 f3 f4 = R at hW
  obtain ⟨⟨w1, w2, w3⟩, hrun⟩ := R
  iapply (hrun f2 E K)
  isplitl [H1]; · iexact H1
  isplitl [H2]; · iexact H2
  isplitl [H3]; · iexact H3
  isplitl [H4]; · iexact H4
  iintro ⟨H1, H2, H3, H4⟩
  iapply Hk
  isplitl [H1]
  · iexists f1; isplitr; · ipureintro; rfl
    iexact H1
  isplitl [H2]
  · iexists _; isplitr
    swap; · iexact H2
    ipureintro
    exact hW
  isplitl [H3 H4]
  · isplitl [H3]; · iexists _; iexact H3
    iexists _; iexact H4
  iexact Hg

/-! ## The pipeline's proof data -/

/-- The proof data on core `c`: the arrays as the region finds them; after the body at point `t` the input's buffer at
    its block and the output's at `outC` of it; the region's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outC (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outC (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 2000000 in
/-- The body at any point: the input's buffer holds its block, so `sound_kernel` applies; the core's `owes` passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (Pipeline.ΦA spec0 c : sProp 𝕄) from rfl,
    show (dats m 0 c).Φ t.castSucc = (Pipeline.ΦA spec0 c : sProp 𝕄) from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  isplitl [HΦ]; · iexact HΦ
  iintro ⟨H0, H1, HΦ⟩
  isplitl [HΦ]; · iexact HΦ
  isplitl [Ho]; · iexact Ho
  isplitl [H0]; · iexact H0
  iexact H1

set_option maxRecDepth 200000 in
set_option maxHeartbeats 2000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the host line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and leaves its argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The triple correlation both programs compute, stated once.

  For a row v of 256 extended reals and shifts a, c < 256:
      tc v a c = sum over k < 256 of (v k * v ((k + a) mod 256)) * v ((k + c) mod 256).
  The kernel reaches it as the product of the matrix G[a, k] = v k * v ((k + a) mod 256) with the transpose of
  Y[c, k] = v ((k + c) mod 256); the reference as the contraction over i of (v i * R[a, i]) with R[i, c], where
  R[p, q] = v ((p + q) mod 256).  The two sums have the same terms in the same order, so no law of the extended
  reals beyond the commutativity of + on the lane numbers is needed.
-/
import Idealize.ShloMosaic.PureOps.Ideal
import Idealize.ShloMosaic.Lib.ValueIdx

noncomputable section

namespace Cert.TripleCorr

open Idealize.ShloMosaic

/-- Lane `k` moved on by `s`, around the end. -/
def wrap (k s : Fin 256) : Fin 256 := ⟨(k.val + s.val) % 256, Nat.mod_lt _ (by decide)⟩

theorem wrap_val (k s : Fin 256) : (wrap k s).val = (k.val + s.val) % 256 := rfl

/-- The triple correlation of one row at shifts `a`, `c`. -/
def tc (v : Fin 256 → EReal) (a c : Fin 256) : EReal :=
  ∑ k : Fin 256, (v k * v (wrap k a)) * v (wrap k c)

/-- The triple correlation of every row of a 1024 x 256 matrix: entry (m, a, c) is `tc` of row m at shifts a, c. -/
def tcArr (xf : (⟨2, ![1024, 256]⟩ : Shape).Idx → EReal) : (⟨3, ![1024, 256, 256]⟩ : Shape).Idx → EReal :=
  fun j => tc (fun k => xf (ValueIdx.ix2 (j 0) k)) (j 1) (j 2)

theorem tcArr_apply (xf : (⟨2, ![1024, 256]⟩ : Shape).Idx → EReal) (m : Fin 1024) (a c : Fin 256) :
    tcArr xf (ValueIdx.ix3 m a c) = ∑ k : Fin 256, (xf (ValueIdx.ix2 m k) * xf (ValueIdx.ix2 m (wrap k a))) * xf (ValueIdx.ix2 m (wrap k c)) := rfl

end Cert.TripleCorr

end
-- ==== Proof.KiPoint.lean ====
/-
  The closed forms read at an index, at the ideal instance.

  At Ideal a change of float format is the identity and the matrix unit's product into a zero accumulator is the
  plain sum over the contracted lane.  So entry (r, a, k) of the first scratch matrix is x[r, k] * x[r, (k + a) mod 256],
  entry (r, c, k) of the second is x[r, (k + c) mod 256], and entry (r, a, c) of the output block is the triple
  correlation of block row r at shifts a, c.
-/
import proofs.«163062_j18614388261224_2_alg».proof.Proof.KiClosed
import proofs.«163062_j18614388261224_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.View
open Cert.TripleCorr

/-- The rotation amount for shift `s`, as a number of lanes. -/
theorem rotAmt_toNat (s : Nat) (hs : s < 256) : (rotAmt s).toNat = (256 - s) % 256 := by
  unfold rotAmt
  rw [BitVec.toNat_ofNat]
  exact Nat.mod_eq_of_lt (lt_of_lt_of_le (Nat.mod_lt _ (by decide)) (by decide))

/-- The block rotated for shift `s`, at block row `r` and lane `k`: lane `(k + s) mod 256` of the block. -/
theorem rolled_apply (x0 : Vec Ideal S16x256 .f32) (s : Fin 256) (r : Fin 16) (k : Fin 256) :
    rolled x0 s.val (ix2 r k) = x0 (ix2 r (wrap k s)) := by
  unfold rolled
  rw [shapeCast_self]
  unfold dynamicRotate
  refine congrArg x0 (funext fun b => ?_)
  match b with
  | ⟨0, _⟩ => rfl
  | ⟨1, _⟩ =>
    refine Fin.ext ?_
    show (k.val + 256 - ((rotAmt s.val).toNat + 0) % 256) % 256 = (k.val + s.val) % 256
    rw [rotAmt_toNat s.val s.isLt]
    have hs := s.isLt
    have hk := k.isLt
    omega

/-- The one-row slab index of block row `r`, lane `k`. -/
theorem rowIdx_ix3 (r : Fin 16) (a k : Fin 256) : rowIdx (ix3 r a k) = ix3 r (0 : Fin 1) k := by
  funext b
  match b with
  | ⟨0, _⟩ => rfl
  | ⟨1, _⟩ => rfl
  | ⟨2, _⟩ => rfl

/-- A [16, 256] block viewed as [16, 1, 256], at (r, 0, k): the block's (r, k). -/
theorem addRow_apply (v : FVec Ideal S16x256 .f32) (r : Fin 16) (k : Fin 256) :
    shapeCast S16x1x256 v shapeCasts_S16x256_S16x1x256 (ix3 r (0 : Fin 1) k) = v (ix2 r k) :=
  shapeCast_apply v shapeCasts_S16x256_S16x1x256 (ix3 r (0 : Fin 1) k) (ix2 r k) (by
    rw [Shape.rowMajor_val_two, Shape.rowMajor_val_three]
    show r.val * 256 + k.val = (r.val * 1 + 0) * 256 + k.val
    omega)

/-- Entry (r, c, k) of the second scratch matrix. -/
theorem matY_apply (x0 : Vec Ideal S16x256 .f32) (r : Fin 16) (c k : Fin 256) :
    matY x0 (ix3 r c k) = x0 (ix2 r (wrap k c)) := by
  show rowY x0 c.val (rowIdx (ix3 r c k)) = _
  rw [rowIdx_ix3]
  unfold rowY
  rw [shapeCast_self]
  show shapeCast S16x1x256 (rolled x0 c.val) shapeCasts_S16x256_S16x1x256 (ix3 r (0 : Fin 1) k) = _
  rw [addRow_apply, rolled_apply]

/-- Entry (r, a, k) of the first scratch matrix. -/
theorem matG_apply (x0 : Vec Ideal S16x256 .f32) (r : Fin 16) (a k : Fin 256) :
    matG x0 (ix3 r a k) = x0 (ix2 r k) * x0 (ix2 r (wrap k a)) := by
  show rowG x0 a.val (rowIdx (ix3 r a k)) = _
  rw [rowIdx_ix3]
  unfold rowG
  rw [shapeCast_self]
  show shapeCast S16x1x256 (mulf (shapeCast S16x256 x0 shapeCasts_S16x256_S16x256) (rolled x0 a.val)) shapeCasts_S16x256_S16x1x256
      (ix3 r (0 : Fin 1) k) = _
  rw [addRow_apply, shapeCast_self]
  show x0 (ix2 r k) * rolled x0 a.val (ix2 r k) = _
  rw [rolled_apply]

/-- The product's contracted lane: output entry (r, a, c) multiplies the first matrix's (r, a, k) by the second's
    (r, c, k). -/
theorem lhs_at (r : Fin 16) (a c : Fin 256) (k : Fin 256) :
    dot_S16x256x256_S16x256x256_S16x256x256_2_2_1_1_0_0.lhsIdx (ix3 r a c)
      ((contrEquiv1 dot_S16x256x256_S16x256x256_S16x256x256_2_2_1_1_0_0 256 rfl rfl).symm k) = ix3 r a k := by
  funext b
  refine Fin.ext ?_
  match b with
  | ⟨0, _⟩ => rfl
  | ⟨1, _⟩ => rfl
  | ⟨2, _⟩ =>
    exact (DotDims.lhsIdx_val_of_single dot_S16x256x256_S16x256x256_S16x256x256_2_2_1_1_0_0 (cl := (2 : Fin 3)) rfl _ _).trans
      (contrEquiv1_symm_val dot_S16x256x256_S16x256x256_S16x256x256_2_2_1_1_0_0 256 rfl rfl k)

theorem rhs_at (r : Fin 16) (a c : Fin 256) (k : Fin 256) :
    dot_S16x256x256_S16x256x256_S16x256x256_2_2_1_1_0_0.rhsIdx (ix3 r a c)
      ((contrEquiv1 dot_S16x256x256_S16x256x256_S16x256x256_2_2_1_1_0_0 256 rfl rfl).symm k) = ix3 r c k := by
  funext b
  refine Fin.ext ?_
  match b with
  | ⟨0, _⟩ => rfl
  | ⟨1, _⟩ => rfl
  | ⟨2, _⟩ =>
    exact (DotDims.rhsIdx_val_of_single dot_S16x256x256_S16x256x256_S16x256x256_2_2_1_1_0_0 (cr := (2 : Fin 3)) rfl _ _).trans
      (contrEquiv1_symm_val dot_S16x256x256_S16x256x256_S16x256x256_2_2_1_1_0_0 256 rfl rfl k)

/-- Entry (r, a, c) of the output block: the triple correlation of block row `r` at shifts `a`, `c`. -/
theorem outC_apply (x0 : Vec Ideal S16x256 .f32) (r : Fin 16) (a c : Fin 256) :
    outC x0 (ix3 r a c) = tc (fun k => x0 (ix2 r k)) a c := by
  unfold outC k0_pay2
  show FloatOps.matmul dot_S16x256x256_S16x256x256_S16x256x256_2_2_1_1_0_0 none (matG x0) (matY x0)
    (constant S16x256x256 .f32 0x00000000#32) (ix3 r a c) = _
  rw [Ideal.matmul_constant_zero_apply]
  unfold tc
  rw [← Equiv.sum_comp (contrEquiv1 dot_S16x256x256_S16x256x256_S16x256x256_2_2_1_1_0_0 256 rfl rfl).symm]
  refine Finset.sum_congr rfl fun k _ => ?_
  rw [lhs_at, rhs_at, matG_apply, matY_apply]

end Cert.KernelIdeal.Hand

end
-- ==== Proof.KiArray.lean ====
/-
  The kernel's result as one function of its argument, at the ideal instance.

  The grid has 64 points; point t reads rows 16 t … 16 t + 15 of the input array (1024 rows of 256 lanes) and writes
  back the block of rows 16 t … 16 t + 15 of the output array (1024 x 256 x 256).  Entry (r, a, c) of what it writes is
  the triple correlation of block row r at shifts a, c, that is, of row 16 t + r of the input array: so every block
  written back is the corresponding block of ONE function of the input array, its triple correlation row by row.  The
  64 blocks cover the output array (row R lies in the block of point R / 16), so after the last point the output array
  is that function.  The input array is the argument reshaped, and the result buffer is the output array reshaped.
-/
import proofs.«163062_j18614388261224_2_alg».proof.Proof.KiFrame
import proofs.«163062_j18614388261224_2_alg».proof.Proof.KiPoint
import Idealize.ShloMosaic.Lib.Pipeline.Frame
import Idealize.ShloMosaic.Lib.Pipeline.FrameSuffix
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.TripleCorr

variable (m : (ℓ : Loc nD τ sig) → Buf (Elt Ideal) ℓ) (ρ : Dev nD → PrngReg)

/-! ## The input array as the region finds it -/

/-- The region's input array is the argument reshaped to 1024 rows of 256 lanes. -/
theorem V_main_v0 (c : Dev nD) :
    (V m c main_v0 : S1024x256.Idx → EReal)
      = shapeCast S1024x256 (m ((c : Thread nD τ).loc main_arg0)) shapeCasts_S64x16x16x16_S1024x256 := by
  show StableHlo.after hostOps0 (fun b => m (c, b)) (Proc.devRef .tc main_v0) = _
  after_results
  rfl

/-! ## The index maps -/

/-- At grid point t the input window is at block (t, 0) and the output window at block (t, 0, 0). -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-! ## What each grid point writes back -/

/-- A block of 16 rows that is rows 16 T … 16 T + 15 of an array A has, as its output block, the entries of the triple
    correlation of A at those rows: entry (r, a, c) of the block is entry (16 T + r, a, c) of the array's. -/
theorem block_eq (A : S1024x256.Idx → EReal) (xb : Vec Ideal S16x256 .f32) (T : Nat)
    (hxb : ∀ (r : Fin 16) (k : Fin 256) (R : Fin 1024), R.val = T * 16 + r.val → xb (ix2 r k) = A (ix2 R k))
    (j : S16x256x256.Idx) (i : S1024x256x256.Idx)
    (h0 : (i 0).val = T * 16 + (j 0).val) (h1 : (i 1).val = (j 1).val) (h2 : (i 2).val = (j 2).val) :
    outC xb j = tcArr A i := by
  obtain ⟨r, a, c, rfl⟩ : ∃ (r : Fin 16) (a c : Fin 256), j = ix3 r a c := ⟨j 0, j 1, j 2, eq_ix3 j⟩
  obtain ⟨R, a', c', rfl⟩ : ∃ (R : Fin 1024) (a' c' : Fin 256), i = ix3 R a' c' := ⟨i 0, i 1, i 2, eq_ix3 i⟩
  obtain rfl : a' = a := Fin.ext h1
  obtain rfl : c' = c := Fin.ext h2
  rw [outC_apply, tcArr_apply]
  show tc (fun k => xb (ix2 r k)) a' c' = tc (fun k => A (ix2 R k)) a' c'
  exact congrArg (fun v => tc v a' c') (funext fun k => hxb r k R h0)

/-- The input window's block at point t is rows 16 t … 16 t + 15 of the input array. -/
theorem iblk_rows (c : Dev nD) (t : Fin cfg0.N) (r : Fin 16) (k : Fin 256) (R : Fin 1024) (hR : R.val = t.val * 16 + r.val) :
    (iblk m c 0 t : Vec Ideal S16x256 .f32) (ix2 r k) = (V m c main_v0 : S1024x256.Idx → EReal) (ix2 R k) := by
  obtain ⟨e0, e1, -, -, -⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 16 + 1 * r.val = R.val; rw [e0, hR]; omega
  | ⟨1, _⟩ => show win0_0.index t (1 : Fin 2) * 256 + 1 * k.val = k.val; rw [e1]; omega

/-- What point t writes back is block t of the triple correlation of the input array. -/
theorem flushed_eq (c : Dev nD) (t : Fin cfg0.N) :
    (dats m 0 c).flushed 1 t = ((cfg0.win 1).blk t).view.read (Elt Ideal) (tcArr (V m c main_v0)) := by
  show (cfg0.win 1).cut (grid0.coords t) ((dats m 0 c).after 1 t) = _
  rw [after0_1]
  obtain ⟨-, -, e0, e1, e2⟩ := idx_facts t
  funext j
  refine block_eq (V m c main_v0) (iblk m c 0 t) t.val (fun r k R hR => iblk_rows m c t r k R hR)
    ((cfg0.win 1).xinj (grid0.coords t) j) (((cfg0.win 1).blk t).view.emb j) ?_ ?_ ?_
  · show win0_1.index t (0 : Fin 3) * 16 + 1 * (j 0).val = t.val * 16 + (j 0).val
    rw [e0]; omega
  · show win0_1.index t (1 : Fin 3) * 256 + 1 * (j 1).val = (j 1).val
    rw [e1]; omega
  · show win0_1.index t (2 : Fin 3) * 256 + 1 * (j 2).val = (j 2).val
    rw [e2]; omega

/-! ## The blocks cover the output array -/

/-- An index of the output array is in point t's block iff each coordinate is in the block's range on its axis. -/
theorem mem_blk (t : Fin cfg0.N) (i : S1024x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v1).slice (win0_1.rect t)).set ↔ _
  rw [View.set_slice_whole, Rect.mem_set_unit]
  exact Iff.rfl

/-- Every index of the output array is in the block of the point that handles its row: row R belongs to point R / 16. -/
theorem cover (i : S1024x256x256.Idx) :
    ∃ t : Fin cfg0.N, (cfg0.win 1).flush t = true ∧ i ∈ ((cfg0.win 1).blk t).view.set := by
  have hi0 : (i 0).val < 1024 := (i 0).isLt
  have hi1 : (i 1).val < 256 := (i 1).isLt
  have hi2 : (i 2).val < 256 := (i 2).isLt
  have hN : grid0.N = 64 := N_0
  have ht : (i 0).val / 16 < cfg0.N := by show (i 0).val / 16 < grid0.N; rw [hN]; omega
  refine ⟨⟨(i 0).val / 16, ht⟩, flush0_1 _, ?_⟩
  rw [mem_blk]
  obtain ⟨-, -, e0, e1, e2⟩ := idx_facts ⟨(i 0).val / 16, ht⟩
  intro a
  match a with
  | ⟨0, _⟩ =>
    show win0_1.index ⟨(i 0).val / 16, ht⟩ (0 : Fin 3) * 16 ≤ (i 0).val
      ∧ (i 0).val < win0_1.index ⟨(i 0).val / 16, ht⟩ (0 : Fin 3) * 16 + 16
    rw [e0]; show (i 0).val / 16 * 16 ≤ (i 0).val ∧ (i 0).val < (i 0).val / 16 * 16 + 16; omega
  | ⟨1, _⟩ =>
    show win0_1.index ⟨(i 0).val / 16, ht⟩ (1 : Fin 3) * 256 ≤ (i 1).val
      ∧ (i 1).val < win0_1.index ⟨(i 0).val / 16, ht⟩ (1 : Fin 3) * 256 + 256
    rw [e1]; omega
  | ⟨2, _⟩ =>
    show win0_1.index ⟨(i 0).val / 16, ht⟩ (2 : Fin 3) * 256 ≤ (i 2).val
      ∧ (i 2).val < win0_1.index ⟨(i 0).val / 16, ht⟩ (2 : Fin 3) * 256 + 256
    rw [e2]; omega

/-- After the last point the output array is the triple correlation of the input array. -/
theorem final (c : Dev nD) : (dats m 0 c).arrAt 1 cfg0.N = tcArr (V m c main_v0) :=
  (dats m 0 c).arrAt_eq_of_cover 1 _ (fun t _ => flushed_eq m c t) cover

/-! ## The reshape after the region, and the run -/

/-- The result buffer after the run: the reshape of the output array, which is the triple correlation of the reshaped
    argument. -/
theorem tail_eq (c : Dev nD) :
    Pipeline.afterTail₀ cfgs (dats m) 0 (V0 m) [hostOps1] c main_v2
      = shapeCast S64x16x256x256 (tcArr (shapeCast S1024x256 (m ((c : Thread nD τ).loc main_arg0)) shapeCasts_S64x16x16x16_S1024x256))
          shapeCasts_S1024x256x256_S64x16x256x256 := by
  have e : Pipeline.withArrays (cfgs 0).spec c (V0 m c) (fun w => (dats m 0 c).arrAt w (cfgs 0).N) (Proc.devRef .tc main_v1)
      = tcArr (shapeCast S1024x256 (m ((c : Thread nD τ).loc main_arg0)) shapeCasts_S64x16x16x16_S1024x256) :=
    (Pipeline.withArrays_arr spec0 launch0.win.arr_inj c _ _ 1).trans ((final m c).trans (congrArg tcArr (V_main_v0 m c)))
  unfold Pipeline.afterTail₀
  show StableHlo.after hostOps1 _ (Proc.devRef .tc main_v2) = _
  after_results
  rw [e]
  rfl

/-- At the compiled mesh, from any memory with zero counters: every weakly fair execution of @main terminates with the
    result buffer at the triple correlation of the rows of the argument, reshaped, and the argument unchanged. -/
theorem kernel_run : θ_run defs (onTc (τ := τ) (main (F := Ideal))) ⟨m, fun _ => 0, ρ⟩ (fun r => ∀ c : Dev nD,
      r.2.mem ((c.tc : Thread nD τ).loc main_v2)
        = shapeCast S64x16x256x256 (tcArr (shapeCast S1024x256 (m ((c.tc : Thread nD τ).loc main_arg0)) shapeCasts_S64x16x16x16_S1024x256))
            shapeCasts_S1024x256x256_S64x16x256x256
      ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Hand

end
-- ==== Proof.RefRun.lean ====
/-
  The reference's program as a straight line of host operations, and what its run leaves.

  The reference reshapes x to 1024 rows of length 256, builds the 256 x 256 table of indices
  (a + i) mod 256 (two iotas, their sum, the outlined remainder with its sign correction, and one more
  wrap of negative entries), gathers all_rolls[m, a, i] = x[m, table[a, i]], multiplies by x[m, i], and
  contracts: TC[m, a, c] = sum over i of (x[m, i] * all_rolls[m, a, i]) * all_rolls[m, i, c].
-/
import proofs.«163062_j18614388261224_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the remainder function's (and, inside it, the select of its divisor) listed where
    they are called, over that call's own buffers. -/
abbrev ops : List (HloOp τ sig (Elt F)) :=
  [ reshape main_arg0 main_v0 rfl shapeCasts_S64x16x16x16_S1024x256,
    nullary main_v1 (iotaInDim S256 32 0),
    unary main_v1 main_v2 (broadcastInDim S256x1 ![0] bcast_S256_S256x1_0 : (⟨S256, .i32⟩ : BufTy).Contents (Elt F) → (⟨S256x1, .i32⟩ : BufTy).Contents (Elt F)),
    nullary main_v3 (iotaInDim S256 32 0),
    unary main_v3 main_v4 (broadcastInDim S1x256 ![1] bcast_S256_S1x256_1 : (⟨S256, .i32⟩ : BufTy).Contents (Elt F) → (⟨S1x256, .i32⟩ : BufTy).Contents (Elt F)),
    unary main_v2 main_v5 (broadcastInDim S256x256 ![0, 1] bcast_S256x1_S256x256_0_1 : (⟨S256x1, .i32⟩ : BufTy).Contents (Elt F) → (⟨S256x256, .i32⟩ : BufTy).Contents (Elt F)),
    unary main_v4 main_v6 (broadcastInDim S256x256 ![0, 1] bcast_S1x256_S256x256_0_1 : (⟨S1x256, .i32⟩ : BufTy).Contents (Elt F) → (⟨S256x256, .i32⟩ : BufTy).Contents (Elt F)),
    binary main_v5 main_v6 main_v7 (addi : (⟨S256x256, .i32⟩ : BufTy).Contents (Elt F) → (⟨S256x256, .i32⟩ : BufTy).Contents (Elt F) → (⟨S256x256, .i32⟩ : BufTy).Contents (Elt F)),
    nullary main_c (constantI S_ 32 256#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S256x256 ![] bcast_S_S256x256),
    TRef.binary (.of main_v7) main_call0.v3 main_call0.v4 Host.remsi,
    TRef.nullary main_call0.c_1 (constantI S_ 32 0#32),
    TRef.unary main_call0.c_1 main_call0.v5 (broadcastInDim S256x256 ![] bcast_S_S256x256),
    TRef.binary main_call0.v4 main_call0.v5 main_call0.v6 (cmpi .ne),
    TRef.nullary main_call0.c_2 (constantI S_ 32 0#32),
    TRef.unary main_call0.c_2 main_call0.v7 (broadcastInDim S256x256 ![] bcast_S_S256x256),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S256x256 ![] bcast_S_S256x256),
    TRef.binary main_call0.v8 main_call0.v10 main_call0.v11 (cmpi .ne),
    TRef.binary main_call0.v11 main_call0.v6 main_call0.v12 andi,
    TRef.unary main_call0.call0.v0 main_call0.v13 (broadcastInDim S256x256 ![] bcast_S_S256x256),
    TRef.binary main_call0.v4 main_call0.v13 main_call0.v14 addi,
    TRef.ternary main_call0.v12 main_call0.v14 main_call0.v4 main_call0.v15 select,
    nullary main_c_0 (constantI S_ 32 0#32),
    unary main_c_0 main_v9 (broadcastInDim S256x256 ![] bcast_S_S256x256 : (⟨S_, .i32⟩ : BufTy).Contents (Elt F) → (⟨S256x256, .i32⟩ : BufTy).Contents (Elt F)),
    binary main_v8 main_v9 main_v10 (cmpi .slt : (⟨S256x256, .i32⟩ : BufTy).Contents (Elt F) → (⟨S256x256, .i32⟩ : BufTy).Contents (Elt F) → (⟨S256x256, .i1⟩ : BufTy).Contents (Elt F)),
    nullary main_c_1 (constantI S_ 32 256#32),
    unary main_c_1 main_v11 (broadcastInDim S256x256 ![] bcast_S_S256x256 : (⟨S_, .i32⟩ : BufTy).Contents (Elt F) → (⟨S256x256, .i32⟩ : BufTy).Contents (Elt F)),
    binary main_v8 main_v11 main_v12 (addi : (⟨S256x256, .i32⟩ : BufTy).Contents (Elt F) → (⟨S256x256, .i32⟩ : BufTy).Contents (Elt F) → (⟨S256x256, .i32⟩ : BufTy).Contents (Elt F)),
    ternary main_v10 main_v12 main_v8 main_v13 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    unary main_v13 main_v14 (broadcastInDim S256x256x1 ![0, 1] bcast_S256x256_S256x256x1_0_1 : (⟨S256x256, .i32⟩ : BufTy).Contents (Elt F) → (⟨S256x256x1, .i32⟩ : BufTy).Contents (Elt F)),
    binary main_v0 main_v14 main_v15 ((fun x i => Host.gather gather_S1024x256_S256x256x1_S1024x256x256_0_1_n_n_1_2_10241 x i) : (⟨S1024x256, .f32⟩ : BufTy).Contents (Elt F) → (⟨S256x256x1, .i32⟩ : BufTy).Contents (Elt F) → (⟨S1024x256x256, .f32⟩ : BufTy).Contents (Elt F)),
    unary main_v0 main_v16 (broadcastInDim S1024x1x256 ![0, 2] bcast_S1024x256_S1024x1x256_0_2 : (⟨S1024x256, .f32⟩ : BufTy).Contents (Elt F) → (⟨S1024x1x256, .f32⟩ : BufTy).Contents (Elt F)),
    unary main_v16 main_v17 (broadcastInDim S1024x256x256 ![0, 1, 2] bcast_S1024x1x256_S1024x256x256_0_1_2 : (⟨S1024x1x256, .f32⟩ : BufTy).Contents (Elt F) → (⟨S1024x256x256, .f32⟩ : BufTy).Contents (Elt F)),
    binary main_v17 main_v15 main_v18 (mulf : (⟨S1024x256x256, .f32⟩ : BufTy).Contents (Elt F) → (⟨S1024x256x256, .f32⟩ : BufTy).Contents (Elt F) → (⟨S1024x256x256, .f32⟩ : BufTy).Contents (Elt F)),
    binary main_v18 main_v15 main_v19 ((fun l r => Host.dotGeneral dot_S1024x256x256_S1024x256x256_S1024x256x256_2_1_1_2_0_0 none l r) : (⟨S1024x256x256, .f32⟩ : BufTy).Contents (Elt F) → (⟨S1024x256x256, .f32⟩ : BufTy).Contents (Elt F) → (⟨S1024x256x256, .f32⟩ : BufTy).Contents (Elt F)),
    reshape main_v19 main_v20 rfl shapeCasts_S1024x256x256_S64x16x256x256 ]

set_option maxRecDepth 4096 in
/-- @main is that straight line: the two functions unfolded at their calls, sequencing reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., nullary_bufs_sub .., unary_bufs_sub .., unary_bufs_sub ..,
    unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    binary_bufs_sub .., reshape_bufs_sub ..⟩

/-- The table of gather indices: entry (a, i) is (a + i) wrapped into 0 … 255 the way the traced program wraps it. -/
def idxTab : IVec S256x256 32 :=
  let i0 : IVec S256 32 := iotaInDim S256 32 0
  let col : IVec S256x256 32 := broadcastInDim S256x256 ![0, 1] bcast_S256x1_S256x256_0_1 (broadcastInDim S256x1 ![0] bcast_S256_S256x1_0 i0)
  let row : IVec S256x256 32 := broadcastInDim S256x256 ![0, 1] bcast_S1x256_S256x256_0_1 (broadcastInDim S1x256 ![1] bcast_S256_S1x256_1 i0)
  let sum : IVec S256x256 32 := addi col row
  let d0 : IVec S_ 32 := id (constantI S_ 32 256#32)
  let d : IVec S_ 32 := select (cmpi .eq d0 (constantI S_ 32 0#32)) (constantI S_ 32 1#32) d0
  let r : IVec S256x256 32 := Host.remsi sum (broadcastInDim S256x256 ![] bcast_S_S256x256 d)
  let nz : IVec S256x256 1 := cmpi .ne r (broadcastInDim S256x256 ![] bcast_S_S256x256 (constantI S_ 32 0#32))
  let neg : IVec S256x256 1 := cmpi .slt r (broadcastInDim S256x256 ![] bcast_S_S256x256 (constantI S_ 32 0#32))
  let dneg : IVec S256x256 1 := broadcastInDim S256x256 ![] bcast_S_S256x256 (cmpi .slt d (constantI S_ 32 0#32))
  let fix : IVec S256x256 1 := andi (cmpi .ne neg dneg) nz
  let r' : IVec S256x256 32 := select fix (addi r (broadcastInDim S256x256 ![] bcast_S_S256x256 d)) r
  select (cmpi .slt r' (broadcastInDim S256x256 ![] bcast_S_S256x256 (constantI S_ 32 0#32)))
    (addi r' (broadcastInDim S256x256 ![] bcast_S_S256x256 (constantI S_ 32 256#32))) r'

/-- The rows of x gathered through the table: all_rolls[m, a, i] = x[m, table[a, i]]. -/
def rolls (xf : FVec F S1024x256 .f32) : FVec F S1024x256x256 .f32 :=
  Host.gather gather_S1024x256_S256x256x1_S1024x256x256_0_1_n_n_1_2_10241 xf
    (broadcastInDim S256x256x1 ![0, 1] bcast_S256x256_S256x256x1_0_1 idxTab)

/-- The reference's result as one term of its argument. -/
def refOut (x : FVec F S64x16x16x16 .f32) : FVec F S64x16x256x256 .f32 :=
  let xf : FVec F S1024x256 .f32 := shapeCast S1024x256 x shapeCasts_S64x16x16x16_S1024x256
  let xb : FVec F S1024x256x256 .f32 := broadcastInDim S1024x256x256 ![0, 1, 2] bcast_S1024x1x256_S1024x256x256_0_1_2
    (broadcastInDim S1024x1x256 ![0, 2] bcast_S1024x256_S1024x1x256_0_2 xf)
  shapeCast S64x16x256x256
    (Host.dotGeneral dot_S1024x256x256_S1024x256x256_S1024x256x256_2_1_1_2_0_0 none (mulf xb (rolls xf)) (rolls xf))
    shapeCasts_S1024x256x256_S64x16x256x256

attribute [local irreducible] Host.gather Host.remsi in
set_option maxRecDepth 8192 in
set_option maxHeartbeats 1600000 in
/-- The fold of the operations at the result buffer is `refOut` of the argument buffer's contents: each operation
    writes its own buffer from the buffers written before it, so the fold unrolls to the composed term. -/
theorem out_eq (V : Valuation τ sig (Elt F)) :
    after ops V (main_v20 : DevRef τ sig) = refOut (V (main_arg0 : DevRef τ sig)) := by
  simp only [after_cons, after_nil]
  rfl

set_option maxRecDepth 8192 in
set_option maxHeartbeats 1600000 in
/-- No operation writes the argument buffer. -/
theorem arg0_eq (V : Valuation τ sig (Elt F)) :
    after ops V (main_arg0 : DevRef τ sig) = V (main_arg0 : DevRef τ sig) := by
  simp only [after_cons, after_nil]
  rfl

/-- On every device, for any float values, from any memory with zero counters: every weakly fair execution of @main
    terminates with the result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v20).trans (out_eq (launchContents m c)),
      (h c main_arg0).trans (arg0_eq (launchContents m c))⟩)
    (run_seq scopedRefs_eq scopedSems_eq defs main (fun _ => ops) main_eq (fun _ => ops_sub) m ρ)

end Cert.ReferenceIdeal.RefRun

end
-- ==== Proof.RefValue.lean ====
/-
  The value of the reference's result: the triple correlation of the rows of its argument.

  The table of gather indices holds at (a, i) the 32-bit word of (a + i) mod 256: the two iotas broadcast and added give
  a + i < 512, the signed remainder by 256 of a non-negative word is the remainder of its number, and a non-negative
  remainder triggers neither the sign correction nor the final wrap of negatives.  The gather therefore reads
  R[m, a, i] = x[m, (a + i) mod 256] (the start index, read signed and clamped into 0 … 255, is unchanged by the clamp),
  and the contraction over i of (x[m, i] * R[m, a, i]) with R[m, i, c] is, term by term and in the same order,
  the sum over k of (x[m, k] * x[m, (k + a) mod 256]) * x[m, (k + c) mod 256].  The only arithmetic used on the lane
  numbers is a + k = k + a; none on the extended reals.
-/
import proofs.«163062_j18614388261224_2_alg».proof.Proof.RefRun
import proofs.«163062_j18614388261224_2_alg».proof.Proof.Spec
import Idealize.ShloMosaic.Lib.ValueIdx
import Idealize.ShloMosaic.Lib.IdealHost
import Idealize.ShloMosaic.Lib.Pipeline.Value
import Idealize.ShloMosaic.Lib.StackMember
import Idealize.ShloMosaic.Lib.WordArith
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-! ## The 32-bit words of the index table -/

/-- The signed remainder by 256 of a non-negative word is the remainder of its number. -/
theorem remsi_256 (n : Nat) (hn : n < 2 ^ 31) :
    IntOp.remsi .host (BitVec.ofNat 32 n) 256#32 = BitVec.ofNat 32 (n % 256) := by
  unfold IntOp.remsi
  rw [if_neg (by simp [IntOp.SDivCorner])]
  have h1 : (BitVec.ofNat 32 n).msb = false := by
    rw [BitVec.msb_eq_false_iff_two_mul_lt]; simp; omega
  have h2 : (256#32 : BitVec 32).msb = false := by decide
  unfold BitVec.srem
  rw [h1, h2]
  apply BitVec.eq_of_toNat_eq
  simp
  omega

/-- A non-negative word is not below zero. -/
theorem slt_zero (k : Nat) (hk : k < 2 ^ 31) : IntOp.cmpi .slt (BitVec.ofNat 32 k) 0#32 = 0#1 := by
  simp only [IntOp.cmpi, BitVec.slt]
  rw [WordArith.toInt_ofNat_small k hk]
  have h : ¬ ((k : Int) < (0#32 : BitVec 32).toInt) := by simp
  rw [decide_eq_false h]
  rfl

/-- The reference's wrap of a word into 0 … 255: the signed remainder by the selected divisor (256, or 1 were it 0),
    the divisor added back when the remainder is non-zero and of the other sign, and 256 added to a negative result. -/
def wrapWord (s : BitVec 32) : BitVec 32 :=
  let d : BitVec 32 := Scalar.select (IntOp.cmpi .eq 256#32 0#32) 1#32 256#32
  let r : BitVec 32 := IntOp.remsi .host s d
  let nz : BitVec 1 := IntOp.cmpi .ne r 0#32
  let neg : BitVec 1 := IntOp.cmpi .slt r 0#32
  let dneg : BitVec 1 := IntOp.cmpi .slt d 0#32
  let fix : BitVec 1 := IntOp.andi (IntOp.cmpi .ne neg dneg) nz
  let r' : BitVec 32 := Scalar.select fix (IntOp.addi r d) r
  Scalar.select (IntOp.cmpi .slt r' 0#32) (IntOp.addi r' 256#32) r'

/-- On a non-negative word the wrap is the remainder by 256: the divisor select picks 256, the remainder is
    non-negative, so neither correction fires. -/
theorem wrapWord_ofNat (n : Nat) (hn : n < 2 ^ 31) : wrapWord (BitVec.ofNat 32 n) = BitVec.ofNat 32 (n % 256) := by
  have hd : Scalar.select (IntOp.cmpi .eq 256#32 0#32) (1#32 : BitVec 32) 256#32 = 256#32 := by decide
  have hdneg : IntOp.cmpi .slt (256#32 : BitVec 32) 0#32 = 0#1 := by decide
  have hne : IntOp.cmpi .ne (0#1 : BitVec 1) 0#1 = 0#1 := by decide
  have hk : n % 256 < 2 ^ 31 := by omega
  unfold wrapWord
  simp only [hd, remsi_256 n hn, slt_zero _ hk, hdneg, hne]
  have hand : ∀ x : BitVec 1, IntOp.andi 0#1 x = 0#1 := fun x => by simp [IntOp.andi]
  rw [hand, select_zero, slt_zero _ hk, select_zero]

/-! ## The index table read at an entry -/

/-- Entry (a, i) of the table is the wrap of the word a + i (the two iotas, each copied along the other axis, added). -/
theorem idxTab_apply_word (a i : Fin 256) :
    idxTab (ix2 a i) = wrapWord (IntOp.addi (BitVec.ofNat 32 a.val) (BitVec.ofNat 32 i.val)) := rfl

/-- Entry (a, i) of the table is the word of (a + i) mod 256. -/
theorem idxTab_apply (a i : Fin 256) : idxTab (ix2 a i) = BitVec.ofNat 32 ((a.val + i.val) % 256) := by
  rw [idxTab_apply_word]
  have e : IntOp.addi (BitVec.ofNat 32 a.val) (BitVec.ofNat 32 i.val) = BitVec.ofNat 32 (a.val + i.val) := by
    unfold IntOp.addi; exact (BitVec.ofNat_add _ _).symm
  rw [e]
  exact wrapWord_ofNat _ (by have := a.isLt; have := i.isLt; omega)

/-! ## The gather read at an index -/

/-- The gather at (m, a, i) reads row m of the operand at the start index held at (a, i, 0), read signed and clamped
    into 0 … 255: axis 0 is the offset axis (the whole column of rows), axis 1 is collapsed and indexed. -/
theorem gather_apply {α : Type} (xf : S1024x256.Idx → α) (idx : IVec S256x256x1 32) (m : Fin 1024) (a i : Fin 256) :
    Host.gather gather_S1024x256_S256x256x1_S1024x256x256_0_1_n_n_1_2_10241 xf idx (ix3 m a i)
      = xf (ix2 m ⟨min (idx (ix3 a i (0 : Fin 1))).toInt.toNat 255, by omega⟩) := by
  unfold Host.gather
  refine congrArg xf (funext fun ax => Fin.ext ?_)
  match ax with
  | ⟨0, _⟩ =>
    show gather_S1024x256_S256x256x1_S1024x256x256_0_1_n_n_1_2_10241.start (ix3 m a i) idx ⟨0, _⟩
        + gather_S1024x256_S256x256x1_S1024x256x256_0_1_n_n_1_2_10241.batchCoord (ix3 m a i) ⟨0, _⟩
        + gather_S1024x256_S256x256x1_S1024x256x256_0_1_n_n_1_2_10241.offCoord (ix3 m a i) ⟨0, _⟩ = m.val
    rw [GatherDims.batchCoord_eq_zero _ _ _ List.not_mem_nil]
    have hs : gather_S1024x256_S256x256x1_S1024x256x256_0_1_n_n_1_2_10241.start (ix3 m a i) idx ⟨0, by decide⟩ = 0 := by
      unfold GatherDims.start
      rw [dif_neg (by decide)]
    have ho : gather_S1024x256_S256x256x1_S1024x256x256_0_1_n_n_1_2_10241.offCoord (ix3 m a i) ⟨0, by decide⟩ = m.val := by
      unfold GatherDims.offCoord
      rw [dif_pos ((GatherDims.mem_sKept _ _).mpr ⟨by decide, List.not_mem_nil⟩)]
      rfl
    rw [hs, ho]; omega
  | ⟨1, _⟩ =>
    show gather_S1024x256_S256x256x1_S1024x256x256_0_1_n_n_1_2_10241.start (ix3 m a i) idx ⟨1, _⟩
        + gather_S1024x256_S256x256x1_S1024x256x256_0_1_n_n_1_2_10241.batchCoord (ix3 m a i) ⟨1, _⟩
        + gather_S1024x256_S256x256x1_S1024x256x256_0_1_n_n_1_2_10241.offCoord (ix3 m a i) ⟨1, _⟩
        = min (idx (ix3 a i (0 : Fin 1))).toInt.toNat 255
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S1024x256.rank) ∈ gather_S1024x256_S256x256x1_S1024x256x256_0_1_n_n_1_2_10241.startIndexMap
      from List.mem_singleton.mpr rfl)]
    have hsi : gather_S1024x256_S256x256x1_S1024x256x256_0_1_n_n_1_2_10241.siIdx (ix3 m a i)
        ⟨List.idxOf (⟨1, by decide⟩ : Fin S1024x256.rank) gather_S1024x256_S256x256x1_S1024x256x256_0_1_n_n_1_2_10241.startIndexMap,
          List.idxOf_lt_length_iff.2 (List.mem_singleton.mpr rfl)⟩ = ix3 a i (0 : Fin 1) := by
      funext b; refine Fin.ext ?_
      match b with
      | ⟨0, _⟩ => rfl
      | ⟨1, _⟩ => rfl
      | ⟨2, _⟩ => rfl
    rw [hsi]
    rfl

/-! ## The contraction read at an index -/

/-- The contraction at (m, a, c) is the sum over i of the left operand at (m, a, i) times the right at (m, i, c): row m
    is the batch axis, the left operand's last axis is contracted with the right operand's middle one. -/
theorem dot_apply (A B : FVec Ideal S1024x256x256 .f32) (m : Fin 1024) (a c : Fin 256) :
    Host.dotGeneral dot_S1024x256x256_S1024x256x256_S1024x256x256_2_1_1_2_0_0 none A B (ix3 m a c)
      = ∑ k : Fin 256, A (ix3 m a k) * B (ix3 m k c) :=
  StackMember.dotGeneral_stack_apply (G := 1024) (m := 256) (n := 256) (k := 256)
    dot_S1024x256x256_S1024x256x256_S1024x256x256_2_1_1_2_0_0_wf none A B m a c

/-- The row copied along the middle axis: entry (m, a, k) is x at (m, k). -/
theorem xb_apply {α : Type} (xf : S1024x256.Idx → α) (m : Fin 1024) (a k : Fin 256) :
    broadcastInDim S1024x256x256 ![0, 1, 2] bcast_S1024x1x256_S1024x256x256_0_1_2
      (broadcastInDim S1024x1x256 ![0, 2] bcast_S1024x256_S1024x1x256_0_2 xf) (ix3 m a k) = xf (ix2 m k) := by
  refine (broadcastInDim_apply _ _ _ (ix3 m a k) (ix3 m (0 : Fin 1) k)
    (fun ax => match ax with | ⟨0, _⟩ => rfl | ⟨1, _⟩ => rfl | ⟨2, _⟩ => rfl)).trans ?_
  exact broadcastInDim_apply _ _ _ (ix3 m (0 : Fin 1) k) (ix2 m k)
    (fun ax => match ax with | ⟨0, _⟩ => rfl | ⟨1, _⟩ => rfl)

/-! ## The rolled rows, and the result -/

/-- A start index that is the word of (a + i) mod 256 reads signed, clamped into 0 … 255, as (a + i) mod 256. -/
theorem clamp_idx (a i : Fin 256) (w : BitVec 32) (hw : w = BitVec.ofNat 32 ((a.val + i.val) % 256)) :
    min w.toInt.toNat 255 = (a.val + i.val) % 256 := by
  subst hw
  rw [WordArith.toInt_ofNat_small _ (by omega), Int.toNat_natCast]
  omega

/-- The rolled rows: entry (m, a, i) is x at (m, (a + i) mod 256). -/
theorem rolls_apply (xf : FVec F S1024x256 .f32) (m : Fin 1024) (a i : Fin 256) :
    rolls xf (ix3 m a i) = xf (ix2 m (Cert.TripleCorr.wrap a i)) := by
  have e : broadcastInDim S256x256x1 ![0, 1] bcast_S256x256_S256x256x1_0_1 idxTab (ix3 a i (0 : Fin 1)) = idxTab (ix2 a i) :=
    broadcastInDim_apply _ _ _ (ix3 a i (0 : Fin 1)) (ix2 a i) (fun ax => match ax with | ⟨0, _⟩ => rfl | ⟨1, _⟩ => rfl)
  unfold rolls
  refine (gather_apply xf _ m a i).trans (congrArg xf ?_)
  refine congrArg (fun q : Fin 256 => ix2 m q) (Fin.ext ?_)
  exact clamp_idx a i _ (e.trans (idxTab_apply a i))

/-- Moving on by a from lane k and by k from lane a reach the same lane. -/
theorem wrap_comm (a k : Fin 256) : Cert.TripleCorr.wrap a k = Cert.TripleCorr.wrap k a :=
  Fin.ext (by rw [Cert.TripleCorr.wrap_val, Cert.TripleCorr.wrap_val, Nat.add_comm])

/-- The contraction of (x[m, i] * R[m, a, i]) with R[m, i, c] over i, where R[m, p, q] = x[m, (p + q) mod 256], is the
    triple correlation of row m at shifts a, c: term by term the same product. -/
theorem inner_eq (xf : FVec Ideal S1024x256 .f32) :
    Host.dotGeneral dot_S1024x256x256_S1024x256x256_S1024x256x256_2_1_1_2_0_0 none
        (mulf (broadcastInDim S1024x256x256 ![0, 1, 2] bcast_S1024x1x256_S1024x256x256_0_1_2
          (broadcastInDim S1024x1x256 ![0, 2] bcast_S1024x256_S1024x1x256_0_2 xf)) (rolls xf)) (rolls xf)
      = Cert.TripleCorr.tcArr xf := by
  funext j
  obtain ⟨m, a, c, rfl⟩ : ∃ (m : Fin 1024) (a c : Fin 256), j = ix3 m a c := ⟨j 0, j 1, j 2, eq_ix3 j⟩
  rw [dot_apply, Cert.TripleCorr.tcArr_apply]
  refine Finset.sum_congr rfl fun k _ => ?_
  rw [mulf_apply, xb_apply, rolls_apply, rolls_apply, wrap_comm a k]

/-- The reference's result is the triple correlation of the rows of its argument, reshaped. -/
theorem refOut_eq (x : FVec Ideal S64x16x16x16 .f32) :
    refOut (F := Ideal) x
      = shapeCast S64x16x256x256 (Cert.TripleCorr.tcArr (shapeCast S1024x256 x shapeCasts_S64x16x16x16_S1024x256))
          shapeCasts_S1024x256x256_S64x16x256x256 := by
  unfold refOut
  exact congrArg (fun y => shapeCast S64x16x256x256 y shapeCasts_S1024x256x256_S64x16x256x256)
    (inner_eq (shapeCast S1024x256 x shapeCasts_S64x16x16x16_S1024x256))

end Cert.ReferenceIdeal.RefValue

end
-- ==== Proof.lean ====
/-
  The certificate of the triple-correlation kernel against its reference.

  For x of shape [64, 16, 16, 16], read as 1024 rows of 256 lanes, both programs compute
      TC[m, a, c] = sum over k < 256 of (x[m, k] * x[m, (k + a) mod 256]) * x[m, (k + c) mod 256]
  and reshape it to [64, 16, 256, 256].

  The kernel works on 16 rows per grid point.  It builds two 256 x 256 matrices per row in scratch memory — row s of
  the first is x times x rotated by s lanes, row s of the second the rotation — by 256 lane rotations, each row put
  into its two-row slab by reading the slab and storing it back with that row replaced; then it multiplies the first
  by the transpose of the second.  After the two stores of a slab both of its rows are the body's own, so what the
  scratch held before plays no part (KiClosed), and at the ideal instance — a change of float format the identity,
  the matrix product a plain sum — the output block is the triple correlation of its rows (KiPoint); the 64 blocks
  tile the 1024 rows (KiArray).  The reference gathers x through the table of (a + i) mod 256 and contracts; its
  result is the same sum term by term (RefValue).  No property of the inputs is used: the precondition is never opened.

  The three frames: each kernel program by the pipeline's frame run over the body's run (KFrame at the word level,
  KiFrame at the ideal instance); the reference by its run as a straight line of host operations (RefRun).
  The idealization rewrote nothing, so its conjunct is `True`.
-/
import proofs.«163062_j18614388261224_2_alg».proof.Defs
import proofs.«163062_j18614388261224_2_alg».proof.Proof.Gen.Kernel
import proofs.«163062_j18614388261224_2_alg».proof.Proof.Gen.KernelIdeal
import proofs.«163062_j18614388261224_2_alg».proof.Proof.Gen.ReferenceIdeal
import proofs.«163062_j18614388261224_2_alg».proof.Proof.Gen.Pre_finite_inputs
import proofs.«163062_j18614388261224_2_alg».proof.Proof.KFrame
import proofs.«163062_j18614388261224_2_alg».proof.Proof.KiArray
import proofs.«163062_j18614388261224_2_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Run from memories that agree on the argument, the idealized kernel and the idealized reference both end with the
    triple correlation of the argument's rows, reshaped, and the argument as it was. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
